-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S2x524288 : Shape := ⟨2, ![2, 524288]⟩
abbrev S524288 : Shape := ⟨1, ![524288]⟩
abbrev S16384x256 : Shape := ⟨2, ![16384, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S524288 : S_.BroadcastsInDim S524288 (![] : Fin 0 → Fin S524288.rank)
  reducesTo_S524288_S_d0 : S524288.ReducesTo [0] S_
  bcast_S_S16384x256 : S_.BroadcastsInDim S16384x256 (![] : Fin 0 → Fin S16384x256.rank)
  reducesTo_S16384x256_S_d0_1 : S16384x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S2x524288 : S_.BroadcastsInDim S2x524288 (![] : Fin 0 → Fin S2x524288.rank)
  reducesTo_S2x524288_S_d0_1 : S2x524288.ReducesTo [0, 1] S_

variable [Facts]

def fn_part2 {F : FTy → Type} [FloatOps F] (main_arg1 : IVec S2x524288 32) (main_v32 : IVec S_ 1) (main_c_12 : IVec S_ 32) : IVec S_ 1 :=
  let main_v33 : IVec S2x524288 32 := broadcastInDim S2x524288 ![] bcast_S_S2x524288 main_c_12
  let main_v34 : IVec S2x524288 1 := cmpi .slt main_arg1 main_v33
  let main_c_13 : IVec S_ 1 := constantI S_ 1 1#1
  let main_v35 : IVec S_ 1 := (fun x v => Host.reduce IntOp.andi x v reducesTo_S2x524288_S_d0_1 h_S_) main_v34 main_c_13
  let main_v36 : IVec S_ 1 := andi main_v32 main_v35
  main_v36

def fn_part1 {F : FTy → Type} [FloatOps F] (main_arg1 : IVec S2x524288 32) (main_arg5 : FVec F S256x16 .f32) (main_arg6 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x16 .f32 := Host.absf main_arg5
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_c_10 : IVec S_ 32 := constantI S_ 32 0#32
  let main_v29 : IVec S2x524288 32 := broadcastInDim S2x524288 ![] bcast_S_S2x524288 main_c_10
  let main_v30 : IVec S2x524288 1 := cmpi .sge main_arg1 main_v29
  let main_c_11 : IVec S_ 1 := constantI S_ 1 1#1
  let main_v31 : IVec S_ 1 := (fun x v => Host.reduce IntOp.andi x v reducesTo_S2x524288_S_d0_1 h_S_) main_v30 main_c_11
  let main_v32 : IVec S_ 1 := andi main_v28 main_v31
  let main_c_12 : IVec S_ 32 := constantI S_ 32 16384#32
  fn_part2 (F := F) main_arg1 main_v32 main_c_12

def fn {F : FTy → Type} [FloatOps F] (main_arg0 : FVec F S16384x16384 .f32) (main_arg1 : IVec S2x524288 32) (main_arg2 : FVec F S524288 .f32) (main_arg3 : FVec F S16384x256 .f32) (main_arg4 : FVec F S256 .f32) (main_arg5 : FVec F S256x16 .f32) (main_arg6 : FVec F S16 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S524288 .f32 := Host.absf main_arg2
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S16384x256 .f32 := Host.absf main_arg3
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S16384x16384 : Shape := ⟨2, ![16384, 16384]⟩
abbrev S2x524288 : Shape := ⟨2, ![2, 524288]⟩
abbrev S524288 : Shape := ⟨1, ![524288]⟩
abbrev S16384x256 : Shape := ⟨2, ![16384, 256]⟩
abbrev S256 : Shape := ⟨1, ![256]⟩
abbrev S256x16 : Shape := ⟨2, ![256, 16]⟩
abbrev S16 : Shape := ⟨1, ![16]⟩
abbrev S1x524288 : Shape := ⟨2, ![1, 524288]⟩
abbrev S16384 : Shape := ⟨1, ![16384]⟩
abbrev S540672 : Shape := ⟨1, ![540672]⟩
abbrev S_ : Shape := ⟨0, ![]⟩
abbrev S540672x1 : Shape := ⟨2, ![540672, 1]⟩
abbrev S540672x2 : Shape := ⟨2, ![540672, 2]⟩
abbrev S1x256 : Shape := ⟨2, ![1, 256]⟩
abbrev S1x16 : Shape := ⟨2, ![1, 16]⟩
abbrev S64x16384 : Shape := ⟨2, ![64, 16384]⟩
abbrev S64x256 : Shape := ⟨2, ![64, 256]⟩
abbrev S128x16384 : Shape := ⟨2, ![128, 16384]⟩
abbrev S128x256 : Shape := ⟨2, ![128, 256]⟩
abbrev S16384x16 : Shape := ⟨2, ![16384, 16]⟩
abbrev S2048x256 : Shape := ⟨2, ![2048, 256]⟩
abbrev S2048x16 : Shape := ⟨2, ![2048, 16]⟩
abbrev S128x16 : Shape := ⟨2, ![128, 16]⟩

abbrev nBuf : Space → Nat
  | .hbm => 85
  | .vmem => 24
  | .smem => 0
  | _ => 0

abbrev bufTy : (tb : Table) → Fin (tcTables nBuf tb) → BufTy
  | .hbm, ⟨0, _⟩ => ⟨S16384x16384, .f32⟩
  | .hbm, ⟨1, _⟩ => ⟨S2x524288, .i32⟩
  | .hbm, ⟨2, _⟩ => ⟨S524288, .f32⟩
  | .hbm, ⟨3, _⟩ => ⟨S16384x256, .f32⟩
  | .hbm, ⟨4, _⟩ => ⟨S256, .f32⟩
  | .hbm, ⟨5, _⟩ => ⟨S256x16, .f32⟩
  | .hbm, ⟨6, _⟩ => ⟨S16, .f32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S16384, .i32⟩
  | .hbm, ⟨12, _⟩ => ⟨S540672, .i32⟩
  | .hbm, ⟨13, _⟩ => ⟨S540672, .i32⟩
  | .hbm, ⟨14, _⟩ => ⟨S_, .f32⟩
  | .hbm, ⟨15, _⟩ => ⟨S16384, .f32⟩
  | .hbm, ⟨16, _⟩ => ⟨S540672, .f32⟩
  | .hbm, ⟨17, _⟩ => ⟨S_, .f32⟩
  | .hbm, ⟨18, _⟩ => ⟨S16384, .f32⟩
  | .hbm, ⟨19, _⟩ => ⟨S540672x1, .i32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .i1⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .i32⟩
  | .hbm, ⟨33, _⟩ => ⟨S540672, .i32⟩
  | .hbm, ⟨34, _⟩ => ⟨S540672, .i1⟩
  | .hbm, ⟨35, _⟩ => ⟨S_, .i32⟩
  | .hbm, ⟨36, _⟩ => ⟨S540672, .i32⟩
  | .hbm, ⟨37, _⟩ => ⟨S540672, .i32⟩
  | .hbm, ⟨38, _⟩ => ⟨S540672, .i32⟩
  | .hbm, ⟨39, _⟩ => ⟨S540672x1, .i32⟩
  | .hbm, ⟨40, _⟩ => ⟨S540672, .f32⟩
  | .hbm, ⟨41, _⟩ => ⟨S540672, .f32⟩
  | .hbm, ⟨42, _⟩ => ⟨S_, .i32⟩
  | .hbm, ⟨43, _⟩ => ⟨S540672, .i32⟩
  | .hbm, ⟨44, _⟩ => ⟨S540672, .i1⟩
  | .hbm, ⟨45, _⟩ => ⟨S_, .i32⟩
  | .hbm, ⟨46, _⟩ => ⟨S540672, .i32⟩
  | .hbm, ⟨47, _⟩ => ⟨S540672, .i32⟩
  | .hbm, ⟨48, _⟩ => ⟨S540672, .i32⟩
  | .hbm, ⟨49, _⟩ => ⟨S540672x1, .i32⟩
  | .hbm, ⟨50, _⟩ => ⟨S540672, .f32⟩
  | .hbm, ⟨51, _⟩ => ⟨S540672, .f32⟩
  | .hbm, ⟨52, _⟩ => ⟨S_, .f32⟩
  | .hbm, ⟨53, _⟩ => ⟨S16384x16384, .f32⟩
  | .hbm, ⟨54, _⟩ => ⟨S_, .i32⟩
  | .hbm, ⟨55, _⟩ => ⟨S540672, .i32⟩
  | .hbm, ⟨56, _⟩ => ⟨S540672, .i1⟩
  | .hbm, ⟨57, _⟩ => ⟨S_, .i32⟩
  | .hbm, ⟨58, _⟩ => ⟨S540672, .i32⟩
  | .hbm, ⟨59, _⟩ => ⟨S540672, .i32⟩
  | .hbm, ⟨60, _⟩ => ⟨S540672, .i32⟩
  | .hbm, ⟨61, _⟩ => ⟨S_, .i32⟩
  | .hbm, ⟨62, _⟩ => ⟨S540672, .i32⟩
  | .hbm, ⟨63, _⟩ => ⟨S540672, .i1⟩
  | .hbm, ⟨64, _⟩ => ⟨S_, .i32⟩
  | .hbm, ⟨65, _⟩ => ⟨S540672, .i32⟩
  | .hbm, ⟨66, _⟩ => ⟨S540672, .i32⟩
  | .hbm, ⟨67, _⟩ => ⟨S540672, .i32⟩
  | .hbm, ⟨68, _⟩ => ⟨S540672x1, .i32⟩
  | .hbm, ⟨69, _⟩ => ⟨S540672x1, .i32⟩
  | .hbm, ⟨70, _⟩ => ⟨S540672x2, .i32⟩
  | .hbm, ⟨71, _⟩ => ⟨S16384x16384, .f32⟩
  | .hbm, ⟨72, _⟩ => ⟨S16384x16384, .bf16⟩
  | .hbm, ⟨73, _⟩ => ⟨S16384x256, .bf16⟩
  | .hbm, ⟨74, _⟩ => ⟨S256x16, .bf16⟩
  | .hbm, ⟨75, _⟩ => ⟨S1x256, .f32⟩
  | .hbm, ⟨76, _⟩ => ⟨S1x16, .f32⟩
  | .hbm, ⟨77, _⟩ => ⟨S_, .f32⟩
  | .hbm, ⟨78, _⟩ => ⟨S1x256, .f32⟩
  | .hbm, ⟨79, _⟩ => ⟨S_, .f32⟩
  | .hbm, ⟨80, _⟩ => ⟨S1x16, .f32⟩
  | .hbm, ⟨81, _⟩ => ⟨S16384x256, .bf16⟩
  | .hbm, ⟨82, _⟩ => ⟨S16384x256, .bf16⟩
  | .hbm, ⟨83, _⟩ => ⟨S16384x16, .bf16⟩
  | .hbm, ⟨84, _⟩ => ⟨S16384x16, .f32⟩
  | .local _ .vmem, ⟨0, _⟩ => ⟨S64x16384, .f32⟩
  | .local _ .vmem, ⟨1, _⟩ => ⟨S64x16384, .f32⟩
  | .local _ .vmem, ⟨2, _⟩ => ⟨S16384x256, .bf16⟩
  | .local _ .vmem, ⟨3, _⟩ => ⟨S1x256, .f32⟩
  | .local _ .vmem, ⟨4, _⟩ => ⟨S64x256, .bf16⟩
  | .local _ .vmem, ⟨5, _⟩ => ⟨S64x256, .bf16⟩
  | .local _ .vmem, ⟨6, _⟩ => ⟨S128x16384, .bf16⟩
  | .local _ .vmem, ⟨7, _⟩ => ⟨S128x16384, .bf16⟩
  | .local _ .vmem, ⟨8, _⟩ => ⟨S16384x256, .bf16⟩
  | .local _ .vmem, ⟨9, _⟩ => ⟨S1x256, .f32⟩
  | .local _ .vmem, ⟨10, _⟩ => ⟨S128x256, .bf16⟩
  | .local _ .vmem, ⟨11, _⟩ => ⟨S128x256, .bf16⟩
  | .local _ .vmem, ⟨12, _⟩ => ⟨S2048x256, .bf16⟩
  | .local _ .vmem, ⟨13, _⟩ => ⟨S2048x256, .bf16⟩
  | .local _ .vmem, ⟨14, _⟩ => ⟨S256x16, .bf16⟩
  | .local _ .vmem, ⟨15, _⟩ => ⟨S1x16, .f32⟩
  | .local _ .vmem, ⟨16, _⟩ => ⟨S2048x16, .bf16⟩
  | .local _ .vmem, ⟨17, _⟩ => ⟨S2048x16, .bf16⟩
  | .local _ .vmem, ⟨18, _⟩ => ⟨S128x16384, .bf16⟩
  | .local _ .vmem, ⟨19, _⟩ => ⟨S128x16384, .bf16⟩
  | .local _ .vmem, ⟨20, _⟩ => ⟨S16384x16, .bf16⟩
  | .local _ .vmem, ⟨21, _⟩ => ⟨S1x16, .f32⟩
  | .local _ .vmem, ⟨22, _⟩ => ⟨S128x16, .f32⟩
  | .local _ .vmem, ⟨23, _⟩ => ⟨S128x16, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_c_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x16 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x16 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x16384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16384x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S128x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S16384_S540672_d0 : Shape.Concatenates [S524288, S16384] S540672 0
  bcast_S_S16384 : S_.BroadcastsInDim S16384 (![] : Fin 0 → Fin S16384.rank)
  bcast_S540672_S540672x1_0 : S540672.BroadcastsInDim S540672x1 (![0] : Fin 1 → Fin S540672x1.rank)
  bcast_S_S540672 : S_.BroadcastsInDim S540672 (![] : Fin 0 → Fin S540672.rank)
  bcast_S_S16384x16384 : S_.BroadcastsInDim S16384x16384 (![] : Fin 0 → Fin S16384x16384.rank)
  concatenates_S540672x1_S540672x1_S540672x2_d1 : Shape.Concatenates [S540672x1, S540672x1] S540672x2 1
  bitsLt_bf16_f32 : FTy.bits .bf16 < FTy.bits .f32
  bcast_S256_S1x256_1 : S256.BroadcastsInDim S1x256 (![1] : Fin 1 → Fin S1x256.rank)
  bcast_S16_S1x16_1 : S16.BroadcastsInDim S1x16 (![1] : Fin 1 → Fin S1x16.rank)
  bcast_S_S1x256 : S_.BroadcastsInDim S1x256 (![] : Fin 0 → Fin S1x256.rank)
  bcast_S_S1x16 : S_.BroadcastsInDim S1x16 (![] : Fin 0 → Fin S1x16.rank)
  inb_S64x16384_S64x16384_0_0 : ∀ a, (![0, 0] : Fin 2 → Nat) a + S64x16384.size a ≤ S64x16384.size a
  h_S64x16384 : 0 < S64x16384.numel
  inb_S16384x256_S16384x256_0_0 : ∀ a, (![0, 0] : Fin 2 → Nat) a + S16384x256.size a ≤ S16384x256.size a
  h_S16384x256 : 0 < S16384x256.numel
  shapeCasts_S16384x256_S16384x256 : S16384x256.ShapeCasts S16384x256
  inb_S64x256_S64x256_0_0 : ∀ a, (![0, 0] : Fin 2 → Nat) a + S64x256.size a ≤ S64x256.size a
  h_S64x256 : 0 < S64x256.numel
  packedbf16_S64x256_S64x256_0_0 : (Rect.unit (s := S64x256) ![0, 0] S64x256.size inb_S64x256_S64x256_0_0).PackedRows (EltTy.packing .bf16)
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  packedbf16_S128x256_S128x256_0_0 : (Rect.unit (s := S128x256) ![0, 0] S128x256.size inb_S128x256_S128x256_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S2048x16_S2048x16_0_0 : ∀ a, (![0, 0] : Fin 2 → Nat) a + S2048x16.size a ≤ S2048x16.size a
  h_S2048x16 : 0 < S2048x16.numel
  packedbf16_S2048x16_S2048x16_0_0 : (Rect.unit (s := S2048x16) ![0, 0] S2048x16.size inb_S2048x16_S2048x16_0_0).PackedRows (EltTy.packing .bf16)
  inb_S16384x16_S16384x16_0_0 : ∀ a, (![0, 0] : Fin 2 → Nat) a + S16384x16.size a ≤ S16384x16.size a
  h_S16384x16 : 0 < S16384x16.numel
  shapeCasts_S16384x16_S16384x16 : S16384x16.ShapeCasts S16384x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  inb_S128x16_S128x16_0_0 : ∀ a, (![0, 0] : Fin 2 → Nat) a + S128x16.size a ≤ S128x16.size a
  h_S128x16 : 0 < S128x16.numel
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  scatter_S16384x16384_S540672x2_S540672_n_01_01_1_wf : ScatterDims.WF S16384x16384 S540672x2 S540672 [] [0, 1] [0, 1] 1
  dot_S64x16384_S16384x256_S64x256_1_0_0_1_n_n_wf : DotDims.WF S64x16384 S16384x256 S64x256 [1] [0] [0] [1] [] []
  dot_S128x16384_S16384x256_S128x256_1_0_0_1_n_n_wf : DotDims.WF S128x16384 S16384x256 S128x256 [1] [0] [0] [1] [] []
  dot_S2048x256_S256x16_S2048x16_1_0_0_1_n_n_wf : DotDims.WF S2048x256 S256x16 S2048x16 [1] [0] [0] [1] [] []
  dot_S128x16384_S16384x16_S128x16_1_0_0_1_n_n_wf : DotDims.WF S128x16384 S16384x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S16384x16384.size a
  hwx0_0 : ∀ i : grid0.Coords, EltTy.bits .f32 = 32 ∨ (Rect.block (s := S16384x16384) S64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x256.size a ≤ S16384x256.size a
  hwx0_1 : ∀ i : grid0.Coords, EltTy.bits .bf16 = 32 ∨ (Rect.block (s := S16384x256) S16384x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S16384x256.size a
  hwx0_3 : ∀ i : grid0.Coords, EltTy.bits .bf16 = 32 ∨ (Rect.block (s := S16384x256) S64x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S16384x16384.size a
  hwx1_0 : ∀ i : grid1.Coords, EltTy.bits .bf16 = 32 ∨ (Rect.block (s := S16384x16384) S128x16384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .bf16 = 32 ∨ (Rect.block (s := S16384x256) S16384x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S16384x256.size a
  hwx1_3 : ∀ i : grid1.Coords, EltTy.bits .bf16 = 32 ∨ (Rect.block (s := S16384x256) S128x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S16384x256.size a
  hwx2_0 : ∀ i : grid2.Coords, EltTy.bits .bf16 = 32 ∨ (Rect.block (s := S16384x256) S2048x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x16.size a ≤ S256x16.size a
  hwx2_1 : ∀ i : grid2.Coords, EltTy.bits .bf16 = 32 ∨ (Rect.block (s := S256x16) S256x16.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x16.size a ≤ S16384x16.size a
  hwx2_3 : ∀ i : grid2.Coords, EltTy.bits .bf16 = 32 ∨ (Rect.block (s := S16384x16) S2048x16.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x16384.size a ≤ S16384x16384.size a
  hwx3_0 : ∀ i : grid3.Coords, EltTy.bits .bf16 = 32 ∨ (Rect.block (s := S16384x16384) S128x16384.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16384x16.size a ≤ S16384x16.size a
  hwx3_1 : ∀ i : grid3.Coords, EltTy.bits .bf16 = 32 ∨ (Rect.block (s := S16384x16) S16384x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x16.size a ≤ S16384x16.size a
  hwx3_3 : ∀ i : grid3.Coords, EltTy.bits .f32 = 32 ∨ (Rect.block (s := S16384x16) S128x16.size (cc3_transform_3 i) (hinb3_3 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def scatter_S16384x16384_S540672x2_S540672_n_01_01_1 : ScatterDims S16384x16384 S540672x2 S540672 where
  updateWindowDims := []
  insertedWindowDims := [0, 1]
  scatterDimsToOperandDims := [0, 1]
  indexVectorDim := 1
  wf := scatter_S16384x16384_S540672x2_S540672_n_01_01_1_wf
def dot_S64x16384_S16384x256_S64x256_1_0_0_1_n_n : DotDims S64x16384 S16384x256 S64x256 where
  lhsContracting := [1]
  rhsContracting := [0]
  lhsNonContracting := [0]
  rhsNonContracting := [1]
  lhsBatch := []
  rhsBatch := []
  wf := dot_S64x16384_S16384x256_S64x256_1_0_0_1_n_n_wf
def dot_S128x16384_S16384x256_S128x256_1_0_0_1_n_n : DotDims S128x16384 S16384x256 S128x256 where
  lhsContracting := [1]
  rhsContracting := [0]
  lhsNonContracting := [0]
  rhsNonContracting := [1]
  lhsBatch := []
  rhsBatch := []
  wf := dot_S128x16384_S16384x256_S128x256_1_0_0_1_n_n_wf
def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf
def dot_S128x16384_S16384x16_S128x16_1_0_0_1_n_n : DotDims S128x16384 S16384x16 S128x16 where
  lhsContracting := [1]
  rhsContracting := [0]
  lhsNonContracting := [0]
  rhsNonContracting := [1]
  lhsBatch := []
  rhsBatch := []
  wf := dot_S128x16384_S16384x16_S128x16_1_0_0_1_n_n_wf

abbrev win0_0 : Pipeline.Window sig grid0 :=
  Pipeline.Window.ofSpec (Memref.whole main_arg0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S16384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S128x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S256x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S2048x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S128x16384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S16384x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S128x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16384x16384 : Shape := ⟨2, ![16384, 16384]⟩
abbrev S2x524288 : Shape := ⟨2, ![2, 524288]⟩
abbrev S524288 : Shape := ⟨1, ![524288]⟩
abbrev S16384x256 : Shape := ⟨2, ![16384, 256]⟩
abbrev S256 : Shape := ⟨1, ![256]⟩
abbrev S256x16 : Shape := ⟨2, ![256, 16]⟩
abbrev S16 : Shape := ⟨1, ![16]⟩
abbrev S1x524288 : Shape := ⟨2, ![1, 524288]⟩
abbrev S16384 : Shape := ⟨1, ![16384]⟩
abbrev S540672 : Shape := ⟨1, ![540672]⟩
abbrev S_ : Shape := ⟨0, ![]⟩
abbrev S540672x1 : Shape := ⟨2, ![540672, 1]⟩
abbrev S540672x256 : Shape := ⟨2, ![540672, 256]⟩
abbrev S1x256 : Shape := ⟨2, ![1, 256]⟩
abbrev S16384x16 : Shape := ⟨2, ![16384, 16]⟩
abbrev S540672x16 : Shape := ⟨2, ![540672, 16]⟩
abbrev S1x16 : Shape := ⟨2, ![1, 16]⟩

abbrev nBuf : Space → Nat
  | .hbm => 136
  | .vmem => 0
  | .smem => 0
  | _ => 0

abbrev hbmTy0_0 (i : Nat) : BufTy := match i % 128 with
  | 0 => ⟨S16384x16384, .f32⟩
  | 1 => ⟨S2x524288, .i32⟩
  | 2 => ⟨S524288, .f32⟩
  | 3 => ⟨S16384x256, .f32⟩
  | 4 => ⟨S256, .f32⟩
  | 5 => ⟨S256x16, .f32⟩
  | 6 => ⟨S16, .f32⟩
  | 7 => ⟨S1x524288, .i32⟩
  | 8 => ⟨S524288, .i32⟩
  | 9 => ⟨S1x524288, .i32⟩
  | 10 => ⟨S524288, .i32⟩
  | 11 => ⟨S16384x256, .f32⟩
  | 12 => ⟨S16384, .i32⟩
  | 13 => ⟨S540672, .i32⟩
  | 14 => ⟨S540672, .i32⟩
  | 15 => ⟨S_, .f32⟩
  | 16 => ⟨S16384, .f32⟩
  | 17 => ⟨S540672, .f32⟩
  | 18 => ⟨S_, .f32⟩
  | 19 => ⟨S16384, .f32⟩
  | 20 => ⟨S540672x1, .i32⟩
  | 21 => ⟨S16384, .f32⟩
  | 22 => ⟨S_, .f32⟩
  | 23 => ⟨S16384, .f32⟩
  | 24 => ⟨S16384, .i1⟩
  | 25 => ⟨S_, .f32⟩
  | 26 => ⟨S16384, .f32⟩
  | 27 => ⟨S16384, .f32⟩
  | 28 => ⟨S16384, .f32⟩
  | 29 => ⟨S_, .f32⟩
  | 30 => ⟨S_, .f32⟩
  | 31 => ⟨S16384, .f32⟩
  | 32 => ⟨S16384, .f32⟩
  | 33 => ⟨S_, .i32⟩
  | 34 => ⟨S540672, .i32⟩
  | 35 => ⟨S540672, .i1⟩
  | 36 => ⟨S_, .i32⟩
  | 37 => ⟨S540672, .i32⟩
  | 38 => ⟨S540672, .i32⟩
  | 39 => ⟨S540672, .i32⟩
  | 40 => ⟨S540672x1, .i32⟩
  | 41 => ⟨S540672, .f32⟩
  | 42 => ⟨S540672, .f32⟩
  | 43 => ⟨S_, .i32⟩
  | 44 => ⟨S540672, .i32⟩
  | 45 => ⟨S540672, .i1⟩
  | 46 => ⟨S_, .i32⟩
  | 47 => ⟨S540672, .i32⟩
  | 48 => ⟨S540672, .i32⟩
  | 49 => ⟨S540672, .i32⟩
  | 50 => ⟨S540672x1, .i32⟩
  | 51 => ⟨S540672, .f32⟩
  | 52 => ⟨S540672, .f32⟩
  | 53 => ⟨S540672x1, .f32⟩
  | 54 => ⟨S_, .i32⟩
  | 55 => ⟨S540672, .i32⟩
  | 56 => ⟨S540672, .i1⟩
  | 57 => ⟨S_, .i32⟩
  | 58 => ⟨S540672, .i32⟩
  | 59 => ⟨S540672, .i32⟩
  | 60 => ⟨S540672, .i32⟩
  | 61 => ⟨S540672x1, .i32⟩
  | 62 => ⟨S540672x256, .f32⟩
  | 63 => ⟨S540672x256, .f32⟩
  | 64 => ⟨S540672x256, .f32⟩
  | 65 => ⟨S_, .f32⟩
  | 66 => ⟨S16384x256, .f32⟩
  | 67 => ⟨S540672x1, .i32⟩
  | 68 => ⟨S16384x256, .f32⟩
  | 69 => ⟨S1x256, .f32⟩
  | 70 => ⟨S16384x256, .f32⟩
  | 71 => ⟨S16384x256, .f32⟩
  | 72 => ⟨S_, .f32⟩
  | 73 => ⟨S16384x256, .f32⟩
  | 74 => ⟨S16384x256, .f32⟩
  | 75 => ⟨S16384x16, .f32⟩
  | 76 => ⟨S16384, .i32⟩
  | 77 => ⟨S540672, .i32⟩
  | 78 => ⟨S540672, .i32⟩
  | 79 => ⟨S_, .f32⟩
  | 80 => ⟨S16384, .f32⟩
  | 81 => ⟨S540672, .f32⟩
  | 82 => ⟨S_, .f32⟩
  | 83 => ⟨S16384, .f32⟩
  | 84 => ⟨S540672x1, .i32⟩
  | 85 => ⟨S16384, .f32⟩
  | 86 => ⟨S_, .f32⟩
  | 87 => ⟨S16384, .f32⟩
  | 88 => ⟨S16384, .i1⟩
  | 89 => ⟨S_, .f32⟩
  | 90 => ⟨S16384, .f32⟩
  | 91 => ⟨S16384, .f32⟩
  | 92 => ⟨S16384, .f32⟩
  | 93 => ⟨S_, .f32⟩
  | 94 => ⟨S_, .f32⟩
  | 95 => ⟨S16384, .f32⟩
  | 96 => ⟨S16384, .f32⟩
  | 97 => ⟨S_, .i32⟩
  | 98 => ⟨S540672, .i32⟩
  | 99 => ⟨S540672, .i1⟩
  | 100 => ⟨S_, .i32⟩
  | 101 => ⟨S540672, .i32⟩
  | 102 => ⟨S540672, .i32⟩
  | 103 => ⟨S540672, .i32⟩
  | 104 => ⟨S540672x1, .i32⟩
  | 105 => ⟨S540672, .f32⟩
  | 106 => ⟨S540672, .f32⟩
  | 107 => ⟨S_, .i32⟩
  | 108 => ⟨S540672, .i32⟩
  | 109 => ⟨S540672, .i1⟩
  | 110 => ⟨S_, .i32⟩
  | 111 => ⟨S540672, .i32⟩
  | 112 => ⟨S540672, .i32⟩
  | 113 => ⟨S540672, .i32⟩
  | 114 => ⟨S540672x1, .i32⟩
  | 115 => ⟨S540672, .f32⟩
  | 116 => ⟨S540672, .f32⟩
  | 117 => ⟨S540672x1, .f32⟩
  | 118 => ⟨S_, .i32⟩
  | 119 => ⟨S540672, .i32⟩
  | 120 => ⟨S540672, .i1⟩
  | 121 => ⟨S_, .i32⟩
  | 122 => ⟨S540672, .i32⟩
  | 123 => ⟨S540672, .i32⟩
  | 124 => ⟨S540672, .i32⟩
  | 125 => ⟨S540672x1, .i32⟩
  | 126 => ⟨S540672x16, .f32⟩
  | 127 => ⟨S540672x16, .f32⟩
  | _ => ⟨S16384x16384, .f32⟩

abbrev hbmTy0_1 (i : Nat) : BufTy := match i % 128 with
  | 0 => ⟨S540672x16, .f32⟩
  | 1 => ⟨S_, .f32⟩
  | 2 => ⟨S16384x16, .f32⟩
  | 3 => ⟨S540672x1, .i32⟩
  | 4 => ⟨S16384x16, .f32⟩
  | 5 => ⟨S1x16, .f32⟩
  | 6 => ⟨S16384x16, .f32⟩
  | 7 => ⟨S16384x16, .f32⟩
  | _ => ⟨S16384x16384, .f32⟩

abbrev hbmTy (i : Nat) : BufTy := match i / 128 with
  | 0 => hbmTy0_0 i
  | 1 => hbmTy0_1 i
  | _ => ⟨S16384x16384, .f32⟩

abbrev bufTy : (tb : Table) → Fin (tcTables nBuf tb) → BufTy
  | .hbm, ⟨i, _⟩ => hbmTy i
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_19 : Ref sig .tc := ⟨.hbm, 118, rfl⟩
abbrev main_v84 : Ref sig .tc := ⟨.hbm, 119, rfl⟩
abbrev main_v85 : Ref sig .tc := ⟨.hbm, 120, rfl⟩
abbrev main_c_20 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S16384_S540672_d0 : Shape.Concatenates [S524288, S16384] S540672 0
  bcast_S_S16384 : S_.BroadcastsInDim S16384 (![] : Fin 0 → Fin S16384.rank)
  bcast_S540672_S540672x1_0 : S540672.BroadcastsInDim S540672x1 (![0] : Fin 1 → Fin S540672x1.rank)
  bcast_S_S540672 : S_.BroadcastsInDim S540672 (![] : Fin 0 → Fin S540672.rank)
  bcast_S540672x1_S540672x256_0_1 : S540672x1.BroadcastsInDim S540672x256 (![0, 1] : Fin 2 → Fin S540672x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S540672x1_S540672x16_0_1 : S540672x1.BroadcastsInDim S540672x16 (![0, 1] : Fin 2 → Fin S540672x16.rank)
  bcast_S_S16384x16 : S_.BroadcastsInDim S16384x16 (![] : Fin 0 → Fin S16384x16.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  dot_S16384x16384_S16384x256_S16384x256_1_0_0_1_n_n_wf : DotDims.WF S16384x16384 S16384x256 S16384x256 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x256_S540672x1_S540672x256_1_0_n_n_0_1_1256_wf : GatherDims.WF S16384x256 S540672x1 S540672x256 [1] [0] [] [0] [] 1 ![1, 256]
  scatter_S16384x256_S540672x1_S540672x256_1_0_0_1_wf : ScatterDims.WF S16384x256 S540672x1 S540672x256 [1] [0] [0] 1
  dot_S16384x256_S256x16_S16384x16_1_0_0_1_n_n_wf : DotDims.WF S16384x256 S256x16 S16384x16 [1] [0] [0] [1] [] []
  gather_S16384x16_S540672x1_S540672x16_1_0_n_n_0_1_116_wf : GatherDims.WF S16384x16 S540672x1 S540672x16 [1] [0] [] [0] [] 1 ![1, 16]
  scatter_S16384x16_S540672x1_S540672x16_1_0_0_1_wf : ScatterDims.WF S16384x16 S540672x1 S540672x16 [1] [0] [0] 1

variable [Facts₀]

def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x256_S540672x1_S540672x256_1_0_n_n_0_1_1256 : GatherDims S16384x256 S540672x1 S540672x256 where
  offsetDims := [1]
  collapsedSliceDims := [0]
  operandBatchingDims := []
  startIndicesBatchingDims := []
  startIndexMap := [0]
  indexVectorDim := 1
  sliceSizes := ![1, 256]
  wf := gather_S16384x256_S540672x1_S540672x256_1_0_n_n_0_1_1256_wf
def scatter_S16384x256_S540672x1_S540672x256_1_0_0_1 : ScatterDims S16384x256 S540672x1 S540672x256 where
  updateWindowDims := [1]
  insertedWindowDims := [0]
  scatterDimsToOperandDims := [0]
  indexVectorDim := 1
  wf := scatter_S16384x256_S540672x1_S540672x256_1_0_0_1_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf
def gather_S16384x16_S540672x1_S540672x16_1_0_n_n_0_1_116 : GatherDims S16384x16 S540672x1 S540672x16 where
  offsetDims := [1]
  collapsedSliceDims := [0]
  operandBatchingDims := []
  startIndicesBatchingDims := []
  startIndexMap := [0]
  indexVectorDim := 1
  sliceSizes := ![1, 16]
  wf := gather_S16384x16_S540672x1_S540672x16_1_0_n_n_0_1_116_wf
def scatter_S16384x16_S540672x1_S540672x16_1_0_0_1 : ScatterDims S16384x16 S540672x1 S540672x16 where
  updateWindowDims := [1]
  insertedWindowDims := [0]
  scatterDimsToOperandDims := [0]
  indexVectorDim := 1
  wf := scatter_S16384x16_S540672x1_S540672x16_1_0_0_1_wf

class Facts : Prop extends Facts₀ where

variable [Facts]
-- ==== Proof.PreFacts.lean ====
/-
  The precondition, read back. The precondition is one boolean: the conjunction of six tests
  "every entry x of the array satisfies |x| < +∞" (one per float argument) and two tests on the
  integer argument, "every entry is ≥ 0" and "every entry is < 16384". Over the extended reals
  an entry x with max x (-x) < ⊤ is neither ⊤ nor ⊥, so it is a real number; a conjunction by
  bitwise "and" of one-bit words is 1 exactly when every word is 1; and a reduction by "and" over
  all axes that yields 1 had 1 at every index. Hence: if the precondition evaluates to 1, every
  entry of every float argument is a real and every entry of the integer argument, read signed,
  lies in [0, 16384).
-/
import proofs.«105110_j2327872274874_1_alg».proof.Pre_finite_inputs
import proofs.«105110_j2327872274874_1_alg».proof.Proof.Gen.Pre_finite_inputs
import Idealize.ShloMosaic.PureOps.Ideal
import Idealize.ShloMosaic.Lib.ReduceAll
import Idealize.ShloMosaic.Lib.ValueIdx

noncomputable section

namespace Cert.PreFacts

open Idealize.ShloMosaic Cert.Pre_finite_inputs

/-- The scalar shape has one index. -/
instance subsingleton_scalar_idx : Subsingleton S_.Idx := ⟨fun a b => funext fun d => d.elim0⟩

/-- The f32 pattern 0x7F800000 (sign 0, exponent all ones, fraction 0) denotes +∞. -/
theorem inf_bits : Ideal.ofBits .f32 0x7F800000#32 = (⊤ : EReal) := by
  simp [Ideal.ofBits, Ideal.ieee]

/-- An extended real whose absolute value max x (-x) is below +∞ is a real:
    at ⊥ and at ⊤ the maximum is ⊤. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => exact absurd h (by simp [Ideal.cmp])
  | top => exact absurd h (by simp [Ideal.cmp])
  | coe r => exact ⟨r, rfl⟩

/-- A conjunction of two one-bit scalars that is 1 has both conjuncts 1. -/
theorem and_scalar {a b : IVec S_ 1} (h : andi a b ValueIdx.ix0 = 1#1) :
    a ValueIdx.ix0 = 1#1 ∧ b ValueIdx.ix0 = 1#1 :=
  IntOp.andi_eq_one.1 h

/-- One float test, any shape: if "all |x| < +∞" is 1 then every entry of x is a real. -/
theorem all_real {S : Shape} {axes : List (Fin S.rank)} (x : FVec Ideal S .f32)
    (bc : S_.BroadcastsInDim S (![] : Fin 0 → Fin S.rank)) (rd : S.ReducesTo axes S_) (hS : 0 < S_.numel)
    (h : Host.reduce IntOp.andi
          (cmpf .olt (Host.absf x) (broadcastInDim S ![] bc (constant (F := Ideal) S_ .f32 0x7F800000#32)))
          (constantI S_ 1 1#1) rd hS ValueIdx.ix0 = 1#1) :
    ∀ i, ∃ r : ℝ, x i = (r : EReal) := fun i =>
  real_of_abs_lt_inf (x i) (Host.reduce_andi_all _ _ rd hS ValueIdx.ix0 h i)

/-- The lower integer test: if "all x ≥ 0" is 1 then every entry, read signed, is nonnegative. -/
theorem all_nonneg {S : Shape} {axes : List (Fin S.rank)} (x : IVec S 32)
    (bc : S_.BroadcastsInDim S (![] : Fin 0 → Fin S.rank)) (rd : S.ReducesTo axes S_) (hS : 0 < S_.numel)
    (h : Host.reduce IntOp.andi
          (cmpi .sge x (broadcastInDim S ![] bc (constantI S_ 32 0#32)))
          (constantI S_ 1 1#1) rd hS ValueIdx.ix0 = 1#1) :
    ∀ i, 0 ≤ (x i).toInt := fun i => by
  have e : IntOp.cmpi .sge (x i) 0#32 = 1#1 := Host.reduce_andi_all _ _ rd hS ValueIdx.ix0 h i
  simpa using IntOp.cmpi_sge.1 e

/-- The upper integer test: if "all x < 16384" is 1 then every entry, read signed, is below 16384. -/
theorem all_lt {S : Shape} {axes : List (Fin S.rank)} (x : IVec S 32)
    (bc : S_.BroadcastsInDim S (![] : Fin 0 → Fin S.rank)) (rd : S.ReducesTo axes S_) (hS : 0 < S_.numel)
    (h : Host.reduce IntOp.andi
          (cmpi .slt x (broadcastInDim S ![] bc (constantI S_ 32 16384#32)))
          (constantI S_ 1 1#1) rd hS ValueIdx.ix0 = 1#1) :
    ∀ i, (x i).toInt < 16384 := fun i => by
  have e : IntOp.cmpi .slt (x i) 16384#32 = 1#1 := Host.reduce_andi_all _ _ rd hS ValueIdx.ix0 h i
  have := IntOp.cmpi_slt.1 e
  have h16 : (16384#32).toInt = 16384 := by decide
  omega

/-- The precondition read back: if it evaluates to 1, every float argument is real entrywise and the
    integer argument's entries lie in [0, 16384). -/
theorem of_pre (x0 : FVec Ideal S16384x16384 .f32) (x1 : IVec S2x524288 32) (x2 : FVec Ideal S524288 .f32)
    (x3 : FVec Ideal S16384x256 .f32) (x4 : FVec Ideal S256 .f32) (x5 : FVec Ideal S256x16 .f32)
    (x6 : FVec Ideal S16 .f32)
    (h : Cert.Pre_finite_inputs.fn (F := Ideal) x0 x1 x2 x3 x4 x5 x6 = fun _ => 1#1) :
    (∀ i, ∃ r : ℝ, x0 i = (r : EReal)) ∧ (∀ i, ∃ r : ℝ, x2 i = (r : EReal)) ∧
    (∀ i, ∃ r : ℝ, x3 i = (r : EReal)) ∧ (∀ i, ∃ r : ℝ, x4 i = (r : EReal)) ∧
    (∀ i, ∃ r : ℝ, x5 i = (r : EReal)) ∧ (∀ i, ∃ r : ℝ, x6 i = (r : EReal)) ∧
    (∀ i, 0 ≤ (x1 i).toInt ∧ (x1 i).toInt < 16384) := by
  have h0 := congrFun h ValueIdx.ix0
  unfold Cert.Pre_finite_inputs.fn Cert.Pre_finite_inputs.fn_part1 Cert.Pre_finite_inputs.fn_part2 at h0
  dsimp only at h0
  obtain ⟨h0, hlt⟩ := and_scalar h0
  obtain ⟨h0, hge⟩ := and_scalar h0
  obtain ⟨h0, h6⟩ := and_scalar h0
  obtain ⟨h0, h5⟩ := and_scalar h0
  obtain ⟨h0, h4⟩ := and_scalar h0
  obtain ⟨h0, h3⟩ := and_scalar h0
  obtain ⟨h0, h2⟩ := and_scalar h0
  exact ⟨all_real x0 _ _ _ h0, all_real x2 _ _ _ h2, all_real x3 _ _ _ h3, all_real x4 _ _ _ h4,
    all_real x5 _ _ _ h5, all_real x6 _ _ _ h6,
    fun i => ⟨all_nonneg x1 _ _ _ hge i, all_lt x1 _ _ _ hlt i⟩⟩

end Cert.PreFacts

end
-- ==== Proof.KernelRun.lean ====
/-
  The idealized kernel's run with its result named. Every weakly fair execution of the program ends with
  each buffer of a core at the contents the program's segments leave, one after the other: the host
  operations' results, then each matrix product's output array where its blocks were written back. Read at
  the result buffer this names the result; read at the argument buffers it says they are unchanged.
-/
import proofs.«105110_j2327872274874_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last segment's contents, the arguments as launched. -/
theorem run_value : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.KHost.lean ====
/-
  The arrays the four matrix products find, as functions of the arguments. Before its first product the
  program builds, from the edge list and the edge weights: the source and destination word of every
  edge, the self loops `v → v` appended after the listed edges; the weight of every edge, `1` on a self
  loop; the degree of a node, the sum of the weights of the edges into it; its inverse square root, `0`
  where the degree is not positive; the norm of an edge, the weight scaled by the inverse square-root
  degrees of both ends; and the adjacency matrix, whose entry `(i, j)` is the sum of the norms of the
  edges from `j` to `i`. The weight matrices are the arguments themselves (a change of float format is
  the identity on the extended reals), and each bias is the argument as a one-row matrix.
-/
import proofs.«105110_j2327872274874_1_alg».proof.Proof.Gen.KernelIdeal.Frame
import Idealize.ShloMosaic.Lib.StableHlo.Run

set_option maxRecDepth 16384

noncomputable section

namespace Cert.KernelIdeal.HostVals

open Idealize.ShloMosaic Idealize.ShloMosaic.TcCoe Idealize.SL.Sem Idealize.ShloMosaic.StableHlo
open Cert.KernelIdeal Cert.KernelIdeal.Gen

variable {F : FTy → Type} [FloatOps F]

/-- The source word of every edge: the edge list's first row, then the self loops. -/
def srcW (ei : IVec S2x524288 32) : IVec S540672 32 :=
  concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0

/-- The destination word of every edge: the edge list's second row, then the self loops. -/
def dstW (ei : IVec S2x524288 32) : IVec S540672 32 :=
  concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0

/-- The weight of every edge: the given weights, then one for each self loop. -/
def wgt (ew : FVec F S524288 .f32) : FVec F S540672 .f32 :=
  concatenate S540672 0 [⟨S524288, ew⟩, ⟨S16384, (broadcastInDim S16384 ![] bcast_S_S16384 (constant S_ .f32 0x3F800000#32))⟩] concatenates_S524288_S16384_S540672_d0

/-- The degree of a node: the sum of the weights of the edges into it. -/
def deg (ei : IVec S2x524288 32) (ew : FVec F S524288 .f32) : FVec F S16384 .f32 :=
  Host.scatterAdd scatter_S16384_S540672x1_S540672_n_0_0_1 (broadcastInDim S16384 ![] bcast_S_S16384 (constant S_ .f32 0x00000000#32)) (broadcastInDim S540672x1 ![0] bcast_S540672_S540672x1_0 (dstW ei)) (wgt ew)

/-- The inverse square root of the degree, zero where the degree is not positive. -/
def dinv (ei : IVec S2x524288 32) (ew : FVec F S524288 .f32) : FVec F S16384 .f32 :=
  select (cmpf .ogt (deg ei ew) (broadcastInDim S16384 ![] bcast_S_S16384 (constant S_ .f32 0x00000000#32)))
    (Host.rsqrt (maximumf (deg ei ew) (broadcastInDim S16384 ![] bcast_S_S16384 (constant S_ .f32 0x2B8CBCCC#32))))
    (broadcastInDim S16384 ![] bcast_S_S16384 (id (constant S_ .f32 0x00000000#32)))

/-- A word used as an index, a negative one counted from the end. -/
def wrap (v : IVec S540672 32) : IVec S540672 32 :=
  select (cmpi .slt v (broadcastInDim S540672 ![] bcast_S_S540672 (constantI S_ 32 0#32))) (addi v (broadcastInDim S540672 ![] bcast_S_S540672 (constantI S_ 32 16384#32))) v

/-- The norm of every edge: its weight scaled by the inverse square-root degrees of its two ends. -/
def norm (ei : IVec S2x524288 32) (ew : FVec F S524288 .f32) : FVec F S540672 .f32 :=
  mulf (mulf (Host.gather gather_S16384_S540672x1_S540672_n_0_n_n_0_1_1 (dinv ei ew) (broadcastInDim S540672x1 ![0] bcast_S540672_S540672x1_0 (wrap (srcW ei)))) (wgt ew))
    (Host.gather gather_S16384_S540672x1_S540672_n_0_n_n_0_1_1 (dinv ei ew) (broadcastInDim S540672x1 ![0] bcast_S540672_S540672x1_0 (wrap (dstW ei))))

/-- The two index words of every edge's adjacency entry: its destination (the row), its source (the column). -/
def adjIdx (ei : IVec S2x524288 32) : IVec S540672x2 32 :=
  concatenate S540672x2 1 [⟨S540672x1, (broadcastInDim S540672x1 ![0] bcast_S540672_S540672x1_0 (wrap (dstW ei)))⟩, ⟨S540672x1, (broadcastInDim S540672x1 ![0] bcast_S540672_S540672x1_0 (wrap (srcW ei)))⟩] concatenates_S540672x1_S540672x1_S540672x2_d1

/-- The adjacency matrix: entry `(i, j)` is the sum of the norms of the edges from `j` to `i`. -/
def adj (ei : IVec S2x524288 32) (ew : FVec F S524288 .f32) : FVec F S16384x16384 .bf16 :=
  truncf .bf16 (Host.scatterAdd scatter_S16384x16384_S540672x2_S540672_n_01_01_1 (broadcastInDim S16384x16384 ![] bcast_S_S16384x16384 (constant S_ .f32 0x00000000#32)) (adjIdx ei) (norm ei ew)) bitsLt_bf16_f32

variable (m : (ℓ : Loc nD τ sig) → Buf (Elt F) ℓ) (ρ : Dev nD → PrngReg)

/-! ## After the first stretch of host operations -/

theorem W1_v5 (c : Dev nD) : W1 m ρ c (Proc.devRef .tc main_v5) = srcW (m ((c : Thread nD τ).loc main_arg1)) := by
  dsimp only [W1]; after_results_simp; rfl
theorem W1_v6 (c : Dev nD) : W1 m ρ c (Proc.devRef .tc main_v6) = dstW (m ((c : Thread nD τ).loc main_arg1)) := by
  dsimp only [W1]; after_results_simp; rfl
theorem W1_v8 (c : Dev nD) : W1 m ρ c (Proc.devRef .tc main_v8) = wgt (m ((c : Thread nD τ).loc main_arg2)) := by
  dsimp only [W1]; after_results_simp; rfl
theorem W1_v13 (c : Dev nD) : W1 m ρ c (Proc.devRef .tc main_v13)
    = cmpf .ogt (deg (m ((c : Thread nD τ).loc main_arg1)) (m ((c : Thread nD τ).loc main_arg2))) (broadcastInDim S16384 ![] bcast_S_S16384 (constant S_ .f32 0x00000000#32)) := by
  dsimp only [W1]; after_results_simp; rfl
theorem W1_v16 (c : Dev nD) : W1 m ρ c (Proc.devRef .tc main_v16)
    = Host.rsqrt (maximumf (deg (m ((c : Thread nD τ).loc main_arg1)) (m ((c : Thread nD τ).loc main_arg2))) (broadcastInDim S16384 ![] bcast_S_S16384 (constant S_ .f32 0x2B8CBCCC#32))) := by
  dsimp only [W1]; after_results_simp; rfl
theorem W1_cst3 (c : Dev nD) : W1 m ρ c (Proc.devRef .tc main_cst_3) = constant S_ .f32 0x00000000#32 := by
  dsimp only [W1]; after_results_simp

/-! ## After the call that selects the inverse square root -/

theorem W2_v17 (c : Dev nD) : W2 m ρ c (Proc.devRef .tc main_v17)
    = dinv (m ((c : Thread nD τ).loc main_arg1)) (m ((c : Thread nD τ).loc main_arg2)) := by
  have h13 := W1_v13 m ρ c
  have h16 := W1_v16 m ρ c
  have h3 := W1_cst3 m ρ c
  dsimp only [W2]
  generalize W1 m ρ c = X at h13 h16 h3 ⊢
  after_results_simp
  rw [dinv, ← h13, ← h16, ← h3]
  rfl
theorem W2_v5 (c : Dev nD) : W2 m ρ c (Proc.devRef .tc main_v5) = srcW (m ((c : Thread nD τ).loc main_arg1)) := by
  have h := W1_v5 m ρ c
  dsimp only [W2]
  generalize W1 m ρ c = X at h ⊢
  after_results_simp
  exact h
theorem W2_v6 (c : Dev nD) : W2 m ρ c (Proc.devRef .tc main_v6) = dstW (m ((c : Thread nD τ).loc main_arg1)) := by
  have h := W1_v6 m ρ c
  dsimp only [W2]
  generalize W1 m ρ c = X at h ⊢
  after_results_simp
  exact h
theorem W2_v8 (c : Dev nD) : W2 m ρ c (Proc.devRef .tc main_v8) = wgt (m ((c : Thread nD τ).loc main_arg2)) := by
  have h := W1_v8 m ρ c
  dsimp only [W2]
  generalize W1 m ρ c = X at h ⊢
  after_results_simp
  exact h

/-! ## What the matrix products find -/

set_option maxHeartbeats 4000000 in
/-- The adjacency matrix. -/
theorem W3_v49 (c : Dev nD) : W3 m ρ c (Proc.devRef .tc main_v49)
    = adj (m ((c : Thread nD τ).loc main_arg1)) (m ((c : Thread nD τ).loc main_arg2)) := by
  have h5 := W2_v5 m ρ c
  have h6 := W2_v6 m ρ c
  have h8 := W2_v8 m ρ c
  have h17 := W2_v17 m ρ c
  dsimp only [W3]
  generalize W2 m ρ c = X at h5 h6 h8 h17 ⊢
  after_results_simp
  rw [adj, adjIdx, norm, ← h5, ← h6, ← h8, ← h17]
  rfl

/-- The node features. -/
theorem W3_arg0 (c : Dev nD) : W3 m ρ c (Proc.devRef .tc main_arg0) = m ((c : Thread nD τ).loc main_arg0) := by
  dsimp only [W3, W2, W1]; after_results_simp
/-- The first weight matrix. -/
theorem W3_v50 (c : Dev nD) : W3 m ρ c (Proc.devRef .tc main_v50) = truncf .bf16 (m ((c : Thread nD τ).loc main_arg3)) bitsLt_bf16_f32 := by
  dsimp only [W3, W2, W1]; after_results_simp
/-- The second weight matrix. -/
theorem W3_v51 (c : Dev nD) : W3 m ρ c (Proc.devRef .tc main_v51) = truncf .bf16 (m ((c : Thread nD τ).loc main_arg5)) bitsLt_bf16_f32 := by
  dsimp only [W3, W2, W1]; after_results_simp
/-- The first bias as a row. -/
theorem W3_v52 (c : Dev nD) : W3 m ρ c (Proc.devRef .tc main_v52) = broadcastInDim S1x256 ![1] bcast_S256_S1x256_1 (m ((c : Thread nD τ).loc main_arg4)) := by
  dsimp only [W3, W2, W1]; after_results_simp
/-- The second bias as a row. -/
theorem W3_v53 (c : Dev nD) : W3 m ρ c (Proc.devRef .tc main_v53) = broadcastInDim S1x16 ![1] bcast_S16_S1x16_1 (m ((c : Thread nD τ).loc main_arg6)) := by
  dsimp only [W3, W2, W1]; after_results_simp

end Cert.KernelIdeal.HostVals

end
-- ==== Proof.Region0.lean ====
/- The first matrix-product block of the idealized kernel. Its output array has 16384 rows of 256 entries and is
   written in 256 blocks of 64 consecutive rows. The block at grid point t holds rows 64·t … 64·t + 63; the entry
   (r, q) of the array is the sum over k < 16384 of entry (r, k) of the left array times entry (k, q) of the right
   array: it depends on row r of the left array and column q of the right array only. The one-row third array is
   fetched but never read by the body. All numbers are extended reals, where a change of float format is the
   identity and a product accumulated from zero is the plain sum. -/
import proofs.«105110_j2327872274874_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat)
open Idealize.ShloMosaic.ValueIdx
open Cert.KernelIdeal Cert.KernelIdeal.Gen

/-- The matrix product of the left array [16384, 16384] and the right array [16384, 256], entry by entry; the third
    array takes no part. -/
def prod (a : S16384x16384.Idx → EReal) (b : S16384x256.Idx → EReal) (_bias : S1x256.Idx → EReal) : S16384x256.Idx → EReal :=
  fun i => ∑ k : Fin 16384, a (ix2 (i 0) k) * b (ix2 k (i 1))

/-- The left operand's index at output index j and contraction index k keeps j's row. -/
theorem lhs_row (j : S64x256.Idx) (k : dot_S64x16384_S16384x256_S64x256_1_0_0_1_n_n.contr.Idx) :
    (dot_S64x16384_S16384x256_S64x256_1_0_0_1_n_n.lhsIdx j k 0).val = (j 0).val := by
  unfold DotDims.lhsIdx
  rw [dif_neg (show ¬(0 : Fin S64x16384.rank) ∈ dot_S64x16384_S16384x256_S64x256_1_0_0_1_n_n.lhsBatch by decide), dif_pos (show (0 : Fin S64x16384.rank) ∈ dot_S64x16384_S16384x256_S64x256_1_0_0_1_n_n.lhsNonContracting by decide)]
  rfl
/-- … and takes k as its column. -/
theorem lhs_col (j : S64x256.Idx) (k : dot_S64x16384_S16384x256_S64x256_1_0_0_1_n_n.contr.Idx) :
    (dot_S64x16384_S16384x256_S64x256_1_0_0_1_n_n.lhsIdx j k 1).val = (k ⟨0, by decide⟩).val :=
  dot_S64x16384_S16384x256_S64x256_1_0_0_1_n_n.lhsIdx_val_of_single rfl j k
/-- The right operand's index takes k as its row … -/
theorem rhs_row (j : S64x256.Idx) (k : dot_S64x16384_S16384x256_S64x256_1_0_0_1_n_n.contr.Idx) :
    (dot_S64x16384_S16384x256_S64x256_1_0_0_1_n_n.rhsIdx j k 0).val = (k ⟨0, by decide⟩).val :=
  dot_S64x16384_S16384x256_S64x256_1_0_0_1_n_n.rhsIdx_val_of_single rfl j k
/-- … and keeps j's column. -/
theorem rhs_col (j : S64x256.Idx) (k : dot_S64x16384_S16384x256_S64x256_1_0_0_1_n_n.contr.Idx) :
    (dot_S64x16384_S16384x256_S64x256_1_0_0_1_n_n.rhsIdx j k 1).val = (j 1).val := by
  unfold DotDims.rhsIdx
  rw [dif_neg (show ¬(1 : Fin S16384x256.rank) ∈ dot_S64x16384_S16384x256_S64x256_1_0_0_1_n_n.rhsBatch by decide), dif_pos (show (1 : Fin S16384x256.rank) ∈ dot_S64x16384_S16384x256_S64x256_1_0_0_1_n_n.rhsNonContracting by decide)]
  rfl

/-- The body's stored value at entry (p, q) of its block: the sum over k of the left block's (p, k) times the right
    block's (k, q). -/
theorem pay_apply (x0 : Vec Ideal S64x16384 .f32) (x1 : Vec Ideal S16384x256 .bf16) (p : Fin 64) (q : Fin 256) :
    k0_pay1 (F := Ideal) x0 x1 (ix2 p q) = ∑ k : Fin 16384, x0 (ix2 p k) * x1 (ix2 k q) := by
  unfold k0_pay1
  simp only [shapeCast_self]
  show FloatOps.truncf .bf16 bitsLt_bf16_f32 (matmul (F := Ideal) dot_S64x16384_S16384x256_S64x256_1_0_0_1_n_n none (truncf (F := Ideal) .bf16 x0 bitsLt_bf16_f32) x1 (constant (F := Ideal) S64x256 .f32 0x00000000#32) (ix2 p q)) = _
  rw [Ideal.truncf_def]
  simp only [matmul]
  rw [Ideal.matmul_constant_zero_apply, ← Equiv.sum_comp (contrEquiv1 dot_S64x16384_S16384x256_S64x256_1_0_0_1_n_n 16384 rfl rfl).symm]
  refine Finset.sum_congr rfl fun k _ => ?_
  have hk := contrEquiv1_symm_val dot_S64x16384_S16384x256_S64x256_1_0_0_1_n_n 16384 rfl rfl k
  have el : dot_S64x16384_S16384x256_S64x256_1_0_0_1_n_n.lhsIdx (ix2 p q) ((contrEquiv1 dot_S64x16384_S16384x256_S64x256_1_0_0_1_n_n 16384 rfl rfl).symm k) = ix2 p k := funext fun a => Fin.ext (by
    match a with
    | ⟨0, _⟩ => exact lhs_row _ _
    | ⟨1, _⟩ => exact (lhs_col _ _).trans hk)
  have er : dot_S64x16384_S16384x256_S64x256_1_0_0_1_n_n.rhsIdx (ix2 p q) ((contrEquiv1 dot_S64x16384_S16384x256_S64x256_1_0_0_1_n_n 16384 rfl rfl).symm k) = ix2 k q := funext fun a => Fin.ext (by
    match a with
    | ⟨0, _⟩ => exact (rhs_row _ _).trans hk
    | ⟨1, _⟩ => exact rhs_col _ _)
  rw [el, er]
  rfl

/-- One entry of a block against one entry of the product: when row y 0 of the left block is row i 0 of the left
    array and column y 1 of the right block is column i 1 of the right array, the body's value at y is the product's
    entry at i. -/
theorem block_entry (x0 : Vec Ideal S64x16384 .f32) (x1 : Vec Ideal S16384x256 .bf16)
    (a : S16384x16384.Idx → EReal) (b : S16384x256.Idx → EReal) (bias : S1x256.Idx → EReal)
    (y : S64x256.Idx) (i : S16384x256.Idx)
    (h0 : ∀ k : Fin 16384, x0 (ix2 (y 0) k) = a (ix2 (i 0) k))
    (h1 : ∀ k : Fin 16384, x1 (ix2 k (y 1)) = b (ix2 k (i 1))) :
    k0_pay1 (F := Ideal) x0 x1 y = prod a b bias i := by
  obtain ⟨p, q, rfl⟩ : ∃ (p : Fin 64) (q : Fin 256), y = ix2 p q := ⟨y 0, y 1, eq_ix2 y⟩
  rw [pay_apply]
  unfold prod
  exact Finset.sum_congr rfl fun k _ => by rw [← h0 k, ← h1 k]

theorem hz : (![0, 0] : Fin 2 → Nat) = fun _ => 0 := funext fun a => by fin_cases a <;> rfl

/-- The index maps over the 256 grid points: the left and the output block move together along the rows
    (block t at point t), and the right array and the third array are always fetched whole (block (0, 0)). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The left block at point t is rows 64·t … 64·t + 63 of the left array. -/
theorem lhs_block_apply (c : Dev nD) (t : Fin cfg0.N) (x : S64x16384.Idx) (i : S16384x16384.Idx)
    (h0 : (i 0).val = 64 * t.val + (x 0).val) (h1 : (i 1).val = (x 1).val) :
    (iblk0 (F := Ideal) V c 0 t : Vec Ideal S64x16384 .f32) x = (V c (Pipeline.arrRef spec0 0) : S16384x16384.Idx → EReal) i := by
  obtain ⟨e0, e1, -, -, -, -⟩ := idx_facts t
  unfold iblk0
  show V c (Pipeline.arrRef spec0 0) (((cfg0.win 0).blk t).view.emb x) = V c (Pipeline.arrRef spec0 0) i
  congr 1
  funext a
  apply Fin.ext
  match a with
  | ⟨0, _⟩ => show win0_0.index t (0 : Fin 2) * 64 + 1 * (x 0).val = (i 0).val; rw [e0, h0]; omega
  | ⟨1, _⟩ => show win0_0.index t (1 : Fin 2) * 16384 + 1 * (x 1).val = (i 1).val; rw [e1, h1]; omega

/-- The right block at every point is the whole right array. -/
theorem rhs_block_apply (c : Dev nD) (t : Fin cfg0.N) (x : S16384x256.Idx) (i : S16384x256.Idx)
    (h0 : (i 0).val = (x 0).val) (h1 : (i 1).val = (x 1).val) :
    (iblk0 (F := Ideal) V c 1 t : Vec Ideal S16384x256 .bf16) x = (V c (Pipeline.arrRef spec0 1) : S16384x256.Idx → EReal) i := by
  obtain ⟨-, -, e2, e3, -, -⟩ := idx_facts t
  unfold iblk0
  show V c (Pipeline.arrRef spec0 1) (((cfg0.win 1).blk t).view.emb x) = V c (Pipeline.arrRef spec0 1) i
  congr 1
  funext a
  apply Fin.ext
  match a with
  | ⟨0, _⟩ => show win0_1.index t (0 : Fin 2) * 16384 + 1 * (x 0).val = (i 0).val; rw [e2, h0]; omega
  | ⟨1, _⟩ => show win0_1.index t (1 : Fin 2) * 256 + 1 * (x 1).val = (i 1).val; rw [e3, h1]; omega

/-- A function on the output array's indices read through point t's block: its value at the block entry's place in
    the array. -/
theorem read_blk_apply (t : Fin cfg0.N) (G : S16384x256.Idx → EReal) (j : ((cfg0.win 3).xblock (grid0.coords t)).Idx) :
    ((cfg0.win 3).blk t).view.read (Elt Ideal) G j = G (((cfg0.win 3).blk t).view.emb j) := rfl

/-- What point t writes back is block t of the product of the arrays the region finds at entry. -/
theorem flushed_eq (c : Dev nD) (t : Fin cfg0.N) :
    (dat0 (F := Ideal) V c).flushed 3 t = ((cfg0.win 3).blk t).view.read (Elt Ideal)
      (prod (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz]
  simp only [View.ld_unit_zero (S := S64x16384) hz, View.ld_unit_zero (S := S16384x256) hz]
  obtain ⟨-, -, -, -, e4, e5⟩ := idx_facts t
  funext j
  rw [read_blk_apply]
  show k0_pay1 (F := Ideal) (iblk0 V c 0 t) (iblk0 V c 1 t) ((win0 3).xinj (grid0.coords t) j) = _
  refine block_entry _ _ (V c (Pipeline.arrRef spec0 0)) (V c (Pipeline.arrRef spec0 1)) (V c (Pipeline.arrRef spec0 2)) _ _ (fun k => ?_) (fun k => ?_)
  · refine lhs_block_apply V c t _ _ ?_ rfl
    show win0_3.index t (0 : Fin 2) * 64 + 1 * (j 0).val = 64 * t.val + (j 0).val
    rw [e4]; omega
  · refine rhs_block_apply V c t _ _ rfl ?_
    show win0_3.index t (1 : Fin 2) * 256 + 1 * (j 1).val = (j 1).val
    rw [e5]; omega

/-- An index of the output array is in point t's block iff each coordinate is in the block's range on its axis. -/
theorem mem_blk (t : Fin cfg0.N) (i : S16384x256.Idx) :
    i ∈ ((cfg0.win 3).blk t).view.set ↔ ∀ a : Fin 2, win0_3.index t a * S64x256.size a ≤ (i a).val ∧ (i a).val < win0_3.index t a * S64x256.size a + S64x256.size a := by
  show i ∈ ((View.whole main_v56).slice (win0_3.rect t)).set ↔ _
  rw [View.set_slice_whole, Rect.mem_set_unit]
  exact Iff.rfl

/-- The 256 blocks of 64 rows fill the 16384 rows: row r is in the block of point r / 64. -/
theorem cover (i : S16384x256.Idx) : ∃ t : Fin cfg0.N, (cfg0.win 3).flush t = true ∧ i ∈ ((cfg0.win 3).blk t).view.set := by
  have hN : grid0.N = 256 := N_0
  have hi0 : (i 0).val < 16384 := (i 0).isLt
  have hi1 : (i 1).val < 256 := (i 1).isLt
  have ht : (i 0).val / 64 < cfg0.N := by show _ < grid0.N; rw [hN]; omega
  refine ⟨⟨(i 0).val / 64, ht⟩, flush0_3 _, ?_⟩
  rw [mem_blk]
  obtain ⟨-, -, -, -, e4, e5⟩ := idx_facts ⟨(i 0).val / 64, ht⟩
  intro a
  match a with
  | ⟨0, _⟩ =>
    show win0_3.index ⟨(i 0).val / 64, ht⟩ (0 : Fin 2) * 64 ≤ (i 0).val ∧ (i 0).val < win0_3.index ⟨(i 0).val / 64, ht⟩ (0 : Fin 2) * 64 + 64
    rw [e4]
    show (i 0).val / 64 * 64 ≤ (i 0).val ∧ (i 0).val < (i 0).val / 64 * 64 + 64
    omega
  | ⟨1, _⟩ =>
    show win0_3.index ⟨(i 0).val / 64, ht⟩ (1 : Fin 2) * 256 ≤ (i 1).val ∧ (i 1).val < win0_3.index ⟨(i 0).val / 64, ht⟩ (1 : Fin 2) * 256 + 256
    rw [e5]
    omega

/-- The output array after the region is the product of the arrays the region finds at entry. -/
theorem final (c : Dev nD) : (dat0 (F := Ideal) V c).arrAt 3 cfg0.N
    = prod (V c (Pipeline.arrRef spec0 0)) (V c (Pipeline.arrRef spec0 1)) (V c (Pipeline.arrRef spec0 2)) :=
  (dat0 (F := Ideal) V c).arrAt_eq_of_cover 3 _ (fun t _ => flushed_eq V c t) cover

end Cert.KernelIdeal.Region0

end
-- ==== Proof.Region1.lean ====
/- Region 1 of the idealized kernel is a row-tiled matrix product with a bias row and a clamp at zero. The grid has 128
   points; point `t` reads rows `128 t … 128 t + 127` of the [16384, 16384] left array, the whole [16384, 256] right
   array and the whole [1, 256] bias row, and writes rows `128 t … 128 t + 127` of the [16384, 256] output array.
   Over the extended reals, entry (r, c) of what it writes is
   `max (∑ k, left (r, k) * right (k, c) + bias (0, c)) 0`: it depends on row `r` of the left array, column `c` of the
   right array and entry `c` of the bias row, and on nothing the output array held before. The 128 row blocks cover every
   row (row `r` lies in block `r / 128`), so after the region the output array is that one function (`prod`) of the three
   arrays as the region finds them (`final`). -/
import proofs.«105110_j2327872274874_1_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Region1

open Idealize.ShloMosaic Idealize.ShloMosaic.TcCoe Idealize.SL.Sem Cert.KernelIdeal Cert.KernelIdeal.Gen
open Idealize.ShloMosaic.Pipeline (Dat)
open Idealize.ShloMosaic.ValueIdx

/-- Row `i 0` of the left factor against column `i 1` of the right factor, the bias row added, clamped below at zero. -/
def prod (a : S16384x16384.Idx → EReal) (b : S16384x256.Idx → EReal) (bias : S1x256.Idx → EReal) : S16384x256.Idx → EReal :=
  fun i => max ((∑ k : Fin 16384, a (ix2 (i 0) k) * b (ix2 k (i 1))) + bias (ix2 0 (i 1))) 0

/-- The left operand's index at output index `i` keeps `i`'s row. -/
theorem lhs_row (i : S128x256.Idx) (q : dot_S128x16384_S16384x256_S128x256_1_0_0_1_n_n.contr.Idx) :
    (dot_S128x16384_S16384x256_S128x256_1_0_0_1_n_n.lhsIdx i q 0).val = (i 0).val := by
  unfold DotDims.lhsIdx
  rw [dif_neg (show ¬(0 : Fin S128x16384.rank) ∈ dot_S128x16384_S16384x256_S128x256_1_0_0_1_n_n.lhsBatch by decide), dif_pos (show (0 : Fin S128x16384.rank) ∈ dot_S128x16384_S16384x256_S128x256_1_0_0_1_n_n.lhsNonContracting by decide)]
  rfl

/-- The right operand's index at output index `i` keeps `i`'s column. -/
theorem rhs_col (i : S128x256.Idx) (q : dot_S128x16384_S16384x256_S128x256_1_0_0_1_n_n.contr.Idx) :
    (dot_S128x16384_S16384x256_S128x256_1_0_0_1_n_n.rhsIdx i q 1).val = (i 1).val := by
  unfold DotDims.rhsIdx
  rw [dif_neg (show ¬(1 : Fin S16384x256.rank) ∈ dot_S128x16384_S16384x256_S128x256_1_0_0_1_n_n.rhsBatch by decide), dif_pos (show (1 : Fin S16384x256.rank) ∈ dot_S128x16384_S16384x256_S128x256_1_0_0_1_n_n.rhsNonContracting by decide)]
  rfl

/-- The block product into a zero accumulator, at entry `(p, q)`: the sum over the contraction index of row `p` of
    the left block times column `q` of the right. -/
theorem mm_apply (x0 : FVec Ideal S128x16384 .bf16) (x1 : FVec Ideal S16384x256 .bf16) (p : Fin 128) (q : Fin 256) :
    FloatOps.matmul dot_S128x16384_S16384x256_S128x256_1_0_0_1_n_n none x0 x1 (constant (F := Ideal) S128x256 .f32 0x00000000#32) (ix2 p q)
      = ∑ k : Fin 16384, x0 (ix2 p k) * x1 (ix2 k q) := by
  rw [Ideal.matmul_constant_zero_apply, ← Equiv.sum_comp (contrEquiv1 dot_S128x16384_S16384x256_S128x256_1_0_0_1_n_n 16384 rfl rfl).symm]
  refine Finset.sum_congr rfl fun k _ => ?_
  have hk := contrEquiv1_symm_val dot_S128x16384_S16384x256_S128x256_1_0_0_1_n_n 16384 rfl rfl k
  have el : dot_S128x16384_S16384x256_S128x256_1_0_0_1_n_n.lhsIdx (ix2 p q) ((contrEquiv1 dot_S128x16384_S16384x256_S128x256_1_0_0_1_n_n 16384 rfl rfl).symm k) = ix2 p k := funext fun a => Fin.ext (by
    match a with
    | ⟨0, _⟩ => exact lhs_row _ _
    | ⟨1, _⟩ => exact (dot_S128x16384_S16384x256_S128x256_1_0_0_1_n_n.lhsIdx_val_of_single rfl _ _).trans hk)
  have er : dot_S128x16384_S16384x256_S128x256_1_0_0_1_n_n.rhsIdx (ix2 p q) ((contrEquiv1 dot_S128x16384_S16384x256_S128x256_1_0_0_1_n_n 16384 rfl rfl).symm k) = ix2 k q := funext fun a => Fin.ext (by
    match a with
    | ⟨0, _⟩ => exact (dot_S128x16384_S16384x256_S128x256_1_0_0_1_n_n.rhsIdx_val_of_single rfl _ _).trans hk
    | ⟨1, _⟩ => exact rhs_col _ _)
  rw [el, er]

/-- The body's stored value at entry `(p, q)` of its block. -/
theorem pay_apply (x0 : Vec Ideal S128x16384 .bf16) (x1 : Vec Ideal S16384x256 .bf16) (x2 : Vec Ideal S1x256 .f32)
    (p : Fin 128) (q : Fin 256) :
    k1_pay1 x0 x1 x2 (ix2 p q) = max ((∑ k : Fin 16384, x0 (ix2 p k) * x1 (ix2 k q)) + x2 (ix2 0 q)) 0 := by
  unfold k1_pay1
  simp only [shapeCast_self]
  rw [truncf_apply, maximumf_apply, addf_apply, broadcast_apply]
  simp only [matmul]
  rw [mm_apply, broadcastTo_1b_ab_apply, Ideal.ofBits_def, Ideal.ofBits_zero_f32]

variable (V : (c : Dev nD) → (b : Ref sig .tc) → Buf (Elt Ideal) ((c : Thread nD τ).loc b))

/-- A block entry from the entries of the blocks' arrays: when row `p` of the left block is row `i 0` of the left array,
    and column `q` of the right block and of the bias block are column `i 1` of their arrays. -/
theorem block_eq (A : S16384x16384.Idx → EReal) (B : S16384x256.Idx → EReal) (C : S1x256.Idx → EReal)
    (x0 : Vec Ideal S128x16384 .bf16) (x1 : Vec Ideal S16384x256 .bf16) (x2 : Vec Ideal S1x256 .f32)
    (p : Fin 128) (q : Fin 256) (i : S16384x256.Idx)
    (h0 : ∀ k : Fin 16384, x0 (ix2 p k) = A (ix2 (i 0) k))
    (h1 : ∀ k : Fin 16384, x1 (ix2 k q) = B (ix2 k (i 1)))
    (h2 : x2 (ix2 0 q) = C (ix2 0 (i 1))) :
    k1_pay1 x0 x1 x2 (ix2 p q) = prod A B C i := by
  rw [pay_apply, h2]
  unfold prod
  simp only [h0, h1]

theorem hz : (![0, 0] : Fin 2 → Nat) = fun _ => 0 := funext fun a => by fin_cases a <;> rfl

/-- The index maps over the grid: the left block and the output block sit at block row `t`, block column 0;
    the right factor and the bias are always block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left block at point `t` is rows `128 t … 128 t + 127` of the left array. -/
theorem lhs_blk (c : Dev nD) (t : Fin cfg1.N) (y : S128x16384.Idx) (i : S16384x16384.Idx)
    (h0 : (i 0).val = t.val * 128 + (y 0).val) (h1 : (i 1).val = (y 1).val) :
    (iblk1 V c 0 t : Vec Ideal S128x16384 .bf16) y = ((V c (Pipeline.arrRef spec1 0)) : S16384x16384.Idx → EReal) i := by
  obtain ⟨e0, e1, -⟩ := idx_facts t
  unfold iblk1
  rw [View.read_apply]
  show (V c (Pipeline.arrRef spec1 0)) _ = (V c (Pipeline.arrRef spec1 0)) _
  congr 1
  funext a
  apply Fin.ext
  match a with
  | ⟨0, _⟩ => show win1_0.index t (0 : Fin 2) * 128 + 1 * (y 0).val = (i 0).val; rw [e0, h0]; omega
  | ⟨1, _⟩ => show win1_0.index t (1 : Fin 2) * 16384 + 1 * (y 1).val = (i 1).val; rw [e1, h1]; omega

/-- The right block at every point is the whole right array. -/
theorem rhs_blk (c : Dev nD) (t : Fin cfg1.N) (y : S16384x256.Idx) :
    (iblk1 V c 1 t : Vec Ideal S16384x256 .bf16) y = ((V c (Pipeline.arrRef spec1 1)) : S16384x256.Idx → EReal) y := by
  obtain ⟨-, -, e2, e3, -⟩ := idx_facts t
  unfold iblk1
  rw [View.read_apply]
  show (V c (Pipeline.arrRef spec1 1)) _ = (V c (Pipeline.arrRef spec1 1)) _
  congr 1
  funext a
  apply Fin.ext
  match a with
  | ⟨0, _⟩ => show win1_1.index t (0 : Fin 2) * 16384 + 1 * (y 0).val = (y 0).val; rw [e2]; omega
  | ⟨1, _⟩ => show win1_1.index t (1 : Fin 2) * 256 + 1 * (y 1).val = (y 1).val; rw [e3]; omega

/-- The bias block at every point is the whole bias row. -/
theorem bias_blk (c : Dev nD) (t : Fin cfg1.N) (y : S1x256.Idx) :
    (iblk1 V c 2 t : Vec Ideal S1x256 .f32) y = ((V c (Pipeline.arrRef spec1 2)) : S1x256.Idx → EReal) y := by
  obtain ⟨-, -, -, -, e4, e5, -⟩ := idx_facts t
  unfold iblk1
  rw [View.read_apply]
  show (V c (Pipeline.arrRef spec1 2)) _ = (V c (Pipeline.arrRef spec1 2)) _
  congr 1
  funext a
  apply Fin.ext
  match a with
  | ⟨0, _⟩ => show win1_2.index t (0 : Fin 2) * 1 + 1 * (y 0).val = (y 0).val; rw [e4]; omega
  | ⟨1, _⟩ => show win1_2.index t (1 : Fin 2) * 256 + 1 * (y 1).val = (y 1).val; rw [e5]; omega

/-- What point `t` writes back is block `t` of `prod` of the three arrays as the region finds them. -/
theorem flushed_eq (c : Dev nD) (t : Fin cfg1.N) :
    (dat1 V c).flushed 3 t = ((cfg1.win 3).blk t).view.read (Elt Ideal) (prod (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S128x16384) hz, View.ld_unit_zero (S := S16384x256) hz, View.ld_unit_zero (S := S1x256) hz]
  obtain ⟨-, -, -, -, -, -, e6, e7⟩ := idx_facts t
  funext j
  have hj : (cfg1.win 3).xinj (grid1.coords t) j = ix2 (n0 := 128) (n1 := 256) (j 0) (j 1) := eq_ix2 _
  have hr : ((((cfg1.win 3).blk t).view.emb j) 0).val = t.val * 128 + (j 0).val := by
    show win1_3.index t (0 : Fin 2) * 128 + 1 * (j 0).val = _; rw [e6]; omega
  have hc : ((((cfg1.win 3).blk t).view.emb j) 1).val = (j 1).val := by
    show win1_3.index t (1 : Fin 2) * 256 + 1 * (j 1).val = _; rw [e7]; omega
  refine (congrArg (k1_pay1 (iblk1 V c 0 t) (iblk1 V c 1 t) (iblk1 V c 2 t)) hj).trans ?_
  refine block_eq (V c (Pipeline.arrRef spec1 0)) (V c (Pipeline.arrRef spec1 1)) (V c (Pipeline.arrRef spec1 2)) (iblk1 V c 0 t) (iblk1 V c 1 t) (iblk1 V c 2 t) (j 0) (j 1) (((cfg1.win 3).blk t).view.emb j) ?_ ?_ ?_
  · intro k
    exact lhs_blk V c t _ _ hr rfl
  · intro k
    rw [rhs_blk]
    exact congrArg (V c (Pipeline.arrRef spec1 1)) (funext fun a => Fin.ext (by
      match a with
      | ⟨0, _⟩ => rfl
      | ⟨1, _⟩ => exact hc.symm))
  · rw [bias_blk]
    exact congrArg (V c (Pipeline.arrRef spec1 2)) (funext fun a => Fin.ext (by
      match a with
      | ⟨0, _⟩ => rfl
      | ⟨1, _⟩ => exact hc.symm))

/-- An index of the output array is in point `t`'s block iff each coordinate is in the block's range on its axis. -/
theorem mem_blk (t : Fin cfg1.N) (i : S16384x256.Idx) :
    i ∈ ((cfg1.win 3).blk t).view.set ↔ ∀ a : Fin 2, win1_3.index t a * S128x256.size a ≤ (i a).val ∧ (i a).val < win1_3.index t a * S128x256.size a + S128x256.size a := by
  show i ∈ ((View.whole main_v57).slice (win1_3.rect t)).set ↔ _
  rw [View.set_slice_whole, Rect.mem_set_unit]
  exact Iff.rfl

/-- Every entry of the output array is written: row `r` by point `r / 128`. -/
theorem cover (i : S16384x256.Idx) : ∃ t : Fin cfg1.N, (cfg1.win 3).flush t = true ∧ i ∈ ((cfg1.win 3).blk t).view.set := by
  have hN : grid1.N = 128 := N_1
  have hi0 : (i 0).val < 16384 := (i 0).isLt
  have hi1 : (i 1).val < 256 := (i 1).isLt
  have ht : (i 0).val / 128 < cfg1.N := by show (i 0).val / 128 < grid1.N; rw [hN]; omega
  obtain ⟨-, -, -, -, -, -, e6, e7⟩ := idx_facts ⟨(i 0).val / 128, ht⟩
  refine ⟨⟨(i 0).val / 128, ht⟩, flush1_3 _, ?_⟩
  rw [mem_blk]
  intro a
  match a with
  | ⟨0, _⟩ =>
    show win1_3.index ⟨(i 0).val / 128, ht⟩ (0 : Fin 2) * 128 ≤ (i 0).val ∧ (i 0).val < win1_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win1_3.index ⟨(i 0).val / 128, ht⟩ (1 : Fin 2) * 256 ≤ (i 1).val ∧ (i 1).val < win1_3.index ⟨(i 0).val / 128, ht⟩ (1 : Fin 2) * 256 + 256
    rw [e7]; omega

/-- The output array after the region: `prod` of the left array, the right array and the bias row as the region finds them. -/
theorem final (c : Dev nD) : (dat1 (F := Ideal) V c).arrAt 3 cfg1.N = prod (V c (Pipeline.arrRef spec1 0)) (V c (Pipeline.arrRef spec1 1)) (V c (Pipeline.arrRef spec1 2)) :=
  (dat1 V c).arrAt_eq_of_cover 3 (prod (V c (Pipeline.arrRef spec1 0)) (V c (Pipeline.arrRef spec1 1)) (V c (Pipeline.arrRef spec1 2))) (fun t _ => flushed_eq V c t) cover

end Cert.KernelIdeal.Region1

end
-- ==== Proof.Region2.lean ====
/- The third matrix-product block of the idealized kernel. Its output array has 16384 rows of 16 entries and is
   written in 8 blocks of 2048 consecutive rows. The block at grid point t holds rows 2048·t … 2048·t + 2047; the
   entry (r, q) of the array is the sum over k < 256 of entry (r, k) of the left array times entry (k, q) of the right
   array: it depends on row r of the left array and column q of the right array only. The one-row third array is
   fetched but never read by the body. All numbers are extended reals, where a change of float format is the
   identity and a product accumulated from zero is the plain sum. -/
import proofs.«105110_j2327872274874_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Region2

open Idealize.ShloMosaic Idealize.ShloMosaic.TcCoe Idealize.SL.Sem
open Idealize.ShloMosaic.Pipeline (Dat)
open Idealize.ShloMosaic.ValueIdx
open Cert.KernelIdeal Cert.KernelIdeal.Gen

/-- The matrix product of the left array [16384, 256] and the right array [256, 16], entry by entry; the third
    array takes no part. -/
def prod (a : S16384x256.Idx → EReal) (b : S256x16.Idx → EReal) (_bias : S1x16.Idx → EReal) : S16384x16.Idx → EReal :=
  fun i => ∑ k : Fin 256, a (ix2 (i 0) k) * b (ix2 k (i 1))

/-- The left operand's index at output index j and contraction index k keeps j's row. -/
theorem lhs_row (j : S2048x16.Idx) (k : dot_S2048x256_S256x16_S2048x16_1_0_0_1_n_n.contr.Idx) :
    (dot_S2048x256_S256x16_S2048x16_1_0_0_1_n_n.lhsIdx j k 0).val = (j 0).val := by
  unfold DotDims.lhsIdx
  rw [dif_neg (show ¬(0 : Fin S2048x256.rank) ∈ dot_S2048x256_S256x16_S2048x16_1_0_0_1_n_n.lhsBatch by decide), dif_pos (show (0 : Fin S2048x256.rank) ∈ dot_S2048x256_S256x16_S2048x16_1_0_0_1_n_n.lhsNonContracting by decide)]
  rfl
/-- … and takes k as its column. -/
theorem lhs_col (j : S2048x16.Idx) (k : dot_S2048x256_S256x16_S2048x16_1_0_0_1_n_n.contr.Idx) :
    (dot_S2048x256_S256x16_S2048x16_1_0_0_1_n_n.lhsIdx j k 1).val = (k ⟨0, by decide⟩).val :=
  dot_S2048x256_S256x16_S2048x16_1_0_0_1_n_n.lhsIdx_val_of_single rfl j k
/-- The right operand's index takes k as its row … -/
theorem rhs_row (j : S2048x16.Idx) (k : dot_S2048x256_S256x16_S2048x16_1_0_0_1_n_n.contr.Idx) :
    (dot_S2048x256_S256x16_S2048x16_1_0_0_1_n_n.rhsIdx j k 0).val = (k ⟨0, by decide⟩).val :=
  dot_S2048x256_S256x16_S2048x16_1_0_0_1_n_n.rhsIdx_val_of_single rfl j k
/-- … and keeps j's column. -/
theorem rhs_col (j : S2048x16.Idx) (k : dot_S2048x256_S256x16_S2048x16_1_0_0_1_n_n.contr.Idx) :
    (dot_S2048x256_S256x16_S2048x16_1_0_0_1_n_n.rhsIdx j k 1).val = (j 1).val := by
  unfold DotDims.rhsIdx
  rw [dif_neg (show ¬(1 : Fin S256x16.rank) ∈ dot_S2048x256_S256x16_S2048x16_1_0_0_1_n_n.rhsBatch by decide), dif_pos (show (1 : Fin S256x16.rank) ∈ dot_S2048x256_S256x16_S2048x16_1_0_0_1_n_n.rhsNonContracting by decide)]
  rfl

/-- The body's stored value at entry (p, q) of its block: the sum over k of the left block's (p, k) times the right
    block's (k, q). -/
theorem pay_apply (x0 : Vec Ideal S2048x256 .bf16) (x1 : Vec Ideal S256x16 .bf16) (p : Fin 2048) (q : Fin 16) :
    k2_pay1 (F := Ideal) x0 x1 (ix2 p q) = ∑ k : Fin 256, x0 (ix2 p k) * x1 (ix2 k q) := by
  unfold k2_pay1
  simp only [shapeCast_self]
  show FloatOps.truncf .bf16 bitsLt_bf16_f32 (matmul (F := Ideal) dot_S2048x256_S256x16_S2048x16_1_0_0_1_n_n none x0 x1 (constant (F := Ideal) S2048x16 .f32 0x00000000#32) (ix2 p q)) = _
  rw [Ideal.truncf_def]
  simp only [matmul]
  rw [Ideal.matmul_constant_zero_apply, ← Equiv.sum_comp (contrEquiv1 dot_S2048x256_S256x16_S2048x16_1_0_0_1_n_n 256 rfl rfl).symm]
  refine Finset.sum_congr rfl fun k _ => ?_
  have hk := contrEquiv1_symm_val dot_S2048x256_S256x16_S2048x16_1_0_0_1_n_n 256 rfl rfl k
  have el : dot_S2048x256_S256x16_S2048x16_1_0_0_1_n_n.lhsIdx (ix2 p q) ((contrEquiv1 dot_S2048x256_S256x16_S2048x16_1_0_0_1_n_n 256 rfl rfl).symm k) = ix2 p k := funext fun a => Fin.ext (by
    match a with
    | ⟨0, _⟩ => exact lhs_row _ _
    | ⟨1, _⟩ => exact (lhs_col _ _).trans hk)
  have er : dot_S2048x256_S256x16_S2048x16_1_0_0_1_n_n.rhsIdx (ix2 p q) ((contrEquiv1 dot_S2048x256_S256x16_S2048x16_1_0_0_1_n_n 256 rfl rfl).symm k) = ix2 k q := funext fun a => Fin.ext (by
    match a with
    | ⟨0, _⟩ => exact (rhs_row _ _).trans hk
    | ⟨1, _⟩ => exact rhs_col _ _)
  rw [el, er]

/-- One entry of a block against one entry of the product: when row y 0 of the left block is row i 0 of the left
    array and column y 1 of the right block is column i 1 of the right array, the body's value at y is the product's
    entry at i. -/
theorem block_entry (x0 : Vec Ideal S2048x256 .bf16) (x1 : Vec Ideal S256x16 .bf16)
    (a : S16384x256.Idx → EReal) (b : S256x16.Idx → EReal) (bias : S1x16.Idx → EReal)
    (y : S2048x16.Idx) (i : S16384x16.Idx)
    (h0 : ∀ k : Fin 256, x0 (ix2 (y 0) k) = a (ix2 (i 0) k))
    (h1 : ∀ k : Fin 256, x1 (ix2 k (y 1)) = b (ix2 k (i 1))) :
    k2_pay1 (F := Ideal) x0 x1 y = prod a b bias i := by
  obtain ⟨p, q, rfl⟩ : ∃ (p : Fin 2048) (q : Fin 16), y = ix2 p q := ⟨y 0, y 1, eq_ix2 y⟩
  rw [pay_apply]
  unfold prod
  exact Finset.sum_congr rfl fun k _ => by rw [← h0 k, ← h1 k]

theorem hz : (![0, 0] : Fin 2 → Nat) = fun _ => 0 := funext fun a => by fin_cases a <;> rfl

/-- The index maps over the 8 grid points: the left and the output block move together along the rows
    (block t at point t), and the right array and the third array are always fetched whole (block (0, 0)). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The left block at point t is rows 2048·t … 2048·t + 2047 of the left array. -/
theorem lhs_block_apply (c : Dev nD) (t : Fin cfg2.N) (x : S2048x256.Idx) (i : S16384x256.Idx)
    (h0 : (i 0).val = 2048 * t.val + (x 0).val) (h1 : (i 1).val = (x 1).val) :
    (iblk2 (F := Ideal) V c 0 t : Vec Ideal S2048x256 .bf16) x = (V c (Pipeline.arrRef spec2 0) : S16384x256.Idx → EReal) i := by
  obtain ⟨e0, e1, -, -, -, -⟩ := idx_facts t
  unfold iblk2
  show V c (Pipeline.arrRef spec2 0) (((cfg2.win 0).blk t).view.emb x) = V c (Pipeline.arrRef spec2 0) i
  congr 1
  funext a
  apply Fin.ext
  match a with
  | ⟨0, _⟩ => show win2_0.index t (0 : Fin 2) * 2048 + 1 * (x 0).val = (i 0).val; rw [e0, h0]; omega
  | ⟨1, _⟩ => show win2_0.index t (1 : Fin 2) * 256 + 1 * (x 1).val = (i 1).val; rw [e1, h1]; omega

/-- The right block at every point is the whole right array. -/
theorem rhs_block_apply (c : Dev nD) (t : Fin cfg2.N) (x : S256x16.Idx) (i : S256x16.Idx)
    (h0 : (i 0).val = (x 0).val) (h1 : (i 1).val = (x 1).val) :
    (iblk2 (F := Ideal) V c 1 t : Vec Ideal S256x16 .bf16) x = (V c (Pipeline.arrRef spec2 1) : S256x16.Idx → EReal) i := by
  obtain ⟨-, -, e2, e3, -, -⟩ := idx_facts t
  unfold iblk2
  show V c (Pipeline.arrRef spec2 1) (((cfg2.win 1).blk t).view.emb x) = V c (Pipeline.arrRef spec2 1) i
  congr 1
  funext a
  apply Fin.ext
  match a with
  | ⟨0, _⟩ => show win2_1.index t (0 : Fin 2) * 256 + 1 * (x 0).val = (i 0).val; rw [e2, h0]; omega
  | ⟨1, _⟩ => show win2_1.index t (1 : Fin 2) * 16 + 1 * (x 1).val = (i 1).val; rw [e3, h1]; omega

/-- A function on the output array's indices read through point t's block: its value at the block entry's place in
    the array. -/
theorem read_blk_apply (t : Fin cfg2.N) (G : S16384x16.Idx → EReal) (j : ((cfg2.win 3).xblock (grid2.coords t)).Idx) :
    ((cfg2.win 3).blk t).view.read (Elt Ideal) G j = G (((cfg2.win 3).blk t).view.emb j) := rfl

/-- What point t writes back is block t of the product of the arrays the region finds at entry. -/
theorem flushed_eq (c : Dev nD) (t : Fin cfg2.N) :
    (dat2 (F := Ideal) V c).flushed 3 t = ((cfg2.win 3).blk t).view.read (Elt Ideal)
      (prod (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero hz]
  simp only [View.ld_unit_zero (S := S2048x256) hz, View.ld_unit_zero (S := S256x16) hz]
  obtain ⟨-, -, -, -, e4, e5⟩ := idx_facts t
  funext j
  rw [read_blk_apply]
  show k2_pay1 (F := Ideal) (iblk2 V c 0 t) (iblk2 V c 1 t) ((win2 3).xinj (grid2.coords t) j) = _
  refine block_entry _ _ (V c (Pipeline.arrRef spec2 0)) (V c (Pipeline.arrRef spec2 1)) (V c (Pipeline.arrRef spec2 2)) _ _ (fun k => ?_) (fun k => ?_)
  · refine lhs_block_apply V c t _ _ ?_ rfl
    show win2_3.index t (0 : Fin 2) * 2048 + 1 * (j 0).val = 2048 * t.val + (j 0).val
    rw [e4]; omega
  · refine rhs_block_apply V c t _ _ rfl ?_
    show win2_3.index t (1 : Fin 2) * 16 + 1 * (j 1).val = (j 1).val
    rw [e5]; omega

/-- An index of the output array is in point t's block iff each coordinate is in the block's range on its axis. -/
theorem mem_blk (t : Fin cfg2.N) (i : S16384x16.Idx) :
    i ∈ ((cfg2.win 3).blk t).view.set ↔ ∀ a : Fin 2, win2_3.index t a * S2048x16.size a ≤ (i a).val ∧ (i a).val < win2_3.index t a * S2048x16.size a + S2048x16.size a := by
  show i ∈ ((View.whole main_v58).slice (win2_3.rect t)).set ↔ _
  rw [View.set_slice_whole, Rect.mem_set_unit]
  exact Iff.rfl

/-- The 8 blocks of 2048 rows fill the 16384 rows: row r is in the block of point r / 2048. -/
theorem cover (i : S16384x16.Idx) : ∃ t : Fin cfg2.N, (cfg2.win 3).flush t = true ∧ i ∈ ((cfg2.win 3).blk t).view.set := by
  have hN : grid2.N = 8 := N_2
  have hi0 : (i 0).val < 16384 := (i 0).isLt
  have hi1 : (i 1).val < 16 := (i 1).isLt
  have ht : (i 0).val / 2048 < cfg2.N := by show _ < grid2.N; rw [hN]; omega
  refine ⟨⟨(i 0).val / 2048, ht⟩, flush2_3 _, ?_⟩
  rw [mem_blk]
  obtain ⟨-, -, -, -, e4, e5⟩ := idx_facts ⟨(i 0).val / 2048, ht⟩
  intro a
  match a with
  | ⟨0, _⟩ =>
    show win2_3.index ⟨(i 0).val / 2048, ht⟩ (0 : Fin 2) * 2048 ≤ (i 0).val ∧ (i 0).val < win2_3.index ⟨(i 0).val / 2048, ht⟩ (0 : Fin 2) * 2048 + 2048
    rw [e4]
    show (i 0).val / 2048 * 2048 ≤ (i 0).val ∧ (i 0).val < (i 0).val / 2048 * 2048 + 2048
    omega
  | ⟨1, _⟩ =>
    show win2_3.index ⟨(i 0).val / 2048, ht⟩ (1 : Fin 2) * 16 ≤ (i 1).val ∧ (i 1).val < win2_3.index ⟨(i 0).val / 2048, ht⟩ (1 : Fin 2) * 16 + 16
    rw [e5]
    omega

/-- The output array after the region is the product of the arrays the region finds at entry. -/
theorem final (c : Dev nD) : (dat2 (F := Ideal) V c).arrAt 3 cfg2.N
    = prod (V c (Pipeline.arrRef spec2 0)) (V c (Pipeline.arrRef spec2 1)) (V c (Pipeline.arrRef spec2 2)) :=
  (dat2 (F := Ideal) V c).arrAt_eq_of_cover 3 _ (fun t _ => flushed_eq V c t) cover

end Cert.KernelIdeal.Region2

end
-- ==== Proof.Region3.lean ====
/- Region 3 of the idealized kernel is a row-tiled matrix product with a bias row. The grid has 128 points; point `t`
   reads rows `128 t … 128 t + 127` of the [16384, 16384] left array, the whole [16384, 16] right array and the whole
   [1, 16] bias row, and writes rows `128 t … 128 t + 127` of the [16384, 16] output array. Over the extended reals,
   entry (r, c) of what it writes is `∑ k, left (r, k) * right (k, c) + bias (0, c)`: it depends on row `r` of the left
   array, column `c` of the right array and entry `c` of the bias row, and on nothing the output array held before. The
   128 row blocks cover every row (row `r` lies in block `r / 128`), so after the region the output array is that one
   function (`prod`) of the three arrays as the region finds them (`final`). -/
import proofs.«105110_j2327872274874_1_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Region3

open Idealize.ShloMosaic Idealize.ShloMosaic.TcCoe Idealize.SL.Sem Cert.KernelIdeal Cert.KernelIdeal.Gen
open Idealize.ShloMosaic.Pipeline (Dat)
open Idealize.ShloMosaic.ValueIdx

/-- Row `i 0` of the left factor against column `i 1` of the right factor, the bias row added. -/
def prod (a : S16384x16384.Idx → EReal) (b : S16384x16.Idx → EReal) (bias : S1x16.Idx → EReal) : S16384x16.Idx → EReal :=
  fun i => (∑ k : Fin 16384, a (ix2 (i 0) k) * b (ix2 k (i 1))) + bias (ix2 0 (i 1))

/-- The left operand's index at output index `i` keeps `i`'s row. -/
theorem lhs_row (i : S128x16.Idx) (q : dot_S128x16384_S16384x16_S128x16_1_0_0_1_n_n.contr.Idx) :
    (dot_S128x16384_S16384x16_S128x16_1_0_0_1_n_n.lhsIdx i q 0).val = (i 0).val := by
  unfold DotDims.lhsIdx
  rw [dif_neg (show ¬(0 : Fin S128x16384.rank) ∈ dot_S128x16384_S16384x16_S128x16_1_0_0_1_n_n.lhsBatch by decide), dif_pos (show (0 : Fin S128x16384.rank) ∈ dot_S128x16384_S16384x16_S128x16_1_0_0_1_n_n.lhsNonContracting by decide)]
  rfl

/-- The right operand's index at output index `i` keeps `i`'s column. -/
theorem rhs_col (i : S128x16.Idx) (q : dot_S128x16384_S16384x16_S128x16_1_0_0_1_n_n.contr.Idx) :
    (dot_S128x16384_S16384x16_S128x16_1_0_0_1_n_n.rhsIdx i q 1).val = (i 1).val := by
  unfold DotDims.rhsIdx
  rw [dif_neg (show ¬(1 : Fin S16384x16.rank) ∈ dot_S128x16384_S16384x16_S128x16_1_0_0_1_n_n.rhsBatch by decide), dif_pos (show (1 : Fin S16384x16.rank) ∈ dot_S128x16384_S16384x16_S128x16_1_0_0_1_n_n.rhsNonContracting by decide)]
  rfl

/-- The block product into a zero accumulator, at entry `(p, q)`: the sum over the contraction index of row `p` of
    the left block times column `q` of the right. -/
theorem mm_apply (x0 : FVec Ideal S128x16384 .bf16) (x1 : FVec Ideal S16384x16 .bf16) (p : Fin 128) (q : Fin 16) :
    FloatOps.matmul dot_S128x16384_S16384x16_S128x16_1_0_0_1_n_n none x0 x1 (constant (F := Ideal) S128x16 .f32 0x00000000#32) (ix2 p q)
      = ∑ k : Fin 16384, x0 (ix2 p k) * x1 (ix2 k q) := by
  rw [Ideal.matmul_constant_zero_apply, ← Equiv.sum_comp (contrEquiv1 dot_S128x16384_S16384x16_S128x16_1_0_0_1_n_n 16384 rfl rfl).symm]
  refine Finset.sum_congr rfl fun k _ => ?_
  have hk := contrEquiv1_symm_val dot_S128x16384_S16384x16_S128x16_1_0_0_1_n_n 16384 rfl rfl k
  have el : dot_S128x16384_S16384x16_S128x16_1_0_0_1_n_n.lhsIdx (ix2 p q) ((contrEquiv1 dot_S128x16384_S16384x16_S128x16_1_0_0_1_n_n 16384 rfl rfl).symm k) = ix2 p k := funext fun a => Fin.ext (by
    match a with
    | ⟨0, _⟩ => exact lhs_row _ _
    | ⟨1, _⟩ => exact (dot_S128x16384_S16384x16_S128x16_1_0_0_1_n_n.lhsIdx_val_of_single rfl _ _).trans hk)
  have er : dot_S128x16384_S16384x16_S128x16_1_0_0_1_n_n.rhsIdx (ix2 p q) ((contrEquiv1 dot_S128x16384_S16384x16_S128x16_1_0_0_1_n_n 16384 rfl rfl).symm k) = ix2 k q := funext fun a => Fin.ext (by
    match a with
    | ⟨0, _⟩ => exact (dot_S128x16384_S16384x16_S128x16_1_0_0_1_n_n.rhsIdx_val_of_single rfl _ _).trans hk
    | ⟨1, _⟩ => exact rhs_col _ _)
  rw [el, er]

/-- The body's stored value at entry `(p, q)` of its block. -/
theorem pay_apply (x0 : Vec Ideal S128x16384 .bf16) (x1 : Vec Ideal S16384x16 .bf16) (x2 : Vec Ideal S1x16 .f32)
    (p : Fin 128) (q : Fin 16) :
    k3_pay1 x0 x1 x2 (ix2 p q) = (∑ k : Fin 16384, x0 (ix2 p k) * x1 (ix2 k q)) + x2 (ix2 0 q) := by
  unfold k3_pay1
  simp only [shapeCast_self]
  rw [addf_apply]
  simp only [matmul]
  rw [mm_apply, broadcastTo_1b_ab_apply]

variable (V : (c : Dev nD) → (b : Ref sig .tc) → Buf (Elt Ideal) ((c : Thread nD τ).loc b))

/-- A block entry from the entries of the blocks' arrays: when row `p` of the left block is row `i 0` of the left array,
    and column `q` of the right block and of the bias block are column `i 1` of their arrays. -/
theorem block_eq (A : S16384x16384.Idx → EReal) (B : S16384x16.Idx → EReal) (C : S1x16.Idx → EReal)
    (x0 : Vec Ideal S128x16384 .bf16) (x1 : Vec Ideal S16384x16 .bf16) (x2 : Vec Ideal S1x16 .f32)
    (p : Fin 128) (q : Fin 16) (i : S16384x16.Idx)
    (h0 : ∀ k : Fin 16384, x0 (ix2 p k) = A (ix2 (i 0) k))
    (h1 : ∀ k : Fin 16384, x1 (ix2 k q) = B (ix2 k (i 1)))
    (h2 : x2 (ix2 0 q) = C (ix2 0 (i 1))) :
    k3_pay1 x0 x1 x2 (ix2 p q) = prod A B C i := by
  rw [pay_apply, h2]
  unfold prod
  simp only [h0, h1]

theorem hz : (![0, 0] : Fin 2 → Nat) = fun _ => 0 := funext fun a => by fin_cases a <;> rfl

/-- The index maps over the grid: the left block and the output block sit at block row `t`, block column 0;
    the right factor and the bias are always block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The left block at point `t` is rows `128 t … 128 t + 127` of the left array. -/
theorem lhs_blk (c : Dev nD) (t : Fin cfg3.N) (y : S128x16384.Idx) (i : S16384x16384.Idx)
    (h0 : (i 0).val = t.val * 128 + (y 0).val) (h1 : (i 1).val = (y 1).val) :
    (iblk3 V c 0 t : Vec Ideal S128x16384 .bf16) y = ((V c (Pipeline.arrRef spec3 0)) : S16384x16384.Idx → EReal) i := by
  obtain ⟨e0, e1, -⟩ := idx_facts t
  unfold iblk3
  rw [View.read_apply]
  show (V c (Pipeline.arrRef spec3 0)) _ = (V c (Pipeline.arrRef spec3 0)) _
  congr 1
  funext a
  apply Fin.ext
  match a with
  | ⟨0, _⟩ => show win3_0.index t (0 : Fin 2) * 128 + 1 * (y 0).val = (i 0).val; rw [e0, h0]; omega
  | ⟨1, _⟩ => show win3_0.index t (1 : Fin 2) * 16384 + 1 * (y 1).val = (i 1).val; rw [e1, h1]; omega

/-- The right block at every point is the whole right array. -/
theorem rhs_blk (c : Dev nD) (t : Fin cfg3.N) (y : S16384x16.Idx) :
    (iblk3 V c 1 t : Vec Ideal S16384x16 .bf16) y = ((V c (Pipeline.arrRef spec3 1)) : S16384x16.Idx → EReal) y := by
  obtain ⟨-, -, e2, e3, -⟩ := idx_facts t
  unfold iblk3
  rw [View.read_apply]
  show (V c (Pipeline.arrRef spec3 1)) _ = (V c (Pipeline.arrRef spec3 1)) _
  congr 1
  funext a
  apply Fin.ext
  match a with
  | ⟨0, _⟩ => show win3_1.index t (0 : Fin 2) * 16384 + 1 * (y 0).val = (y 0).val; rw [e2]; omega
  | ⟨1, _⟩ => show win3_1.index t (1 : Fin 2) * 16 + 1 * (y 1).val = (y 1).val; rw [e3]; omega

/-- The bias block at every point is the whole bias row. -/
theorem bias_blk (c : Dev nD) (t : Fin cfg3.N) (y : S1x16.Idx) :
    (iblk3 V c 2 t : Vec Ideal S1x16 .f32) y = ((V c (Pipeline.arrRef spec3 2)) : S1x16.Idx → EReal) y := by
  obtain ⟨-, -, -, -, e4, e5, -⟩ := idx_facts t
  unfold iblk3
  rw [View.read_apply]
  show (V c (Pipeline.arrRef spec3 2)) _ = (V c (Pipeline.arrRef spec3 2)) _
  congr 1
  funext a
  apply Fin.ext
  match a with
  | ⟨0, _⟩ => show win3_2.index t (0 : Fin 2) * 1 + 1 * (y 0).val = (y 0).val; rw [e4]; omega
  | ⟨1, _⟩ => show win3_2.index t (1 : Fin 2) * 16 + 1 * (y 1).val = (y 1).val; rw [e5]; omega

/-- What point `t` writes back is block `t` of `prod` of the three arrays as the region finds them. -/
theorem flushed_eq (c : Dev nD) (t : Fin cfg3.N) :
    (dat3 V c).flushed 3 t = ((cfg3.win 3).blk t).view.read (Elt Ideal) (prod (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S128x16384) hz, View.ld_unit_zero (S := S16384x16) hz, View.ld_unit_zero (S := S1x16) hz]
  obtain ⟨-, -, -, -, -, -, e6, e7⟩ := idx_facts t
  funext j
  have hj : (cfg3.win 3).xinj (grid3.coords t) j = ix2 (n0 := 128) (n1 := 16) (j 0) (j 1) := eq_ix2 _
  have hr : ((((cfg3.win 3).blk t).view.emb j) 0).val = t.val * 128 + (j 0).val := by
    show win3_3.index t (0 : Fin 2) * 128 + 1 * (j 0).val = _; rw [e6]; omega
  have hc : ((((cfg3.win 3).blk t).view.emb j) 1).val = (j 1).val := by
    show win3_3.index t (1 : Fin 2) * 16 + 1 * (j 1).val = _; rw [e7]; omega
  refine (congrArg (k3_pay1 (iblk3 V c 0 t) (iblk3 V c 1 t) (iblk3 V c 2 t)) hj).trans ?_
  refine block_eq (V c (Pipeline.arrRef spec3 0)) (V c (Pipeline.arrRef spec3 1)) (V c (Pipeline.arrRef spec3 2)) (iblk3 V c 0 t) (iblk3 V c 1 t) (iblk3 V c 2 t) (j 0) (j 1) (((cfg3.win 3).blk t).view.emb j) ?_ ?_ ?_
  · intro k
    exact lhs_blk V c t _ _ hr rfl
  · intro k
    rw [rhs_blk]
    exact congrArg (V c (Pipeline.arrRef spec3 1)) (funext fun a => Fin.ext (by
      match a with
      | ⟨0, _⟩ => rfl
      | ⟨1, _⟩ => exact hc.symm))
  · rw [bias_blk]
    exact congrArg (V c (Pipeline.arrRef spec3 2)) (funext fun a => Fin.ext (by
      match a with
      | ⟨0, _⟩ => rfl
      | ⟨1, _⟩ => exact hc.symm))

/-- An index of the output array is in point `t`'s block iff each coordinate is in the block's range on its axis. -/
theorem mem_blk (t : Fin cfg3.N) (i : S16384x16.Idx) :
    i ∈ ((cfg3.win 3).blk t).view.set ↔ ∀ a : Fin 2, win3_3.index t a * S128x16.size a ≤ (i a).val ∧ (i a).val < win3_3.index t a * S128x16.size a + S128x16.size a := by
  show i ∈ ((View.whole main_v59).slice (win3_3.rect t)).set ↔ _
  rw [View.set_slice_whole, Rect.mem_set_unit]
  exact Iff.rfl

/-- Every entry of the output array is written: row `r` by point `r / 128`. -/
theorem cover (i : S16384x16.Idx) : ∃ t : Fin cfg3.N, (cfg3.win 3).flush t = true ∧ i ∈ ((cfg3.win 3).blk t).view.set := by
  have hN : grid3.N = 128 := N_3
  have hi0 : (i 0).val < 16384 := (i 0).isLt
  have hi1 : (i 1).val < 16 := (i 1).isLt
  have ht : (i 0).val / 128 < cfg3.N := by show (i 0).val / 128 < grid3.N; rw [hN]; omega
  obtain ⟨-, -, -, -, -, -, e6, e7⟩ := idx_facts ⟨(i 0).val / 128, ht⟩
  refine ⟨⟨(i 0).val / 128, ht⟩, flush3_3 _, ?_⟩
  rw [mem_blk]
  intro a
  match a with
  | ⟨0, _⟩ =>
    show win3_3.index ⟨(i 0).val / 128, ht⟩ (0 : Fin 2) * 128 ≤ (i 0).val ∧ (i 0).val < win3_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win3_3.index ⟨(i 0).val / 128, ht⟩ (1 : Fin 2) * 16 ≤ (i 1).val ∧ (i 1).val < win3_3.index ⟨(i 0).val / 128, ht⟩ (1 : Fin 2) * 16 + 16
    rw [e7]; omega

/-- The output array after the region: `prod` of the left array, the right array and the bias row as the region finds them. -/
theorem final (c : Dev nD) : (dat3 (F := Ideal) V c).arrAt 3 cfg3.N = prod (V c (Pipeline.arrRef spec3 0)) (V c (Pipeline.arrRef spec3 1)) (V c (Pipeline.arrRef spec3 2)) :=
  (dat3 V c).arrAt_eq_of_cover 3 (prod (V c (Pipeline.arrRef spec3 0)) (V c (Pipeline.arrRef spec3 1)) (V c (Pipeline.arrRef spec3 2))) (fun t _ => flushed_eq V c t) cover

end Cert.KernelIdeal.Region3

end
-- ==== Proof.Spec.lean ====
/-
  The two-layer graph convolution as one function of an adjacency matrix `A` [16384, 16384] and the
  arguments: node features `x` [16384, 16384], weights `w1` [16384, 256] and `w2` [256, 16], biases
  `b1` [256] and `b2` [16]. Entry by entry, over the extended reals:
    hidden  = x · w1,                              first = max (A · hidden + b1) 0,
    hidden' = first · w2,                           result = A · hidden' + b2,
  every product a plain sum over the contracted index and every bias added along the rows.
  Both programs compute this function; they differ in how they come by `A · H`.
-/
import Idealize.ShloMosaic.Lib.ValueIdx
import Idealize.ShloMosaic.PureOps.Ideal

noncomputable section

namespace Cert.Spec

open Idealize.ShloMosaic Idealize.ShloMosaic.ValueIdx

/-- A matrix of extended reals of literal extents. -/
abbrev Mat (r c : Nat) := (⟨2, ![r, c]⟩ : Shape).Idx → EReal
/-- A vector of extended reals of literal extent. -/
abbrev Vc (n : Nat) := (⟨1, ![n]⟩ : Shape).Idx → EReal

/-- `x · w1`. -/
def hidden1 (x : Mat 16384 16384) (w1 : Mat 16384 256) : Mat 16384 256 :=
  fun i => ∑ k : Fin 16384, x (ix2 (i 0) k) * w1 (ix2 k (i 1))

/-- `A · H` for 256 columns. -/
def agg256 (A : Mat 16384 16384) (H : Mat 16384 256) : Mat 16384 256 :=
  fun i => ∑ k : Fin 16384, A (ix2 (i 0) k) * H (ix2 k (i 1))

/-- `A · H` for 16 columns. -/
def agg16 (A : Mat 16384 16384) (H : Mat 16384 16) : Mat 16384 16 :=
  fun i => ∑ k : Fin 16384, A (ix2 (i 0) k) * H (ix2 k (i 1))

/-- The first layer's output: `max (A · hidden + b1) 0`. -/
def first (A : Mat 16384 16384) (x : Mat 16384 16384) (w1 : Mat 16384 256) (b1 : Vc 256) : Mat 16384 256 :=
  fun i => max (agg256 A (hidden1 x w1) i + b1 (ix1 (i 1))) 0

/-- `first · w2`. -/
def hidden2 (A : Mat 16384 16384) (x : Mat 16384 16384) (w1 : Mat 16384 256) (b1 : Vc 256) (w2 : Mat 256 16) : Mat 16384 16 :=
  fun i => ∑ k : Fin 256, first A x w1 b1 (ix2 (i 0) k) * w2 (ix2 k (i 1))

/-- The network's result: `A · hidden' + b2`. -/
def gcn (A : Mat 16384 16384) (x : Mat 16384 16384) (w1 : Mat 16384 256) (b1 : Vc 256) (w2 : Mat 256 16) (b2 : Vc 16) : Mat 16384 16 :=
  fun i => agg16 A (hidden2 A x w1 b1 w2) i + b2 (ix1 (i 1))

end Cert.Spec

end
-- ==== Proof.KernelValue.lean ====
/-
  The idealized kernel's result as one function of the arguments. The result buffer is the fourth matrix
  product's output array; its operands are the adjacency matrix, the third product's output and the
  second bias; the third product's operands are the second product's output and the second weight
  matrix; and so on back to the first product of the node features with the first weight matrix. Each
  output array is the product of the arrays that product found (one theorem per product), an array no
  product writes is what the host operations left there, and a change of float format is the identity on
  the extended reals. Composed, the result is the two-layer network at the adjacency matrix.
-/
import proofs.«105110_j2327872274874_1_alg».proof.Proof.KHost
import proofs.«105110_j2327872274874_1_alg».proof.Proof.KernelRun
import proofs.«105110_j2327872274874_1_alg».proof.Proof.Region0
import proofs.«105110_j2327872274874_1_alg».proof.Proof.Region1
import proofs.«105110_j2327872274874_1_alg».proof.Proof.Region2
import proofs.«105110_j2327872274874_1_alg».proof.Proof.Region3
import proofs.«105110_j2327872274874_1_alg».proof.Proof.Spec
import Idealize.ShloMosaic.Lib.Pipeline.Value

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.HostVals

variable (m : (ℓ : Loc nD τ sig) → Buf (Elt Ideal) ℓ) (ρ : Dev nD → PrngReg)

/-- The first product's output: the node features times the first weight matrix. -/
theorem out0 (c : Dev nD) : W4 m ρ c (Proc.devRef .tc main_v56)
    = Region0.prod (m ((c : Thread nD τ).loc main_arg0)) (truncf (F := Ideal) .bf16 (m ((c : Thread nD τ).loc main_arg3)) bitsLt_bf16_f32)
        (W3 m ρ c (Proc.devRef .tc main_v54)) := by
  refine (W4_arr m ρ c 3).trans ((Region0.final (V3 m ρ) c).trans ?_)
  show Region0.prod (W3 m ρ c (Proc.devRef .tc main_arg0)) (W3 m ρ c (Proc.devRef .tc main_v50)) (W3 m ρ c (Proc.devRef .tc main_v54)) = _
  rw [W3_arg0, W3_v50]

/-- The adjacency matrix is still in place after the first product. -/
theorem adj4 (c : Dev nD) : W4 m ρ c (Proc.devRef .tc main_v49)
    = adj (F := Ideal) (m ((c : Thread nD τ).loc main_arg1)) (m ((c : Thread nD τ).loc main_arg2)) :=
  (W4_of_ne m ρ c main_v49 (by decide)).trans (W3_v49 m ρ c)

/-- So is the first bias row. -/
theorem bias4 (c : Dev nD) : W4 m ρ c (Proc.devRef .tc main_v52)
    = broadcastInDim S1x256 ![1] bcast_S256_S1x256_1 (m ((c : Thread nD τ).loc main_arg4)) :=
  (W4_of_ne m ρ c main_v52 (by decide)).trans (W3_v52 m ρ c)

/-- The second product's output: the first layer. -/
theorem out1 (c : Dev nD) : W5 m ρ c (Proc.devRef .tc main_v57)
    = Region1.prod (adj (F := Ideal) (m ((c : Thread nD τ).loc main_arg1)) (m ((c : Thread nD τ).loc main_arg2)))
        (Region0.prod (m ((c : Thread nD τ).loc main_arg0)) (truncf (F := Ideal) .bf16 (m ((c : Thread nD τ).loc main_arg3)) bitsLt_bf16_f32) (W3 m ρ c (Proc.devRef .tc main_v54)))
        (broadcastInDim S1x256 ![1] bcast_S256_S1x256_1 (m ((c : Thread nD τ).loc main_arg4))) := by
  refine (W5_arr m ρ c 3).trans ((Region1.final (V4 m ρ) c).trans ?_)
  show Region1.prod (W4 m ρ c (Proc.devRef .tc main_v49)) (W4 m ρ c (Proc.devRef .tc main_v56)) (W4 m ρ c (Proc.devRef .tc main_v52)) = _
  rw [adj4, out0, bias4]

/-- The second weight matrix is in place when the third product starts. -/
theorem w2_5 (c : Dev nD) : W5 m ρ c (Proc.devRef .tc main_v51)
    = truncf (F := Ideal) .bf16 (m ((c : Thread nD τ).loc main_arg5)) bitsLt_bf16_f32 :=
  (W5_of_ne m ρ c main_v51 (by decide)).trans ((W4_of_ne m ρ c main_v51 (by decide)).trans (W3_v51 m ρ c))

/-- The third product's output: the first layer times the second weight matrix. -/
theorem out2 (c : Dev nD) : W6 m ρ c (Proc.devRef .tc main_v58)
    = Region2.prod (W5 m ρ c (Proc.devRef .tc main_v57)) (truncf (F := Ideal) .bf16 (m ((c : Thread nD τ).loc main_arg5)) bitsLt_bf16_f32)
        (W5 m ρ c (Proc.devRef .tc main_v55)) := by
  refine (W6_arr m ρ c 3).trans ((Region2.final (V5 m ρ) c).trans ?_)
  show Region2.prod (W5 m ρ c (Proc.devRef .tc main_v57)) (W5 m ρ c (Proc.devRef .tc main_v51)) (W5 m ρ c (Proc.devRef .tc main_v55)) = _
  rw [w2_5]

/-- The adjacency matrix is still in place when the fourth product starts: the second product read it
    through an input window, the third does not touch it. -/
theorem adj6 (c : Dev nD) : W6 m ρ c (Proc.devRef .tc main_v49)
    = adj (F := Ideal) (m ((c : Thread nD τ).loc main_arg1)) (m ((c : Thread nD τ).loc main_arg2)) :=
  (W6_of_ne m ρ c main_v49 (by decide)).trans
    (((W5_arr m ρ c 0).trans (((dat1 (V4 m ρ) c).arrAt_in 0 rfl _).trans (A_eq1 (V4 m ρ) c 0))).trans (adj4 m ρ c))

/-- The second bias row is in place when the fourth product starts. -/
theorem bias6 (c : Dev nD) : W6 m ρ c (Proc.devRef .tc main_v53)
    = broadcastInDim S1x16 ![1] bcast_S16_S1x16_1 (m ((c : Thread nD τ).loc main_arg6)) :=
  (W6_of_ne m ρ c main_v53 (by decide)).trans ((W5_of_ne m ρ c main_v53 (by decide)).trans
    ((W4_of_ne m ρ c main_v53 (by decide)).trans (W3_v53 m ρ c)))

/-- The result: the fourth product's output. -/
theorem out3 (c : Dev nD) : W7 m ρ c (Proc.devRef .tc main_v59)
    = Region3.prod (adj (F := Ideal) (m ((c : Thread nD τ).loc main_arg1)) (m ((c : Thread nD τ).loc main_arg2)))
        (W6 m ρ c (Proc.devRef .tc main_v58))
        (broadcastInDim S1x16 ![1] bcast_S16_S1x16_1 (m ((c : Thread nD τ).loc main_arg6))) := by
  refine (W7_arr m ρ c 3).trans ((Region3.final (V6 m ρ) c).trans ?_)
  show Region3.prod (W6 m ρ c (Proc.devRef .tc main_v49)) (W6 m ρ c (Proc.devRef .tc main_v58)) (W6 m ρ c (Proc.devRef .tc main_v53)) = _
  rw [adj6, bias6]

/-- A bias broadcast to one row, read in that row, is the bias. -/
theorem row256 (b : S256.Idx → EReal) (q : Fin 256) :
    broadcastInDim S1x256 ![1] bcast_S256_S1x256_1 b (ix2 (0 : Fin 1) q) = b (ix1 q) :=
  broadcastInDim_apply ![1] bcast_S256_S1x256_1 b (ix2 (0 : Fin 1) q) (ix1 q) (fun a => by
    match a with | ⟨0, _⟩ => rfl)

theorem row16 (b : S16.Idx → EReal) (q : Fin 16) :
    broadcastInDim S1x16 ![1] bcast_S16_S1x16_1 b (ix2 (0 : Fin 1) q) = b (ix1 q) :=
  broadcastInDim_apply ![1] bcast_S16_S1x16_1 b (ix2 (0 : Fin 1) q) (ix1 q) (fun a => by
    match a with | ⟨0, _⟩ => rfl)

/-- The first product is `x · w1`. -/
theorem prod0_eq (x : S16384x16384.Idx → EReal) (w : S16384x256.Idx → EReal) (z : S1x256.Idx → EReal) :
    Region0.prod x (truncf (F := Ideal) .bf16 w bitsLt_bf16_f32) z = Cert.Spec.hidden1 x w := rfl

/-- The second product, with its bias and its maximum. -/
theorem prod1_eq (A : S16384x16384.Idx → EReal) (H : S16384x256.Idx → EReal) (b : S256.Idx → EReal) :
    Region1.prod A H (broadcastInDim S1x256 ![1] bcast_S256_S1x256_1 b)
      = fun i => max (Cert.Spec.agg256 A H i + b (ix1 (i 1))) 0 := by
  funext i
  unfold Region1.prod Cert.Spec.agg256
  exact congrArg (fun t => max ((∑ k : Fin 16384, A (ix2 (i 0) k) * H (ix2 k (i 1))) + t) 0) (row256 b (i 1))

/-- The third product is its left operand times `w2`. -/
theorem prod2_eq (R : S16384x256.Idx → EReal) (w : S256x16.Idx → EReal) (z : S1x16.Idx → EReal) :
    Region2.prod R (truncf (F := Ideal) .bf16 w bitsLt_bf16_f32) z
      = fun i => ∑ k : Fin 256, R (ix2 (i 0) k) * w (ix2 k (i 1)) := rfl

/-- The fourth product, with its bias. -/
theorem prod3_eq (A : S16384x16384.Idx → EReal) (H : S16384x16.Idx → EReal) (b : S16.Idx → EReal) :
    Region3.prod A H (broadcastInDim S1x16 ![1] bcast_S16_S1x16_1 b)
      = fun i => Cert.Spec.agg16 A H i + b (ix1 (i 1)) := by
  funext i
  unfold Region3.prod Cert.Spec.agg16
  exact congrArg (fun t => (∑ k : Fin 16384, A (ix2 (i 0) k) * H (ix2 k (i 1))) + t) (row16 b (i 1))

/-- The result is the two-layer network at the adjacency matrix. -/
theorem result_eq (c : Dev nD) : W7 m ρ c (Proc.devRef .tc main_v59)
    = Cert.Spec.gcn (adj (F := Ideal) (m ((c : Thread nD τ).loc main_arg1)) (m ((c : Thread nD τ).loc main_arg2)))
        (m ((c : Thread nD τ).loc main_arg0)) (m ((c : Thread nD τ).loc main_arg3)) (m ((c : Thread nD τ).loc main_arg4))
        (m ((c : Thread nD τ).loc main_arg5)) (m ((c : Thread nD τ).loc main_arg6)) := by
  rw [out3, out2, out1, prod0_eq, prod1_eq, prod2_eq, prod3_eq]
  rfl

end Cert.KernelIdeal.KernelValue

end
-- ==== Proof.IndexK.lean ====
/-
  Where a two-component scatter lands.  The scatter of rank-1 updates into a 16384 x 16384 operand
  reads, for update position e, the two words of row e of the 540672 x 2 index array as a signed
  (row, column) pair.  No axis of the updates is a window axis, so the window coordinate is zero
  on both operand axes and the result index is the pair itself; when both words are in
  [0, 16384) the index is inside the operand and is not dropped.
-/
import proofs.«105110_j2327872274874_1_alg».proof.KernelIdeal
import proofs.«105110_j2327872274874_1_alg».proof.Proof.Gen.KernelIdeal
import Idealize.ShloMosaic.Lib.ValueIdx

namespace Cert.KernelIdeal.IndexFacts

open Idealize.ShloMosaic Idealize.ShloMosaic.ValueIdx
open Cert.KernelIdeal Cert.KernelIdeal.Gen

/-- On the row axis the start is the first word of row `e` of the index array, read signed. -/
theorem start0 (idx : IVec S540672x2 32) (e : S540672.Idx) :
    scatter_S16384x16384_S540672x2_S540672_n_01_01_1.start e idx 0 = (idx (ix2 (e 0) 0)).toInt := by
  unfold ScatterDims.start
  rw [dif_pos (by decide)]
  congr 2
  funext b
  match b with
  | ⟨0, _⟩ => rfl
  | ⟨1, _⟩ => rfl

/-- On the column axis the start is the second word of row `e`, read signed. -/
theorem start1 (idx : IVec S540672x2 32) (e : S540672.Idx) :
    scatter_S16384x16384_S540672x2_S540672_n_01_01_1.start e idx 1 = (idx (ix2 (e 0) 1)).toInt := by
  unfold ScatterDims.start
  rw [dif_pos (by decide)]
  congr 2
  funext b
  match b with
  | ⟨0, _⟩ => rfl
  | ⟨1, _⟩ => rfl

/-- Both operand axes are inserted window axes: the window coordinate is zero on the row axis … -/
theorem window0 (e : S540672.Idx) : scatter_S16384x16384_S540672x2_S540672_n_01_01_1.window e 0 = 0 := by
  unfold ScatterDims.window
  rw [dif_neg (by decide)]

/-- … and on the column axis. -/
theorem window1 (e : S540672.Idx) : scatter_S16384x16384_S540672x2_S540672_n_01_01_1.window e 1 = 0 := by
  unfold ScatterDims.window
  rw [dif_neg (by decide)]

/-- With both index words in `[0, 16384)` the update at `e` lands exactly at the operand index
    whose row is the first word and whose column is the second. -/
theorem resultIdx2 (idx : IVec S540672x2 32) (e : S540672.Idx)
    (h0 : 0 ≤ (idx (ix2 (e 0) 0)).toInt ∧ (idx (ix2 (e 0) 0)).toInt < 16384)
    (h1 : 0 ≤ (idx (ix2 (e 0) 1)).toInt ∧ (idx (ix2 (e 0) 1)).toInt < 16384)
    (i : S16384x16384.Idx) :
    scatter_S16384x16384_S540672x2_S540672_n_01_01_1.resultIdx? e idx = some i ↔
      (((i 0).val : Int) = (idx (ix2 (e 0) 0)).toInt ∧ ((i 1).val : Int) = (idx (ix2 (e 0) 1)).toInt) := by
  have hs0 := start0 idx e
  have hs1 := start1 idx e
  have hw0 := window0 e
  have hw1 := window1 e
  have hall : ∀ a, 0 ≤ scatter_S16384x16384_S540672x2_S540672_n_01_01_1.start e idx a + scatter_S16384x16384_S540672x2_S540672_n_01_01_1.window e a ∧
      scatter_S16384x16384_S540672x2_S540672_n_01_01_1.start e idx a + scatter_S16384x16384_S540672x2_S540672_n_01_01_1.window e a < S16384x16384.size a := by
    intro a
    match a with
    | ⟨0, _⟩ =>
      show 0 ≤ scatter_S16384x16384_S540672x2_S540672_n_01_01_1.start e idx 0 + scatter_S16384x16384_S540672x2_S540672_n_01_01_1.window e 0 ∧ scatter_S16384x16384_S540672x2_S540672_n_01_01_1.start e idx 0 + scatter_S16384x16384_S540672x2_S540672_n_01_01_1.window e 0 < (16384 : Nat)
      rw [hs0, hw0]; omega
    | ⟨1, _⟩ =>
      show 0 ≤ scatter_S16384x16384_S540672x2_S540672_n_01_01_1.start e idx 1 + scatter_S16384x16384_S540672x2_S540672_n_01_01_1.window e 1 ∧ scatter_S16384x16384_S540672x2_S540672_n_01_01_1.start e idx 1 + scatter_S16384x16384_S540672x2_S540672_n_01_01_1.window e 1 < (16384 : Nat)
      rw [hs1, hw1]; omega
  unfold ScatterDims.resultIdx?
  rw [dif_pos hall]
  constructor
  · intro h
    have h' := Option.some.inj h
    subst h'
    refine ⟨?_, ?_⟩
    · show (((scatter_S16384x16384_S540672x2_S540672_n_01_01_1.start e idx 0 + scatter_S16384x16384_S540672x2_S540672_n_01_01_1.window e 0).toNat : Nat) : Int) = _
      rw [hs0, hw0]; omega
    · show (((scatter_S16384x16384_S540672x2_S540672_n_01_01_1.start e idx 1 + scatter_S16384x16384_S540672x2_S540672_n_01_01_1.window e 1).toNat : Nat) : Int) = _
      rw [hs1, hw1]; omega
  · rintro ⟨hi0, hi1⟩
    congr 1
    funext a
    match a with
    | ⟨0, _⟩ =>
      apply Fin.ext
      show (scatter_S16384x16384_S540672x2_S540672_n_01_01_1.start e idx 0 + scatter_S16384x16384_S540672x2_S540672_n_01_01_1.window e 0).toNat = (i 0).val
      rw [hs0, hw0]; omega
    | ⟨1, _⟩ =>
      apply Fin.ext
      show (scatter_S16384x16384_S540672x2_S540672_n_01_01_1.start e idx 1 + scatter_S16384x16384_S540672x2_S540672_n_01_01_1.window e 1).toNat = (i 1).val
      rw [hs1, hw1]; omega

end Cert.KernelIdeal.IndexFacts
-- ==== Proof.IndexR.lean ====
/-
  Where a one-component scatter and gather land.  For a 16384 x C operand (C = 256 or 16), a
  540672 x 1 index array and 540672 x C updates (or gathered rows), update position u reads the
  single word of row (u 0) of the index array as a signed row number.  Axis 1 is carried through
  unchanged: it is the one window axis of the scatter and the one offset axis of the gather, so
  the column of the operand index is (u 1).  For the scatter the row is the word itself, and the
  update is kept when the word is in [0, 16384).  For the gather the row is the word clamped to
  [0, 16383], and in range the clamp is the identity.
-/
import proofs.«105110_j2327872274874_1_alg».proof.ReferenceIdeal
import proofs.«105110_j2327872274874_1_alg».proof.Proof.Gen.ReferenceIdeal
import Idealize.ShloMosaic.Lib.ValueIdx

namespace Cert.ReferenceIdeal.IndexFacts

open Idealize.ShloMosaic Idealize.ShloMosaic.ValueIdx
open Cert.ReferenceIdeal Cert.ReferenceIdeal.Gen

/-! ## The scatter into the 16384 x 256 operand -/

/-- On the row axis the start is the word of row `u 0` of the index array, read signed. -/
theorem sStart0_256 (idx : IVec S540672x1 32) (u : S540672x256.Idx) :
    scatter_S16384x256_S540672x1_S540672x256_1_0_0_1.start u idx 0 = (idx (ix2 (u 0) 0)).toInt := by
  unfold ScatterDims.start
  rw [dif_pos (by decide)]
  congr 2
  funext b
  match b with
  | ⟨0, _⟩ => rfl
  | ⟨1, _⟩ => rfl

/-- The column axis is not named by the index map: its start is zero. -/
theorem sStart1_256 (idx : IVec S540672x1 32) (u : S540672x256.Idx) : scatter_S16384x256_S540672x1_S540672x256_1_0_0_1.start u idx 1 = 0 := by
  unfold ScatterDims.start
  rw [dif_neg (by decide)]

/-- The row axis is an inserted window axis: its window coordinate is zero. -/
theorem sWindow0_256 (u : S540672x256.Idx) : scatter_S16384x256_S540672x1_S540672x256_1_0_0_1.window u 0 = 0 := by
  unfold ScatterDims.window
  rw [dif_neg (by decide)]

/-- The column axis is the window axis: its window coordinate is the update's column. -/
theorem sWindow1_256 (u : S540672x256.Idx) : scatter_S16384x256_S540672x1_S540672x256_1_0_0_1.window u 1 = (u 1).val := by
  unfold ScatterDims.window
  rw [dif_pos (by decide)]
  rfl

/-- With the index word in `[0, 16384)` the update at `u` lands exactly at the operand index whose
    row is the word and whose column is `u`'s. -/
theorem resultIdx256 (idx : IVec S540672x1 32) (u : S540672x256.Idx)
    (h0 : 0 ≤ (idx (ix2 (u 0) 0)).toInt ∧ (idx (ix2 (u 0) 0)).toInt < 16384)
    (i : S16384x256.Idx) :
    scatter_S16384x256_S540672x1_S540672x256_1_0_0_1.resultIdx? u idx = some i ↔
      (((i 0).val : Int) = (idx (ix2 (u 0) 0)).toInt ∧ i 1 = u 1) := by
  have hs0 := sStart0_256 idx u
  have hs1 := sStart1_256 idx u
  have hw0 := sWindow0_256 u
  have hw1 := sWindow1_256 u
  have hu1 : (u 1).val < 256 := idx2_lt1 u
  have hall : ∀ a, 0 ≤ scatter_S16384x256_S540672x1_S540672x256_1_0_0_1.start u idx a + scatter_S16384x256_S540672x1_S540672x256_1_0_0_1.window u a ∧
      scatter_S16384x256_S540672x1_S540672x256_1_0_0_1.start u idx a + scatter_S16384x256_S540672x1_S540672x256_1_0_0_1.window u a < S16384x256.size a := by
    intro a
    match a with
    | ⟨0, _⟩ =>
      show 0 ≤ scatter_S16384x256_S540672x1_S540672x256_1_0_0_1.start u idx 0 + scatter_S16384x256_S540672x1_S540672x256_1_0_0_1.window u 0 ∧ scatter_S16384x256_S540672x1_S540672x256_1_0_0_1.start u idx 0 + scatter_S16384x256_S540672x1_S540672x256_1_0_0_1.window u 0 < (16384 : Nat)
      rw [hs0, hw0]; omega
    | ⟨1, _⟩ =>
      show 0 ≤ scatter_S16384x256_S540672x1_S540672x256_1_0_0_1.start u idx 1 + scatter_S16384x256_S540672x1_S540672x256_1_0_0_1.window u 1 ∧ scatter_S16384x256_S540672x1_S540672x256_1_0_0_1.start u idx 1 + scatter_S16384x256_S540672x1_S540672x256_1_0_0_1.window u 1 < (256 : Nat)
      rw [hs1, hw1]; omega
  unfold ScatterDims.resultIdx?
  rw [dif_pos hall]
  constructor
  · intro h
    have h' := Option.some.inj h
    subst h'
    refine ⟨?_, ?_⟩
    · show (((scatter_S16384x256_S540672x1_S540672x256_1_0_0_1.start u idx 0 + scatter_S16384x256_S540672x1_S540672x256_1_0_0_1.window u 0).toNat : Nat) : Int) = _
      rw [hs0, hw0]; omega
    · apply Fin.ext
      show (scatter_S16384x256_S540672x1_S540672x256_1_0_0_1.start u idx 1 + scatter_S16384x256_S540672x1_S540672x256_1_0_0_1.window u 1).toNat = (u 1).val
      rw [hs1, hw1]; omega
  · rintro ⟨hi0, hi1⟩
    congr 1
    funext a
    match a with
    | ⟨0, _⟩ =>
      apply Fin.ext
      show (scatter_S16384x256_S540672x1_S540672x256_1_0_0_1.start u idx 0 + scatter_S16384x256_S540672x1_S540672x256_1_0_0_1.window u 0).toNat = (i 0).val
      rw [hs0, hw0]; omega
    | ⟨1, _⟩ =>
      apply Fin.ext
      show (scatter_S16384x256_S540672x1_S540672x256_1_0_0_1.start u idx 1 + scatter_S16384x256_S540672x1_S540672x256_1_0_0_1.window u 1).toNat = (i 1).val
      rw [hs1, hw1, hi1]; omega

/-! ## The gather from the 16384 x 256 operand -/

/-- On the row axis the start is the word of row `u 0` of the index array, read signed and clamped
    to `[0, 16383]` (the operand's rows less the slice's one row). -/
theorem gStart0_256 (idx : IVec S540672x1 32) (u : S540672x256.Idx) :
    gather_S16384x256_S540672x1_S540672x256_1_0_n_n_0_1_1256.start u idx 0 = min (idx (ix2 (u 0) 0)).toInt.toNat 16383 := by
  unfold GatherDims.start
  rw [dif_pos (by decide)]
  congr 1
  congr 3
  funext b
  match b with
  | ⟨0, _⟩ => rfl
  | ⟨1, _⟩ => rfl

/-- The column axis is not named by the start index map: its start is zero. -/
theorem gStart1_256 (idx : IVec S540672x1 32) (u : S540672x256.Idx) : gather_S16384x256_S540672x1_S540672x256_1_0_n_n_0_1_1256.start u idx 1 = 0 := by
  unfold GatherDims.start
  rw [dif_neg (by decide)]

/-- There are no batching axes: the batching coordinate is zero on every axis. -/
theorem gBatch_256 (u : S540672x256.Idx) (a : Fin 2) : gather_S16384x256_S540672x1_S540672x256_1_0_n_n_0_1_1256.batchCoord u a = 0 :=
  gather_S16384x256_S540672x1_S540672x256_1_0_n_n_0_1_1256.batchCoord_eq_zero u a List.not_mem_nil

/-- The row axis is collapsed: its offset coordinate is zero. -/
theorem gOff0_256 (u : S540672x256.Idx) : gather_S16384x256_S540672x1_S540672x256_1_0_n_n_0_1_1256.offCoord u 0 = 0 := by
  unfold GatherDims.offCoord
  rw [dif_neg (by decide)]

/-- The column axis is the offset axis: its offset coordinate is the result's column. -/
theorem gOff1_256 (u : S540672x256.Idx) : gather_S16384x256_S540672x1_S540672x256_1_0_n_n_0_1_1256.offCoord u 1 = (u 1).val := by
  unfold GatherDims.offCoord
  rw [dif_pos (by decide)]
  rfl

/-- With the index word in `[0, 16384)` result position `u` reads the operand at the row the word
    names and at `u`'s column. -/
theorem operandIdx256 (idx : IVec S540672x1 32) (u : S540672x256.Idx)
    (h0 : 0 ≤ (idx (ix2 (u 0) 0)).toInt ∧ (idx (ix2 (u 0) 0)).toInt < 16384) :
    (((gather_S16384x256_S540672x1_S540672x256_1_0_n_n_0_1_1256.operandIdx u idx 0).val : Int) = (idx (ix2 (u 0) 0)).toInt ∧
      gather_S16384x256_S540672x1_S540672x256_1_0_n_n_0_1_1256.operandIdx u idx 1 = u 1) := by
  refine ⟨?_, ?_⟩
  · show (((gather_S16384x256_S540672x1_S540672x256_1_0_n_n_0_1_1256.start u idx 0 + gather_S16384x256_S540672x1_S540672x256_1_0_n_n_0_1_1256.batchCoord u 0 + gather_S16384x256_S540672x1_S540672x256_1_0_n_n_0_1_1256.offCoord u 0 : Nat)) : Int) = _
    rw [gStart0_256, gBatch_256, gOff0_256]
    omega
  · apply Fin.ext
    show gather_S16384x256_S540672x1_S540672x256_1_0_n_n_0_1_1256.start u idx 1 + gather_S16384x256_S540672x1_S540672x256_1_0_n_n_0_1_1256.batchCoord u 1 + gather_S16384x256_S540672x1_S540672x256_1_0_n_n_0_1_1256.offCoord u 1 = (u 1).val
    rw [gStart1_256, gBatch_256, gOff1_256]
    omega

/-! ## The scatter into the 16384 x 16 operand -/

/-- On the row axis the start is the word of row `u 0` of the index array, read signed. -/
theorem sStart0_16 (idx : IVec S540672x1 32) (u : S540672x16.Idx) :
    scatter_S16384x16_S540672x1_S540672x16_1_0_0_1.start u idx 0 = (idx (ix2 (u 0) 0)).toInt := by
  unfold ScatterDims.start
  rw [dif_pos (by decide)]
  congr 2
  funext b
  match b with
  | ⟨0, _⟩ => rfl
  | ⟨1, _⟩ => rfl

/-- The column axis is not named by the index map: its start is zero. -/
theorem sStart1_16 (idx : IVec S540672x1 32) (u : S540672x16.Idx) : scatter_S16384x16_S540672x1_S540672x16_1_0_0_1.start u idx 1 = 0 := by
  unfold ScatterDims.start
  rw [dif_neg (by decide)]

/-- The row axis is an inserted window axis: its window coordinate is zero. -/
theorem sWindow0_16 (u : S540672x16.Idx) : scatter_S16384x16_S540672x1_S540672x16_1_0_0_1.window u 0 = 0 := by
  unfold ScatterDims.window
  rw [dif_neg (by decide)]

/-- The column axis is the window axis: its window coordinate is the update's column. -/
theorem sWindow1_16 (u : S540672x16.Idx) : scatter_S16384x16_S540672x1_S540672x16_1_0_0_1.window u 1 = (u 1).val := by
  unfold ScatterDims.window
  rw [dif_pos (by decide)]
  rfl

/-- With the index word in `[0, 16384)` the update at `u` lands exactly at the operand index whose
    row is the word and whose column is `u`'s. -/
theorem resultIdx16 (idx : IVec S540672x1 32) (u : S540672x16.Idx)
    (h0 : 0 ≤ (idx (ix2 (u 0) 0)).toInt ∧ (idx (ix2 (u 0) 0)).toInt < 16384)
    (i : S16384x16.Idx) :
    scatter_S16384x16_S540672x1_S540672x16_1_0_0_1.resultIdx? u idx = some i ↔
      (((i 0).val : Int) = (idx (ix2 (u 0) 0)).toInt ∧ i 1 = u 1) := by
  have hs0 := sStart0_16 idx u
  have hs1 := sStart1_16 idx u
  have hw0 := sWindow0_16 u
  have hw1 := sWindow1_16 u
  have hu1 : (u 1).val < 16 := idx2_lt1 u
  have hall : ∀ a, 0 ≤ scatter_S16384x16_S540672x1_S540672x16_1_0_0_1.start u idx a + scatter_S16384x16_S540672x1_S540672x16_1_0_0_1.window u a ∧
      scatter_S16384x16_S540672x1_S540672x16_1_0_0_1.start u idx a + scatter_S16384x16_S540672x1_S540672x16_1_0_0_1.window u a < S16384x16.size a := by
    intro a
    match a with
    | ⟨0, _⟩ =>
      show 0 ≤ scatter_S16384x16_S540672x1_S540672x16_1_0_0_1.start u idx 0 + scatter_S16384x16_S540672x1_S540672x16_1_0_0_1.window u 0 ∧ scatter_S16384x16_S540672x1_S540672x16_1_0_0_1.start u idx 0 + scatter_S16384x16_S540672x1_S540672x16_1_0_0_1.window u 0 < (16384 : Nat)
      rw [hs0, hw0]; omega
    | ⟨1, _⟩ =>
      show 0 ≤ scatter_S16384x16_S540672x1_S540672x16_1_0_0_1.start u idx 1 + scatter_S16384x16_S540672x1_S540672x16_1_0_0_1.window u 1 ∧ scatter_S16384x16_S540672x1_S540672x16_1_0_0_1.start u idx 1 + scatter_S16384x16_S540672x1_S540672x16_1_0_0_1.window u 1 < (16 : Nat)
      rw [hs1, hw1]; omega
  unfold ScatterDims.resultIdx?
  rw [dif_pos hall]
  constructor
  · intro h
    have h' := Option.some.inj h
    subst h'
    refine ⟨?_, ?_⟩
    · show (((scatter_S16384x16_S540672x1_S540672x16_1_0_0_1.start u idx 0 + scatter_S16384x16_S540672x1_S540672x16_1_0_0_1.window u 0).toNat : Nat) : Int) = _
      rw [hs0, hw0]; omega
    · apply Fin.ext
      show (scatter_S16384x16_S540672x1_S540672x16_1_0_0_1.start u idx 1 + scatter_S16384x16_S540672x1_S540672x16_1_0_0_1.window u 1).toNat = (u 1).val
      rw [hs1, hw1]; omega
  · rintro ⟨hi0, hi1⟩
    congr 1
    funext a
    match a with
    | ⟨0, _⟩ =>
      apply Fin.ext
      show (scatter_S16384x16_S540672x1_S540672x16_1_0_0_1.start u idx 0 + scatter_S16384x16_S540672x1_S540672x16_1_0_0_1.window u 0).toNat = (i 0).val
      rw [hs0, hw0]; omega
    | ⟨1, _⟩ =>
      apply Fin.ext
      show (scatter_S16384x16_S540672x1_S540672x16_1_0_0_1.start u idx 1 + scatter_S16384x16_S540672x1_S540672x16_1_0_0_1.window u 1).toNat = (i 1).val
      rw [hs1, hw1, hi1]; omega

/-! ## The gather from the 16384 x 16 operand -/

/-- On the row axis the start is the word of row `u 0` of the index array, read signed and clamped
    to `[0, 16383]` (the operand's rows less the slice's one row). -/
theorem gStart0_16 (idx : IVec S540672x1 32) (u : S540672x16.Idx) :
    gather_S16384x16_S540672x1_S540672x16_1_0_n_n_0_1_116.start u idx 0 = min (idx (ix2 (u 0) 0)).toInt.toNat 16383 := by
  unfold GatherDims.start
  rw [dif_pos (by decide)]
  congr 1
  congr 3
  funext b
  match b with
  | ⟨0, _⟩ => rfl
  | ⟨1, _⟩ => rfl

/-- The column axis is not named by the start index map: its start is zero. -/
theorem gStart1_16 (idx : IVec S540672x1 32) (u : S540672x16.Idx) : gather_S16384x16_S540672x1_S540672x16_1_0_n_n_0_1_116.start u idx 1 = 0 := by
  unfold GatherDims.start
  rw [dif_neg (by decide)]

/-- There are no batching axes: the batching coordinate is zero on every axis. -/
theorem gBatch_16 (u : S540672x16.Idx) (a : Fin 2) : gather_S16384x16_S540672x1_S540672x16_1_0_n_n_0_1_116.batchCoord u a = 0 :=
  gather_S16384x16_S540672x1_S540672x16_1_0_n_n_0_1_116.batchCoord_eq_zero u a List.not_mem_nil

/-- The row axis is collapsed: its offset coordinate is zero. -/
theorem gOff0_16 (u : S540672x16.Idx) : gather_S16384x16_S540672x1_S540672x16_1_0_n_n_0_1_116.offCoord u 0 = 0 := by
  unfold GatherDims.offCoord
  rw [dif_neg (by decide)]

/-- The column axis is the offset axis: its offset coordinate is the result's column. -/
theorem gOff1_16 (u : S540672x16.Idx) : gather_S16384x16_S540672x1_S540672x16_1_0_n_n_0_1_116.offCoord u 1 = (u 1).val := by
  unfold GatherDims.offCoord
  rw [dif_pos (by decide)]
  rfl

/-- With the index word in `[0, 16384)` result position `u` reads the operand at the row the word
    names and at `u`'s column. -/
theorem operandIdx16 (idx : IVec S540672x1 32) (u : S540672x16.Idx)
    (h0 : 0 ≤ (idx (ix2 (u 0) 0)).toInt ∧ (idx (ix2 (u 0) 0)).toInt < 16384) :
    (((gather_S16384x16_S540672x1_S540672x16_1_0_n_n_0_1_116.operandIdx u idx 0).val : Int) = (idx (ix2 (u 0) 0)).toInt ∧
      gather_S16384x16_S540672x1_S540672x16_1_0_n_n_0_1_116.operandIdx u idx 1 = u 1) := by
  refine ⟨?_, ?_⟩
  · show (((gather_S16384x16_S540672x1_S540672x16_1_0_n_n_0_1_116.start u idx 0 + gather_S16384x16_S540672x1_S540672x16_1_0_n_n_0_1_116.batchCoord u 0 + gather_S16384x16_S540672x1_S540672x16_1_0_n_n_0_1_116.offCoord u 0 : Nat)) : Int) = _
    rw [gStart0_16, gBatch_16, gOff0_16]
    omega
  · apply Fin.ext
    show gather_S16384x16_S540672x1_S540672x16_1_0_n_n_0_1_116.start u idx 1 + gather_S16384x16_S540672x1_S540672x16_1_0_n_n_0_1_116.batchCoord u 1 + gather_S16384x16_S540672x1_S540672x16_1_0_n_n_0_1_116.offCoord u 1 = (u 1).val
    rw [gStart1_16, gBatch_16, gOff1_16]
    omega

end Cert.ReferenceIdeal.IndexFacts
-- ==== Proof.AggLaw.lean ====
/-
  The algebraic law that joins the two programs. A graph aggregation can be written densely,
  as the product of an adjacency matrix `A` with a feature matrix, where `A i j` is the sum of the
  weights of the edges from `j` to `i`; or sparsely, as the sum over the edges into `i` of the edge's
  weight times the source's features. When every weight and every feature is a real number the two
  agree: distribute the feature over the sum that defines `A i j`, and regroup the double sum over
  `j` and the edges `j → i` as one sum over the edges into `i` (each edge has exactly one source).
  On the extended reals distributivity needs the finiteness: the law is proved over the reals and the
  coercion is pushed through the finite sums term by term.
-/
import Mathlib.Data.EReal.Basic
import Mathlib.Algebra.BigOperators.Group.Finset.Basic
import Mathlib.Algebra.BigOperators.Ring.Finset
import Mathlib.Data.Fintype.BigOperators

namespace Cert.AggLaw

open Finset

/-- The coercion of the reals into the extended reals commutes with a finite sum. -/
theorem coe_sum {ι : Type*} (s : Finset ι) (f : ι → ℝ) :
    (((∑ i ∈ s, f i : ℝ)) : EReal) = ∑ i ∈ s, ((f i : ℝ) : EReal) := by
  classical
  induction s using Finset.induction_on with
  | empty => simp
  | insert a s ha ih => rw [Finset.sum_insert ha, Finset.sum_insert ha, EReal.coe_add, ih]

/-- A finite sum of extended reals each of which is a real is a real. -/
theorem exists_real_sum {ι : Type*} (s : Finset ι) (f : ι → EReal) (hf : ∀ i ∈ s, ∃ r : ℝ, f i = (r : EReal)) :
    ∃ r : ℝ, ∑ i ∈ s, f i = (r : EReal) := by
  classical
  choose! g hg using hf
  refine ⟨∑ i ∈ s, g i, ?_⟩
  rw [coe_sum]
  exact Finset.sum_congr rfl hg

/-- Dense against sparse aggregation, over the reals. -/
theorem dense_eq_sparse_real {E N : Type*} [Fintype E] [Fintype N] [DecidableEq N]
    (D S : E → N) (n : E → ℝ) (h : N → ℝ) (i : N) :
    ∑ j : N, (∑ e ∈ univ.filter (fun e => D e = i ∧ S e = j), n e) * h j
      = ∑ e ∈ univ.filter (fun e => D e = i), n e * h (S e) := by
  have step : ∀ j : N, (∑ e ∈ univ.filter (fun e => D e = i ∧ S e = j), n e) * h j
      = ∑ e ∈ (univ.filter (fun e => D e = i)).filter (fun e => S e = j), n e * h (S e) := by
    intro j
    rw [Finset.sum_mul, Finset.filter_filter]
    refine Finset.sum_congr rfl ?_
    intro e he
    rw [(Finset.mem_filter.mp he).2.2]
  rw [Finset.sum_congr rfl (fun j _ => step j)]
  exact Finset.sum_fiberwise (univ.filter (fun e => D e = i)) S (fun e => n e * h (S e))

/-- Dense against sparse aggregation on the extended reals, at real weights and real features: the
    dense side with each adjacency entry started from zero, the sparse side started from zero. -/
theorem dense_eq_sparse {E N : Type*} [Fintype E] [Fintype N] [DecidableEq N]
    (D S : E → N) (n : E → ℝ) (h : N → ℝ) (i : N) :
    ∑ j : N, ((0 : EReal) + ∑ e ∈ univ.filter (fun e => D e = i ∧ S e = j), ((n e : ℝ) : EReal)) * ((h j : ℝ) : EReal)
      = (0 : EReal) + ∑ e ∈ univ.filter (fun e => D e = i), ((n e : ℝ) : EReal) * ((h (S e) : ℝ) : EReal) := by
  have lhs : ∀ j : N, ((0 : EReal) + ∑ e ∈ univ.filter (fun e => D e = i ∧ S e = j), ((n e : ℝ) : EReal)) * ((h j : ℝ) : EReal)
      = (((∑ e ∈ univ.filter (fun e => D e = i ∧ S e = j), n e) * h j : ℝ) : EReal) := by
    intro j
    rw [zero_add, ← coe_sum, ← EReal.coe_mul]
  rw [Finset.sum_congr rfl (fun j _ => lhs j), ← coe_sum, dense_eq_sparse_real, zero_add, coe_sum]
  refine Finset.sum_congr rfl ?_
  intro e _
  rw [EReal.coe_mul]

end Cert.AggLaw
-- ==== Proof.RefLayer.lean ====
/-
  One aggregation layer of the reference, read as a dense product.  The reference computes, for
  every node i and column c,
      out[i, c] = 0 + (sum over the update positions (e, c') that land on (i, c)) of
                        norm[e] * H[src(e), c'],
  where an update position (e, c') lands on (dst(e), c').  Regrouping the update positions as
  pairs (edge, column) and collapsing the column (only c' = c lands on column c) leaves the sum
  over the edges into i of norm[e] * H[src(e), c]; the dense-against-sparse law then writes it
  as the sum over the nodes k of A[i, k] * H[k, c], where A[i, k] = 0 + the sum of the norms of
  the edges from k to i.  The law needs every norm and every feature to be a real number.
-/
import proofs.«105110_j2327872274874_1_alg».proof.Proof.Gen.ReferenceIdeal.Read
import proofs.«105110_j2327872274874_1_alg».proof.Proof.IndexR
import proofs.«105110_j2327872274874_1_alg».proof.Proof.AggLaw
import Idealize.ShloMosaic.Lib.Pipeline.Value
import Idealize.ShloMosaic.Lib.ValueIdx
import Idealize.ShloMosaic.Lib.IdealHost
import Idealize.ShloMosaic.PureOps.Ideal

noncomputable section

namespace Cert.ReferenceIdeal.RefLayer

open Idealize.ShloMosaic Idealize.ShloMosaic.ValueIdx
open Cert.ReferenceIdeal Cert.ReferenceIdeal.Gen Cert.ReferenceIdeal.Read
open Finset

/-! ## The law over abstract finite types -/

/-- A sum over the pairs `(e, c)` kept when `P e` holds and `c` is `c0` is the sum over the kept
    `e` of the term at column `c0`. -/
theorem sum_pair_collapse {E Cc M : Type*} [Fintype E] [Fintype Cc] [DecidableEq Cc] [AddCommMonoid M]
    (P : E → Prop) [DecidablePred P] (c0 : Cc) (f : E → Cc → M) :
    ∑ p ∈ (univ : Finset (E × Cc)).filter (fun p => P p.1 ∧ c0 = p.2), f p.1 p.2
      = ∑ e ∈ univ.filter P, f e c0 := by
  rw [Finset.sum_filter, Fintype.sum_prod_type, Finset.sum_filter]
  refine Finset.sum_congr rfl ?_
  intro e _
  by_cases hP : P e
  · simp only [hP, true_and, if_true]
    rw [Finset.sum_ite_eq]
    simp
  · simp [hP]

/-- The layer over abstract finite types: update positions `U` are pairs of an edge and a column;
    an update lands on `(D e, c)` and carries `w e * Hm (S e) c`.  With real weights and features the
    sparse sum into `(i0, c0)` is the dense product of the adjacency row `i0` with column `c0`. -/
theorem layer_core {U E Cc N : Type*} [Fintype U] [Fintype E] [Fintype Cc] [Fintype N]
    [DecidableEq Cc] [DecidableEq N]
    (eqv : U ≃ E × Cc) (D S : E → N) (w : E → EReal) (hw : ∀ e, ∃ r : ℝ, w e = (r : EReal))
    (Hm : N → Cc → EReal) (hH : ∀ j c, ∃ r : ℝ, Hm j c = (r : EReal)) (i0 : N) (c0 : Cc) :
    (0 : EReal) + ∑ u ∈ univ.filter (fun u => D (eqv u).1 = i0 ∧ c0 = (eqv u).2),
        w (eqv u).1 * Hm (S (eqv u).1) (eqv u).2
      = ∑ k : N, ((0 : EReal) + ∑ e ∈ univ.filter (fun e => D e = i0 ∧ S e = k), w e) * Hm k c0 := by
  choose n hn using hw
  choose h hh using hH
  have hL : ∑ u ∈ univ.filter (fun u => D (eqv u).1 = i0 ∧ c0 = (eqv u).2),
        w (eqv u).1 * Hm (S (eqv u).1) (eqv u).2
      = ∑ e ∈ univ.filter (fun e => D e = i0), w e * Hm (S e) c0 := by
    rw [← sum_pair_collapse (fun e => D e = i0) c0 (fun e c => w e * Hm (S e) c)]
    exact Finset.sum_equiv eqv (by intro u; simp) (by intro u _; rfl)
  rw [hL]
  obtain rfl : w = fun e => ((n e : ℝ) : EReal) := funext hn
  obtain rfl : Hm = fun j c => ((h j c : ℝ) : EReal) := funext fun j => funext fun c => hh j c
  exact (Cert.AggLaw.dense_eq_sparse D S n (fun j => h j c0) i0).symm

/-! ## Update positions as pairs, and the adjacency -/

/-- An update position of the `540672 x C` updates is an edge and a column. -/
def pairEquiv (C : Nat) : (⟨2, ![540672, C]⟩ : Shape).Idx ≃ (⟨1, ![540672]⟩ : Shape).Idx × Fin C where
  toFun u := (ix1 (u 0), u 1)
  invFun p := ix2 (p.1 0) p.2
  left_inv u := (eq_ix2 u).symm
  right_inv p := Prod.ext (eq_ix1 p.1).symm rfl

/-- A word in `[0, 16384)` as a node. -/
def node (z : Int) (hz : 0 ≤ z ∧ z < 16384) : Fin 16384 := ⟨z.toNat, by omega⟩

theorem node_eq_iff (z : Int) (hz : 0 ≤ z ∧ z < 16384) (k : Fin 16384) :
    node z hz = k ↔ ((k.val : Nat) : Int) = z := by
  unfold node
  rw [Fin.ext_iff]
  show z.toNat = k.val ↔ _
  omega

/-- The adjacency the edge data spell: entry `(i, k)` is zero plus the sum of the weights of the
    edges whose destination word is `i` and whose source word is `k`. -/
def adj (dstW srcW : IVec (⟨1, ![540672]⟩ : Shape) 32) (nrm : (⟨1, ![540672]⟩ : Shape).Idx → EReal) :
    (⟨2, ![16384, 16384]⟩ : Shape).Idx → EReal := fun p =>
  (0 : EReal) + ∑ e ∈ Finset.univ.filter (fun e : (⟨1, ![540672]⟩ : Shape).Idx =>
      ((p 0).val : Int) = (dstW e).toInt ∧ ((p 1).val : Int) = (srcW e).toInt), nrm e

/-- With real weights every adjacency entry is a real number. -/
theorem adj_real (dstW srcW : IVec (⟨1, ![540672]⟩ : Shape) 32) (nrm : (⟨1, ![540672]⟩ : Shape).Idx → EReal)
    (hn : ∀ e, ∃ r : ℝ, nrm e = (r : EReal)) (p : (⟨2, ![16384, 16384]⟩ : Shape).Idx) :
    ∃ r : ℝ, adj dstW srcW nrm p = (r : EReal) := by
  obtain ⟨r, hr⟩ := Cert.AggLaw.exists_real_sum
    (Finset.univ.filter (fun e : (⟨1, ![540672]⟩ : Shape).Idx =>
      ((p 0).val : Int) = (dstW e).toInt ∧ ((p 1).val : Int) = (srcW e).toInt)) nrm (fun e _ => hn e)
  refine ⟨r, ?_⟩
  unfold adj
  rw [hr, zero_add]

/-- In range, an adjacency entry is the abstract law's: the edges with destination node `i0` and
    source node `k`. -/
theorem adj_eq (dstW srcW : IVec (⟨1, ![540672]⟩ : Shape) 32) (nrm : (⟨1, ![540672]⟩ : Shape).Idx → EReal)
    (hs : ∀ e, 0 ≤ (srcW e).toInt ∧ (srcW e).toInt < 16384)
    (hd : ∀ e, 0 ≤ (dstW e).toInt ∧ (dstW e).toInt < 16384) (i0 k : Fin 16384) :
    adj dstW srcW nrm (ix2 i0 k)
      = (0 : EReal) + ∑ e ∈ Finset.univ.filter (fun e : (⟨1, ![540672]⟩ : Shape).Idx =>
          node (dstW e).toInt (hd e) = i0 ∧ node (srcW e).toInt (hs e) = k), nrm e := by
  show (0 : EReal) + ∑ e ∈ Finset.univ.filter (fun e : (⟨1, ![540672]⟩ : Shape).Idx =>
      ((i0.val : Nat) : Int) = (dstW e).toInt ∧ ((k.val : Nat) : Int) = (srcW e).toInt), nrm e = _
  refine congrArg (fun z => (0 : EReal) + z) (Finset.sum_congr (Finset.filter_congr ?_) (fun _ _ => rfl))
  intro e _
  rw [node_eq_iff, node_eq_iff]

/-! ## The layer, for any number of columns -/

/-- One aggregation layer over `C` columns.  `hres` and `hop` say where the scatter and the gather
    land when the index word is in range; `dstCol`, `srcCol` are the destination and source words
    as `540672 x 1` columns, `normB` the weights repeated along the columns, `zeros` the zero
    operand.  With the words in `[0, 16384)` and real weights and features, element `i` of the
    scatter is row `i 0` of the adjacency times column `i 1` of the features. -/
theorem layer_generic {C : Nat}
    (d : ScatterDims (⟨2, ![16384, C]⟩ : Shape) (⟨2, ![540672, 1]⟩ : Shape) (⟨2, ![540672, C]⟩ : Shape))
    (g : GatherDims (⟨2, ![16384, C]⟩ : Shape) (⟨2, ![540672, 1]⟩ : Shape) (⟨2, ![540672, C]⟩ : Shape))
    (hres : ∀ (idx : IVec (⟨2, ![540672, 1]⟩ : Shape) 32) (u : (⟨2, ![540672, C]⟩ : Shape).Idx),
      (0 ≤ (idx (ix2 (u 0) 0)).toInt ∧ (idx (ix2 (u 0) 0)).toInt < 16384) →
      ∀ i : (⟨2, ![16384, C]⟩ : Shape).Idx,
        (d.resultIdx? u idx = some i ↔ (((i 0).val : Int) = (idx (ix2 (u 0) 0)).toInt ∧ i 1 = u 1)))
    (hop : ∀ (idx : IVec (⟨2, ![540672, 1]⟩ : Shape) 32) (u : (⟨2, ![540672, C]⟩ : Shape).Idx),
      (0 ≤ (idx (ix2 (u 0) 0)).toInt ∧ (idx (ix2 (u 0) 0)).toInt < 16384) →
      (((g.operandIdx u idx 0).val : Int) = (idx (ix2 (u 0) 0)).toInt ∧ g.operandIdx u idx 1 = u 1))
    (dstW srcW : IVec (⟨1, ![540672]⟩ : Shape) 32) (nrm : FVec Ideal (⟨1, ![540672]⟩ : Shape) .f32)
    (hs : ∀ e, 0 ≤ (srcW e).toInt ∧ (srcW e).toInt < 16384)
    (hd : ∀ e, 0 ≤ (dstW e).toInt ∧ (dstW e).toInt < 16384)
    (hn : ∀ e, ∃ r : ℝ, nrm e = (r : EReal))
    (zeros : FVec Ideal (⟨2, ![16384, C]⟩ : Shape) .f32) (hz : ∀ i, zeros i = (0 : EReal))
    (dstCol srcCol : IVec (⟨2, ![540672, 1]⟩ : Shape) 32)
    (hdst : ∀ a : Fin 540672, dstCol (ix2 a 0) = dstW (ix1 a))
    (hsrc : ∀ a : Fin 540672, srcCol (ix2 a 0) = srcW (ix1 a))
    (normB : FVec Ideal (⟨2, ![540672, C]⟩ : Shape) .f32) (hnb : ∀ u, normB u = nrm (ix1 (u 0)))
    (H : FVec Ideal (⟨2, ![16384, C]⟩ : Shape) .f32) (hH : ∀ j, ∃ r : ℝ, H j = (r : EReal))
    (i : (⟨2, ![16384, C]⟩ : Shape).Idx) :
    Host.scatterAdd d zeros dstCol (mulf normB (Host.gather g H srcCol)) i
      = ∑ k : Fin 16384, adj dstW srcW nrm (ix2 (i 0) k) * H (ix2 k (i 1)) := by
  -- the scatter at `i`: the operand there plus the sum of the updates that land there
  have hunf : Host.scatterAdd d zeros dstCol (mulf normB (Host.gather g H srcCol)) i
      = zeros i + ∑ u ∈ Finset.univ.filter (fun u => d.resultIdx? u dstCol = some i),
          normB u * H (g.operandIdx u srcCol) := rfl
  rw [hunf, hz]
  -- the destination and source nodes of an edge
  let D : (⟨1, ![540672]⟩ : Shape).Idx → Fin 16384 := fun e => node (dstW e).toInt (hd e)
  let S : (⟨1, ![540672]⟩ : Shape).Idx → Fin 16384 := fun e => node (srcW e).toInt (hs e)
  let i0 : Fin 16384 := i 0
  let c0 : Fin C := i 1
  -- which updates land on `i`
  have hfilt : Finset.univ.filter (fun u => d.resultIdx? u dstCol = some i)
      = Finset.univ.filter (fun u => D (pairEquiv C u).1 = i0 ∧ c0 = (pairEquiv C u).2) := by
    refine Finset.filter_congr ?_
    intro u _
    have hr : 0 ≤ (dstCol (ix2 (u 0) 0)).toInt ∧ (dstCol (ix2 (u 0) 0)).toInt < 16384 := by
      rw [hdst (u 0)]; exact hd _
    rw [hres dstCol u hr i, hdst (u 0)]
    show _ ↔ node (dstW (ix1 (u 0))).toInt (hd _) = i0 ∧ c0 = u 1
    rw [node_eq_iff]
    exact Iff.rfl
  -- what an update carries
  have hterm : ∀ u : (⟨2, ![540672, C]⟩ : Shape).Idx,
      normB u * H (g.operandIdx u srcCol)
        = nrm (pairEquiv C u).1 * H (ix2 (S (pairEquiv C u).1) (pairEquiv C u).2) := by
    intro u
    have hr : 0 ≤ (srcCol (ix2 (u 0) 0)).toInt ∧ (srcCol (ix2 (u 0) 0)).toInt < 16384 := by
      rw [hsrc (u 0)]; exact hs _
    obtain ⟨h0, h1⟩ := hop srcCol u hr
    rw [hsrc (u 0)] at h0
    have hidx : g.operandIdx u srcCol = ix2 (S (ix1 (u 0))) (u 1) := by
      funext a
      match a with
      | ⟨0, _⟩ =>
        apply Fin.ext
        show (g.operandIdx u srcCol 0).val = (srcW (ix1 (u 0))).toInt.toNat
        omega
      | ⟨1, _⟩ => exact h1
    rw [hnb u, hidx]
    rfl
  rw [hfilt, Finset.sum_congr rfl (fun u _ => hterm u)]
  rw [layer_core (pairEquiv C) D S nrm hn (fun j c => H (ix2 j c)) (fun j c => hH _) i0 c0]
  refine Finset.sum_congr rfl ?_
  intro k _
  rw [adj_eq dstW srcW nrm hs hd i0 k]

/-! ## The reference's two layers -/

/-- The adjacency the reference's edge data spell: destination words, source words, edge norms. -/
def specAdj (x1 : IVec S2x524288 32) (x2 : FVec Ideal S524288 .f32) :
    (⟨2, ![16384, 16384]⟩ : Shape).Idx → EReal := fun p =>
  (0 : EReal) + ∑ e ∈ Finset.univ.filter (fun e : S540672.Idx =>
      ((p 0).val : Int) = (val_main_v7 (F := Ideal) x1 e).toInt ∧
      ((p 1).val : Int) = (val_main_v6 (F := Ideal) x1 e).toInt), val_main_v34 (F := Ideal) x1 x2 e

theorem specAdj_eq (x1 : IVec S2x524288 32) (x2 : FVec Ideal S524288 .f32) :
    specAdj x1 x2 = adj (val_main_v7 (F := Ideal) x1) (val_main_v6 (F := Ideal) x1)
      (val_main_v34 (F := Ideal) x1 x2) := rfl

/-- With real norms every entry of the adjacency is a real number. -/
theorem specAdj_real (x1 : IVec S2x524288 32) (x2 : FVec Ideal S524288 .f32)
    (hn : ∀ e, ∃ r : ℝ, val_main_v34 (F := Ideal) x1 x2 e = (r : EReal)) :
    ∀ p, ∃ r : ℝ, specAdj x1 x2 p = (r : EReal) := by
  intro p
  rw [specAdj_eq]
  exact adj_real _ _ _ hn p

/-- The zero operand of the first layer. -/
theorem v45_zero (i : S16384x256.Idx) : val_main_v45 (F := Ideal) i = (0 : EReal) := by
  rw [val_main_v45_apply, val_main_cst_9_apply]
  show Ideal.ofBits .f32 0x00000000#32 = (0 : EReal)
  simp [Ideal.ofBits, Ideal.ieee]

/-- The destination column of the first layer reads the destination words. -/
theorem v46_col (x1 : IVec S2x524288 32) (a : Fin 540672) :
    val_main_v46 (F := Ideal) x1 (ix2 a 0) = val_main_v7 (F := Ideal) x1 (ix1 a) := by
  rw [val_main_v46_apply]
  exact congrArg (val_main_v7 (F := Ideal) x1) (funext fun b => match b with | ⟨0, _⟩ => rfl)

/-- The source column of the first layer reads the wrapped source words. -/
theorem v41_col (x1 : IVec S2x524288 32) (a : Fin 540672) :
    val_main_v41 (F := Ideal) x1 (ix2 a 0) = val_main_v40 (F := Ideal) x1 (ix1 a) := by
  rw [val_main_v41_apply]
  exact congrArg (val_main_v40 (F := Ideal) x1) (funext fun b => match b with | ⟨0, _⟩ => rfl)

/-- The norm of the first layer, repeated along the 256 columns, reads the edge's norm. -/
theorem v43_at (x1 : IVec S2x524288 32) (x2 : FVec Ideal S524288 .f32) (u : S540672x256.Idx) :
    val_main_v43 (F := Ideal) x1 x2 u = val_main_v34 (F := Ideal) x1 x2 (ix1 (u 0)) := by
  rw [val_main_v43_apply, val_main_v35_apply]
  exact congrArg (val_main_v34 (F := Ideal) x1 x2) (funext fun b => match b with | ⟨0, _⟩ => rfl)

/-- The first layer (256 columns): the reference's scatter of the gathered, norm-weighted rows of a
    real matrix `H` is the adjacency times `H`. -/
theorem layer256 (x1 : IVec S2x524288 32) (x2 : FVec Ideal S524288 .f32)
    (hs : ∀ e, 0 ≤ (val_main_v6 (F := Ideal) x1 e).toInt ∧ (val_main_v6 (F := Ideal) x1 e).toInt < 16384)
    (hd : ∀ e, 0 ≤ (val_main_v7 (F := Ideal) x1 e).toInt ∧ (val_main_v7 (F := Ideal) x1 e).toInt < 16384)
    (hwrap : val_main_v40 (F := Ideal) x1 = val_main_v6 (F := Ideal) x1)
    (hn : ∀ e, ∃ r : ℝ, val_main_v34 (F := Ideal) x1 x2 e = (r : EReal))
    (H : FVec Ideal S16384x256 .f32) (hH : ∀ j, ∃ r : ℝ, H j = (r : EReal)) (i : S16384x256.Idx) :
    Host.scatterAdd scatter_S16384x256_S540672x1_S540672x256_1_0_0_1 (val_main_v45 (F := Ideal))
        (val_main_v46 (F := Ideal) x1)
        (mulf (val_main_v43 (F := Ideal) x1 x2)
          (Host.gather gather_S16384x256_S540672x1_S540672x256_1_0_n_n_0_1_1256 H (val_main_v41 (F := Ideal) x1))) i
      = ∑ k : Fin 16384, specAdj x1 x2 (ix2 (i 0) k) * H (ix2 k (i 1)) := by
  rw [specAdj_eq]
  exact layer_generic (C := 256)
    scatter_S16384x256_S540672x1_S540672x256_1_0_0_1
    gather_S16384x256_S540672x1_S540672x256_1_0_n_n_0_1_1256
    (fun idx u h i => IndexFacts.resultIdx256 idx u h i)
    (fun idx u h => IndexFacts.operandIdx256 idx u h)
    (val_main_v7 (F := Ideal) x1) (val_main_v6 (F := Ideal) x1) (val_main_v34 (F := Ideal) x1 x2)
    hs hd hn (val_main_v45 (F := Ideal)) v45_zero
    (val_main_v46 (F := Ideal) x1) (val_main_v41 (F := Ideal) x1)
    (v46_col x1) (fun a => by rw [v41_col, hwrap])
    (val_main_v43 (F := Ideal) x1 x2) (v43_at x1 x2) H hH i

/-! ## The second layer recomputes the same edge data -/

/-- The second layer's source words are the first layer's. -/
theorem copy_src (x1 : IVec S2x524288 32) : val_main_v54 (F := Ideal) x1 = val_main_v6 (F := Ideal) x1 := rfl

/-- The second layer's destination words are the first layer's. -/
theorem copy_dst (x1 : IVec S2x524288 32) : val_main_v55 (F := Ideal) x1 = val_main_v7 (F := Ideal) x1 := rfl

/-- The second layer's edge norms are the first layer's. -/
theorem copy_norm (x1 : IVec S2x524288 32) (x2 : FVec Ideal S524288 .f32) :
    val_main_v82 (F := Ideal) x1 x2 = val_main_v34 (F := Ideal) x1 x2 := rfl

/-- The second layer's wrapped source words are the first layer's. -/
theorem copy_wrap (x1 : IVec S2x524288 32) : val_main_v88 (F := Ideal) x1 = val_main_v40 (F := Ideal) x1 := rfl

/-- The zero operand of the second layer. -/
theorem v93_zero (i : S16384x16.Idx) : val_main_v93 (F := Ideal) i = (0 : EReal) := by
  rw [val_main_v93_apply, val_main_cst_21_apply]
  show Ideal.ofBits .f32 0x00000000#32 = (0 : EReal)
  simp [Ideal.ofBits, Ideal.ieee]

/-- The destination column of the second layer reads the destination words. -/
theorem v94_col (x1 : IVec S2x524288 32) (a : Fin 540672) :
    val_main_v94 (F := Ideal) x1 (ix2 a 0) = val_main_v7 (F := Ideal) x1 (ix1 a) := by
  rw [val_main_v94_apply, copy_dst]
  exact congrArg (val_main_v7 (F := Ideal) x1) (funext fun b => match b with | ⟨0, _⟩ => rfl)

/-- The source column of the second layer reads the wrapped source words. -/
theorem v89_col (x1 : IVec S2x524288 32) (a : Fin 540672) :
    val_main_v89 (F := Ideal) x1 (ix2 a 0) = val_main_v40 (F := Ideal) x1 (ix1 a) := by
  rw [val_main_v89_apply, copy_wrap]
  exact congrArg (val_main_v40 (F := Ideal) x1) (funext fun b => match b with | ⟨0, _⟩ => rfl)

/-- The norm of the second layer, repeated along the 16 columns, reads the edge's norm. -/
theorem v91_at (x1 : IVec S2x524288 32) (x2 : FVec Ideal S524288 .f32) (u : S540672x16.Idx) :
    val_main_v91 (F := Ideal) x1 x2 u = val_main_v34 (F := Ideal) x1 x2 (ix1 (u 0)) := by
  rw [val_main_v91_apply, val_main_v83_apply, copy_norm]
  exact congrArg (val_main_v34 (F := Ideal) x1 x2) (funext fun b => match b with | ⟨0, _⟩ => rfl)

/-- The second layer (16 columns): the same adjacency times a real matrix `H`. -/
theorem layer16 (x1 : IVec S2x524288 32) (x2 : FVec Ideal S524288 .f32)
    (hs : ∀ e, 0 ≤ (val_main_v6 (F := Ideal) x1 e).toInt ∧ (val_main_v6 (F := Ideal) x1 e).toInt < 16384)
    (hd : ∀ e, 0 ≤ (val_main_v7 (F := Ideal) x1 e).toInt ∧ (val_main_v7 (F := Ideal) x1 e).toInt < 16384)
    (hwrap : val_main_v40 (F := Ideal) x1 = val_main_v6 (F := Ideal) x1)
    (hn : ∀ e, ∃ r : ℝ, val_main_v34 (F := Ideal) x1 x2 e = (r : EReal))
    (H : FVec Ideal S16384x16 .f32) (hH : ∀ j, ∃ r : ℝ, H j = (r : EReal)) (i : S16384x16.Idx) :
    Host.scatterAdd scatter_S16384x16_S540672x1_S540672x16_1_0_0_1 (val_main_v93 (F := Ideal))
        (val_main_v94 (F := Ideal) x1)
        (mulf (val_main_v91 (F := Ideal) x1 x2)
          (Host.gather gather_S16384x16_S540672x1_S540672x16_1_0_n_n_0_1_116 H (val_main_v89 (F := Ideal) x1))) i
      = ∑ k : Fin 16384, specAdj x1 x2 (ix2 (i 0) k) * H (ix2 k (i 1)) := by
  rw [specAdj_eq]
  exact layer_generic (C := 16)
    scatter_S16384x16_S540672x1_S540672x16_1_0_0_1
    gather_S16384x16_S540672x1_S540672x16_1_0_n_n_0_1_116
    (fun idx u h i => IndexFacts.resultIdx16 idx u h i)
    (fun idx u h => IndexFacts.operandIdx16 idx u h)
    (val_main_v7 (F := Ideal) x1) (val_main_v6 (F := Ideal) x1) (val_main_v34 (F := Ideal) x1 x2)
    hs hd hn (val_main_v93 (F := Ideal)) v93_zero
    (val_main_v94 (F := Ideal) x1) (val_main_v89 (F := Ideal) x1)
    (v94_col x1) (fun a => by rw [v89_col, hwrap])
    (val_main_v91 (F := Ideal) x1 x2) (v91_at x1 x2) H hH i

end Cert.ReferenceIdeal.RefLayer
-- ==== Proof.RefFacts.lean ====
/-
  Facts about the reference computation's intermediate arrays, over the extended reals.
  The reference builds, from an edge list (rows of source and destination node numbers) and edge
  weights, the edge list extended by one self-loop per node (weight 1), the weighted in-degree
  deg of every node, its inverse square root dinv = 1/√max(deg, ε) where deg > 0 and 0 elsewhere,
  and the edge normalisation dinv[src] · w · dinv[dst].
  Shown here: the three float constants denote the reals they spell (ε > 0, 1, 0); the inverse
  square root of anything ≥ a positive real is a real (it is 0 at +∞); hence dinv is real at every
  node with no hypothesis, the extended weights are real when the weights are, and so is the edge
  normalisation (a product of reals). When every node number of the edge list lies in [0, 16384),
  so does every node number of the extended list (a self-loop's number is its position), and the
  wrap-around of negative numbers (w < 0 ? w + 16384 : w) changes nothing.
-/
import proofs.«105110_j2327872274874_1_alg».proof.Proof.Gen.ReferenceIdeal.Read
import Idealize.ShloMosaic.Lib.Pipeline.Value
import Idealize.ShloMosaic.Lib.ValueIdx
import Idealize.ShloMosaic.Lib.IdealHost
import Idealize.ShloMosaic.PureOps.Ideal

noncomputable section

namespace Cert.ReferenceIdeal.RefFacts

open Cert.ReferenceIdeal Cert.ReferenceIdeal.Read Idealize.ShloMosaic

/-! ## The constants -/

/-- The pattern of +0.0 denotes the real 0. -/
theorem zero_real : Ideal.ofBits .f32 0x00000000#32 = ((0 : ℝ) : EReal) := by
  simp [Ideal.ofBits, Ideal.ieee]

/-- The pattern 0x3F800000 (exponent field 127, fraction 0) denotes the real 1. -/
theorem one_real : Ideal.ofBits .f32 0x3F800000#32 = ((1 : ℝ) : EReal) := by
  simp [Ideal.ofBits, Ideal.ieee, -EReal.coe_mul]; norm_num

/-- The pattern 0x2B8CBCCC (exponent field 87, fraction 834764: the normal number
    (2^23 + 834764) · 2^(87 - 127 - 23), about 1e-12) denotes a positive real. -/
theorem eps_pos : ∃ r : ℝ, 0 < r ∧ Ideal.ofBits .f32 0x2B8CBCCC#32 = (r : EReal) := by
  refine ⟨9223372 * (2 : ℝ) ^ (-63 : ℤ), by positivity, ?_⟩
  simp [Ideal.ofBits, Ideal.ieee, -EReal.coe_mul]

/-! ## The inverse square root -/

/-- The inverse square root of an extended real that is at least a positive real is a real:
    0 at +∞, 1/√s at a real s > 0. -/
theorem rsqrt_real (y : EReal) (r : ℝ) (hr : 0 < r) (h : (r : EReal) ≤ y) : ∃ q : ℝ, Ideal.rsqrt y = (q : EReal) := by
  induction y using EReal.rec with
  | bot => exact absurd h (by simp)
  | top => exact ⟨0, by simp⟩
  | coe s =>
    have hs : 0 < s := lt_of_lt_of_le hr (EReal.coe_le_coe_iff.1 h)
    refine ⟨(Real.sqrt s)⁻¹, ?_⟩
    rw [Ideal.rsqrt_coe, if_neg (not_lt.2 hs.le), if_neg hs.ne']

/-- dinv is real at every node: where deg > 0 it is the inverse square root of max(deg, ε) ≥ ε > 0,
    elsewhere it is the constant 0. -/
theorem dinv_real (x1 : IVec S2x524288 32) (x2 : FVec Ideal S524288 .f32) :
    ∀ i, ∃ q : ℝ, val_main_v18 (F := Ideal) x1 x2 i = (q : EReal) := by
  intro i
  rw [val_main_v18_apply]
  unfold Scalar.select
  split_ifs with hc
  · rw [val_main_v17_apply, val_main_v16_apply, val_main_v15_apply, val_main_cst_2_apply]
    obtain ⟨e, he, hee⟩ := eps_pos
    simp only [Ideal.hostUnary_rsqrt_def, Ideal.maximumf_def, Ideal.ofBits_def]
    exact rsqrt_real _ e he (hee ▸ le_max_right _ _)
  · rw [val_main_call0_v1_apply, val_main_call0_v0_apply, val_main_cst_3_apply]
    exact ⟨0, zero_real⟩

/-! ## A two-piece concatenation along the one axis, read piecewise -/

/-- Every entry of the concatenation of a 524288-array and a 16384-array has a property both
    pieces' entries have: an entry below position 524288 is the first piece's, the others the second's. -/
theorem concat_cases {α : Type} (P : α → Prop) (x₁ : S524288.Idx → α) (x₂ : S16384.Idx → α)
    (h : Shape.Concatenates [S524288, S16384] S540672 0)
    (h₁ : ∀ i, P (x₁ i)) (h₂ : ∀ i, P (x₂ i)) (e : S540672.Idx) :
    P (concatenate S540672 0 [⟨S524288, x₁⟩, ⟨S16384, x₂⟩] h e) := by
  have he : (e 0).val < 540672 := (e 0).isLt
  by_cases hlt : (e 0).val < 524288
  · rw [concatenate_pair_apply_left 0 x₁ x₂ h e rfl (ValueIdx.ix1 ⟨(e 0).val, hlt⟩)
      (fun b => match b with | ⟨0, _⟩ => rfl)]
    exact h₁ _
  · rw [concatenate_pair_apply_right 0 x₁ x₂ h e rfl rfl (ValueIdx.ix1 ⟨(e 0).val - 524288, by omega⟩)
      (fun b hb => absurd (Subsingleton.elim _ _) hb)
      (by show (e 0).val - 524288 + 524288 = (e 0).val; omega)]
    exact h₂ _

/-- The extended weights (the weights, then a 1 per node) are real when the weights are. -/
theorem wgt_real (x2 : FVec Ideal S524288 .f32) (h2 : ∀ i, ∃ r : ℝ, x2 i = (r : EReal)) :
    ∀ e, ∃ r : ℝ, val_main_v9 (F := Ideal) x2 e = (r : EReal) := by
  intro e
  unfold val_main_v9
  refine concat_cases (fun v : EReal => ∃ r : ℝ, v = (r : EReal)) _ _ _ h2 (fun i => ?_) e
  rw [val_main_v8_apply, val_main_cst_apply]
  exact ⟨1, one_real⟩

/-- A gather from an all-real array is all-real, whatever the start indices: each result entry is
    some entry of the operand. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

/-- The edge normalisation dinv[src] · w · dinv[dst] is real when the weights are: dinv is real at
    every node (whichever node a gather reads), and a product of reals is a real. -/
theorem norm_real (x1 : IVec S2x524288 32) (x2 : FVec Ideal S524288 .f32) (h2 : ∀ i, ∃ r : ℝ, x2 i = (r : EReal)) :
    ∀ e, ∃ r : ℝ, val_main_v34 (F := Ideal) x1 x2 e = (r : EReal) := by
  intro e
  rw [val_main_v34_apply, val_main_v26_apply]
  obtain ⟨a, ha⟩ : ∃ a : ℝ, val_main_v25 (F := Ideal) x1 x2 e = (a : EReal) := by
    unfold val_main_v25; exact gather_real _ _ _ (dinv_real x1 x2) e
  obtain ⟨b, hb⟩ : ∃ b : ℝ, val_main_v33 (F := Ideal) x1 x2 e = (b : EReal) := by
    unfold val_main_v33; exact gather_real _ _ _ (dinv_real x1 x2) e
  obtain ⟨w, hw⟩ := wgt_real x2 h2 e
  rw [ha, hb, hw]
  exact ⟨a * w * b, by simp only [Ideal.mulf_def, EReal.coe_mul]⟩

/-! ## Node numbers in range -/

/-- A position below 16384, written as a 32-bit word and read signed, is itself. -/
theorem toInt_ofNat_lt (n : Nat) (hn : n < 16384) : (BitVec.ofNat 32 n).toInt = (n : Int) := by
  rw [BitVec.toInt_eq_toNat_cond, BitVec.toNat_ofNat]
  have h : n % 2 ^ 32 = n := Nat.mod_eq_of_lt (by omega)
  rw [h, if_pos (by omega)]

/-- A self-loop's node number (its position among the 16384 nodes) lies in [0, 16384). -/
theorem iota_range (i : S16384.Idx) :
    0 ≤ (val_main_v5 (F := Ideal) i).toInt ∧ (val_main_v5 (F := Ideal) i).toInt < 16384 := by
  have hi : (i 0).val < 16384 := (i 0).isLt
  rw [val_main_v5_apply, toInt_ofNat_lt _ hi]
  exact ⟨by omega, by omega⟩

/-- The extended source numbers lie in [0, 16384) when the edge list's numbers do. -/
theorem src_range (x1 : IVec S2x524288 32) (h1 : ∀ i, 0 ≤ (x1 i).toInt ∧ (x1 i).toInt < 16384) :
    ∀ e, 0 ≤ (val_main_v6 (F := Ideal) x1 e).toInt ∧ (val_main_v6 (F := Ideal) x1 e).toInt < 16384 := by
  intro e
  unfold val_main_v6
  refine concat_cases (fun w : BitVec 32 => 0 ≤ w.toInt ∧ w.toInt < 16384) _ _ _ (fun i => ?_) iota_range e
  rw [val_main_v1_apply, val_main_v0_apply]
  exact h1 _

/-- The extended destination numbers lie in [0, 16384) when the edge list's numbers do. -/
theorem dst_range (x1 : IVec S2x524288 32) (h1 : ∀ i, 0 ≤ (x1 i).toInt ∧ (x1 i).toInt < 16384) :
    ∀ e, 0 ≤ (val_main_v7 (F := Ideal) x1 e).toInt ∧ (val_main_v7 (F := Ideal) x1 e).toInt < 16384 := by
  intro e
  unfold val_main_v7
  refine concat_cases (fun w : BitVec 32 => 0 ≤ w.toInt ∧ w.toInt < 16384) _ _ _ (fun i => ?_) iota_range e
  rw [val_main_v3_apply, val_main_v2_apply]
  exact h1 _

/-! ## The wrap-around of negative numbers is the identity in range -/

/-- A select on "w < 0" (signed) at a word w that is nonnegative read signed takes the else branch. -/
theorem select_slt_zero {α : Type} (w : BitVec 32) (hw : 0 ≤ w.toInt) (a b : α) :
    Scalar.select (IntOp.cmpi .slt w 0#32) a b = b := by
  unfold Scalar.select
  rw [if_neg]
  intro hc
  have hlt := IntOp.cmpi_slt.1 hc
  have h0 : (0#32 : BitVec 32).toInt = 0 := by decide
  omega

/-- Both wrapped copies of the source numbers are the source numbers. -/
theorem wrap_src (x1 : IVec S2x524288 32) (h1 : ∀ i, 0 ≤ (x1 i).toInt ∧ (x1 i).toInt < 16384) :
    val_main_v40 (F := Ideal) x1 = val_main_v6 (F := Ideal) x1 ∧
    val_main_v23 (F := Ideal) x1 = val_main_v6 (F := Ideal) x1 := by
  refine ⟨funext fun e => ?_, funext fun e => ?_⟩
  · rw [val_main_v40_apply, val_main_v37_apply, val_main_v36_apply, val_main_c_7_apply]
    exact select_slt_zero _ (src_range x1 h1 e).1 _ _
  · rw [val_main_v23_apply, val_main_v20_apply, val_main_v19_apply, val_main_c_apply]
    exact select_slt_zero _ (src_range x1 h1 e).1 _ _

/-- The wrapped destination numbers are the destination numbers. -/
theorem wrap_dst (x1 : IVec S2x524288 32) (h1 : ∀ i, 0 ≤ (x1 i).toInt ∧ (x1 i).toInt < 16384) :
    val_main_v31 (F := Ideal) x1 = val_main_v7 (F := Ideal) x1 := by
  funext e
  rw [val_main_v31_apply, val_main_v28_apply, val_main_v27_apply, val_main_c_5_apply]
  exact select_slt_zero _ (dst_range x1 h1 e).1 _ _

end Cert.ReferenceIdeal.RefFacts

end
-- ==== Proof.AdjSpec.lean ====
/-
  The adjacency matrix the kernel builds is the one the edge data spell. The kernel scatters the norm of
  every edge into a zero matrix at the pair (destination word, source word) of the edge, each word first
  passed through the rule that counts a negative index from the end. When every word of the edge list
  is a node number, that rule changes nothing, every pair lies inside the matrix, and the update of edge
  `e` lands on `(i, j)` exactly when `i` is its destination and `j` its source: entry `(i, j)` is zero plus
  the sum of the norms of the edges from `j` to `i`. The words, the weights and the norms are the very
  terms the reference computes (the two programs spell these operations alike), and the cast of the matrix
  to a narrower float format is the identity on the extended reals.
-/
import proofs.«105110_j2327872274874_1_alg».proof.Proof.KHost
import proofs.«105110_j2327872274874_1_alg».proof.Proof.IndexK
import proofs.«105110_j2327872274874_1_alg».proof.Proof.RefLayer
import proofs.«105110_j2327872274874_1_alg».proof.Proof.RefFacts
import Idealize.ShloMosaic.Lib.Pipeline.Value
import Idealize.ShloMosaic.Lib.ValueIdx

noncomputable section

namespace Cert.AdjSpec

open Idealize.ShloMosaic Idealize.ShloMosaic.ValueIdx
open Cert.KernelIdeal.HostVals

/-- The edge list and the edge weights, as the kernel's program types them. -/
abbrev EI := IVec Cert.KernelIdeal.S2x524288 32
abbrev EW := FVec Ideal Cert.KernelIdeal.S524288 .f32

/-! ## The kernel's edge data are the reference's -/

theorem dstW_eq (ei : EI) : dstW ei = Cert.ReferenceIdeal.Read.val_main_v7 (F := Ideal) ei := rfl
theorem srcW_eq (ei : EI) : srcW ei = Cert.ReferenceIdeal.Read.val_main_v6 (F := Ideal) ei := rfl
theorem wrap_dst_eq (ei : EI) : wrap (dstW ei) = Cert.ReferenceIdeal.Read.val_main_v31 (F := Ideal) ei := rfl
theorem wrap_src_eq (ei : EI) : wrap (srcW ei) = Cert.ReferenceIdeal.Read.val_main_v40 (F := Ideal) ei := rfl
theorem norm_eq (ei : EI) (ew : EW) : norm (F := Ideal) ei ew = Cert.ReferenceIdeal.Read.val_main_v34 (F := Ideal) ei ew := rfl

/-! ## Where an edge's update lands -/

variable (ei : EI) (h1 : ∀ i, 0 ≤ (ei i).toInt ∧ (ei i).toInt < 16384)

/-- A column of words read in its one column is the word. -/
theorem col_apply (v : IVec Cert.KernelIdeal.S540672 32) (a : Fin 540672) :
    broadcastInDim Cert.KernelIdeal.S540672x1 ![0] Cert.KernelIdeal.Gen.bcast_S540672_S540672x1_0 v (ix2 a (0 : Fin 1)) = v (ix1 a) :=
  broadcastInDim_apply (s := Cert.KernelIdeal.S540672) (t := Cert.KernelIdeal.S540672x1) ![0]
    Cert.KernelIdeal.Gen.bcast_S540672_S540672x1_0 v (ix2 a (0 : Fin 1)) (ix1 a) (fun b => by
      match b with
      | ⟨0, _⟩ =>
        show a.val = if (540672 : Nat) = 1 then 0 else a.val
        rw [if_neg (by decide)])

include h1 in
/-- The first word of an edge's index pair is its destination word. -/
theorem pair0 (a : Fin 540672) :
    adjIdx ei (ix2 a (0 : Fin 2)) = Cert.ReferenceIdeal.Read.val_main_v7 (F := Ideal) ei (ix1 a) := by
  unfold adjIdx
  rw [concatenate_pair_apply_left (t := Cert.KernelIdeal.S540672x2) (s₁ := Cert.KernelIdeal.S540672x1)
    (s₂ := Cert.KernelIdeal.S540672x1) (1 : Fin 2) _ _ _ (ix2 a (0 : Fin 2)) rfl (ix2 a (0 : Fin 1))
    (fun b => by match b with | ⟨0, _⟩ => rfl | ⟨1, _⟩ => rfl)]
  rw [col_apply, wrap_dst_eq, Cert.ReferenceIdeal.RefFacts.wrap_dst ei h1]

include h1 in
/-- The second word of an edge's index pair is its source word. -/
theorem pair1 (a : Fin 540672) :
    adjIdx ei (ix2 a (1 : Fin 2)) = Cert.ReferenceIdeal.Read.val_main_v6 (F := Ideal) ei (ix1 a) := by
  unfold adjIdx
  rw [concatenate_pair_apply_right (t := Cert.KernelIdeal.S540672x2) (s₁ := Cert.KernelIdeal.S540672x1)
    (s₂ := Cert.KernelIdeal.S540672x1) (1 : Fin 2) _ _ _ (ix2 a (1 : Fin 2)) rfl rfl (ix2 a (0 : Fin 1))
    (fun b hb => by match b with | ⟨0, _⟩ => rfl | ⟨1, _⟩ => exact absurd rfl hb) rfl]
  rw [col_apply, wrap_src_eq, (Cert.ReferenceIdeal.RefFacts.wrap_src ei h1).1]

include h1 in
/-- The adjacency matrix the kernel builds is the one the edge data spell. -/
theorem adj_eq_spec (ew : EW) : adj (F := Ideal) ei ew = Cert.ReferenceIdeal.RefLayer.specAdj ei ew := by
  funext p
  have hs := Cert.ReferenceIdeal.RefFacts.src_range ei h1
  have hd := Cert.ReferenceIdeal.RefFacts.dst_range ei h1
  -- the scatter at `p`: the zero there plus the sum of the norms of the edges that land there
  have hunf : adj (F := Ideal) ei ew p
      = Ideal.ofBits .f32 0x00000000#32
        + ∑ e ∈ Finset.univ.filter (fun e => Cert.KernelIdeal.scatter_S16384x16384_S540672x2_S540672_n_01_01_1.resultIdx? e (adjIdx ei) = some p),
            norm (F := Ideal) ei ew e := rfl
  rw [hunf, Cert.ReferenceIdeal.RefFacts.zero_real, norm_eq, EReal.coe_zero]
  unfold Cert.ReferenceIdeal.RefLayer.specAdj
  refine congrArg (fun s => (0 : EReal) + s) ?_
  refine Finset.sum_congr (Finset.filter_congr fun e _ => ?_) fun _ _ => rfl
  obtain ⟨a, rfl⟩ : ∃ a : Fin 540672, e = ix1 a := ⟨e 0, eq_ix1 e⟩
  have hd' : 0 ≤ (adjIdx ei (ix2 a (0 : Fin 2))).toInt ∧ (adjIdx ei (ix2 a (0 : Fin 2))).toInt < 16384 := by
    rw [pair0 ei h1 a]; exact hd _
  have hs' : 0 ≤ (adjIdx ei (ix2 a (1 : Fin 2))).toInt ∧ (adjIdx ei (ix2 a (1 : Fin 2))).toInt < 16384 := by
    rw [pair1 ei h1 a]; exact hs _
  rw [Cert.KernelIdeal.IndexFacts.resultIdx2 (adjIdx ei) (ix1 a) hd' hs' p]
  show (((p 0).val : Int) = (adjIdx ei (ix2 a (0 : Fin 2))).toInt ∧ ((p 1).val : Int) = (adjIdx ei (ix2 a (1 : Fin 2))).toInt) ↔ _
  rw [pair0 ei h1 a, pair1 ei h1 a]

end Cert.AdjSpec

end
-- ==== Proof.RefReal.lean ====
/-
  The reference's feature matrices are real-valued when its inputs are, over the extended reals.
  A finite sum of products of reals is a real; hence a matrix product of two real-valued matrices
  is real-valued (the first layer's X·W from the inputs, the second layer's from the first layer's
  output and the second weight matrix, and the dense aggregation Â·H for any real-valued Â, H);
  and max(x + y, 0) is a real for reals x, y, so the first layer's output max(agg + bias, 0) is
  real-valued once the aggregated matrix is.
-/
import proofs.«105110_j2327872274874_1_alg».proof.Proof.Gen.ReferenceIdeal.Read
import proofs.«105110_j2327872274874_1_alg».proof.Proof.AggLaw
import Idealize.ShloMosaic.Lib.ValueIdx
import Idealize.ShloMosaic.PureOps.Ideal

noncomputable section

namespace Cert.ReferenceIdeal.RefReal

open Cert.ReferenceIdeal Cert.ReferenceIdeal.Read Idealize.ShloMosaic
open scoped BigOperators

/-- A finite sum of products of reals is a real. -/
theorem dotsum_real {n : Nat} (a b : Fin n → EReal) (ha : ∀ k, ∃ r : ℝ, a k = (r : EReal))
    (hb : ∀ k, ∃ r : ℝ, b k = (r : EReal)) : ∃ r : ℝ, ∑ k : Fin n, a k * b k = (r : EReal) :=
  Cert.AggLaw.exists_real_sum Finset.univ (fun k => a k * b k) (fun k _ => by
    obtain ⟨p, hp⟩ := ha k
    obtain ⟨q, hq⟩ := hb k
    exact ⟨p * q, by rw [hp, hq, EReal.coe_mul]⟩)

/-- The first layer's product X·W is real-valued when X and W are. -/
theorem h1_real (x0 : FVec Ideal S16384x16384 .f32) (x3 : FVec Ideal S16384x256 .f32)
    (h0 : ∀ i, ∃ r : ℝ, x0 i = (r : EReal)) (h3 : ∀ i, ∃ r : ℝ, x3 i = (r : EReal)) :
    ∀ i, ∃ r : ℝ, val_main_v4 (F := Ideal) x0 x3 i = (r : EReal) := by
  intro i
  rw [val_main_v4_apply]
  exact dotsum_real _ _ (fun k => h0 _) (fun k => h3 _)

/-- max(x + y, 0) is a real for reals x and y. -/
theorem relu_real (x y : EReal) (hx : ∃ r : ℝ, x = (r : EReal)) (hy : ∃ r : ℝ, y = (r : EReal)) :
    ∃ r : ℝ, max (x + y) 0 = (r : EReal) := by
  obtain ⟨p, rfl⟩ := hx
  obtain ⟨q, rfl⟩ := hy
  rw [← EReal.coe_add]
  rcases le_total ((p + q : ℝ) : EReal) 0 with h | h
  · exact ⟨0, by rw [max_eq_right h, EReal.coe_zero]⟩
  · exact ⟨p + q, max_eq_left h⟩

/-- The pattern of +0.0 denotes 0. -/
theorem zero_bits : Ideal.ofBits .f32 0x00000000#32 = (0 : EReal) := by
  simp [Ideal.ofBits, Ideal.ieee]

/-- The first layer's output max(agg + bias, 0) is real-valued when the aggregated matrix and the
    bias are. -/
theorem r1_real (x0 : FVec Ideal S16384x16384 .f32) (x1 : IVec S2x524288 32) (x2 : FVec Ideal S524288 .f32)
    (x3 : FVec Ideal S16384x256 .f32) (x4 : FVec Ideal S256 .f32)
    (h47 : ∀ i, ∃ r : ℝ, val_main_v47 (F := Ideal) x0 x1 x2 x3 i = (r : EReal))
    (h4 : ∀ i, ∃ r : ℝ, x4 i = (r : EReal)) :
    ∀ i, ∃ r : ℝ, val_main_v51 (F := Ideal) x0 x1 x2 x3 x4 i = (r : EReal) := by
  intro i
  rw [val_main_v51_apply, val_main_v50_apply, val_main_call1_v0_apply, val_main_call1_cst_apply,
    val_main_v49_apply, val_main_v48_apply]
  simp only [Ideal.maximumf_def, Ideal.addf_def, Ideal.ofBits_def, zero_bits]
  exact relu_real _ _ (h47 i) (h4 _)

/-- The second layer's product H·W₂ is real-valued when the first layer's output and W₂ are. -/
theorem h2_real (x0 : FVec Ideal S16384x16384 .f32) (x1 : IVec S2x524288 32) (x2 : FVec Ideal S524288 .f32)
    (x3 : FVec Ideal S16384x256 .f32) (x4 : FVec Ideal S256 .f32) (x5 : FVec Ideal S256x16 .f32)
    (h51 : ∀ i, ∃ r : ℝ, val_main_v51 (F := Ideal) x0 x1 x2 x3 x4 i = (r : EReal))
    (h5 : ∀ i, ∃ r : ℝ, x5 i = (r : EReal)) :
    ∀ i, ∃ r : ℝ, val_main_v52 (F := Ideal) x0 x1 x2 x3 x4 x5 i = (r : EReal) := by
  intro i
  rw [val_main_v52_apply]
  exact dotsum_real _ _ (fun k => h51 _) (fun k => h5 _)

/-- A dense aggregation Â·H of real-valued matrices is real at every entry. -/
theorem dense_real (A : (⟨2, ![16384, 16384]⟩ : Shape).Idx → EReal) {C : Nat}
    (H : (⟨2, ![16384, C]⟩ : Shape).Idx → EReal) (hA : ∀ p, ∃ r : ℝ, A p = (r : EReal))
    (hH : ∀ j, ∃ r : ℝ, H j = (r : EReal)) (i : (⟨2, ![16384, C]⟩ : Shape).Idx) :
    ∃ r : ℝ, ∑ k : Fin 16384, A (ValueIdx.ix2 (i 0) k) * H (ValueIdx.ix2 k (i 1)) = (r : EReal) :=
  dotsum_real _ _ (fun k => hA _) (fun k => hH _)

end Cert.ReferenceIdeal.RefReal

end
-- ==== Proof.RefValue.lean ====
/-
  The reference computation in closed form, over the extended reals. With Â the normalised
  adjacency matrix read off the extended edge list (entry (i, j) the sum of the edge
  normalisations of the edges from j to i), the reference's result is the two-layer network
    max(Â · (X · W₁) + b₁, 0) · W₂, aggregated once more by Â, plus b₂,
  entry by entry. Each stage of the reference is identified with the corresponding stage of that
  function: the two matrix products by their sums over the contracted index, the two scatter-add
  aggregations by the dense products Â · H (the edge-list aggregation law), the biases by their
  broadcasts along the rows, and the rectifier by the maximum with the constant 0. The inputs are
  assumed real-valued and the node numbers in range, which the aggregation law needs.
-/
import proofs.«105110_j2327872274874_1_alg».proof.Proof.Gen.ReferenceIdeal.Read
import proofs.«105110_j2327872274874_1_alg».proof.Proof.Spec
import proofs.«105110_j2327872274874_1_alg».proof.Proof.RefFacts
import proofs.«105110_j2327872274874_1_alg».proof.Proof.RefReal
import proofs.«105110_j2327872274874_1_alg».proof.Proof.RefLayer

noncomputable section

namespace Cert.ReferenceIdeal.RefValue

open Cert.ReferenceIdeal Cert.ReferenceIdeal.Read Idealize.ShloMosaic Idealize.ShloMosaic.ValueIdx
open Cert.ReferenceIdeal.RefLayer (specAdj)
open scoped BigOperators

/-- The first layer's product is X · W₁: its contraction runs over the second axis of X and the
    first of W₁. -/
theorem v4_eq (x0 : FVec Ideal S16384x16384 .f32) (x3 : FVec Ideal S16384x256 .f32) :
    val_main_v4 (F := Ideal) x0 x3 = Cert.Spec.hidden1 x0 x3 := by
  funext i
  rw [val_main_v4_apply]
  show _ = ∑ k : Fin 16384, x0 (ix2 (i 0) k) * x3 (ix2 k (i 1))
  refine Finset.sum_congr rfl fun k _ => ?_
  have el : lidx_main_v4 i k = ix2 (i 0) k :=
    funext fun a => Fin.ext (by match a with | ⟨0, _⟩ => rfl | ⟨1, _⟩ => rfl)
  have er : ridx_main_v4 i k = ix2 k (i 1) :=
    funext fun a => Fin.ext (by match a with | ⟨0, _⟩ => rfl | ⟨1, _⟩ => rfl)
  rw [el, er]
  rfl

section
variable (x0 : FVec Ideal S16384x16384 .f32) (x1 : IVec S2x524288 32) (x2 : FVec Ideal S524288 .f32)
  (x3 : FVec Ideal S16384x256 .f32) (x4 : FVec Ideal S256 .f32) (x5 : FVec Ideal S256x16 .f32)
  (x6 : FVec Ideal S16 .f32)
  (h0 : ∀ i, ∃ r : ℝ, x0 i = (r : EReal)) (h2 : ∀ i, ∃ r : ℝ, x2 i = (r : EReal))
  (h3 : ∀ i, ∃ r : ℝ, x3 i = (r : EReal)) (h4 : ∀ i, ∃ r : ℝ, x4 i = (r : EReal))
  (h5 : ∀ i, ∃ r : ℝ, x5 i = (r : EReal))
  (h1 : ∀ i, 0 ≤ (x1 i).toInt ∧ (x1 i).toInt < 16384)
include h0 h2 h3 h1

/-- The first aggregation (scatter-add of the normalised gathered rows of X · W₁) is Â · (X · W₁). -/
theorem v47_eq : val_main_v47 (F := Ideal) x0 x1 x2 x3
    = Cert.Spec.agg256 (specAdj x1 x2) (val_main_v4 (F := Ideal) x0 x3) := by
  funext i
  unfold val_main_v47 val_main_v44 val_main_v42
  show _ = ∑ k : Fin 16384, specAdj x1 x2 (ix2 (i 0) k) * val_main_v4 (F := Ideal) x0 x3 (ix2 k (i 1))
  exact RefLayer.layer256 x1 x2 (RefFacts.src_range x1 h1) (RefFacts.dst_range x1 h1) (RefFacts.wrap_src x1 h1).1
    (RefFacts.norm_real x1 x2 h2) (val_main_v4 (F := Ideal) x0 x3) (RefReal.h1_real x0 x3 h0 h3) i

/-- The aggregated matrix is real-valued. -/
theorem v47_real : ∀ j, ∃ r : ℝ, val_main_v47 (F := Ideal) x0 x1 x2 x3 j = (r : EReal) := by
  intro j
  rw [v47_eq x0 x1 x2 x3 h0 h2 h3 h1]
  show ∃ r : ℝ, ∑ k : Fin 16384, specAdj x1 x2 (ix2 (j 0) k) * val_main_v4 (F := Ideal) x0 x3 (ix2 k (j 1)) = (r : EReal)
  exact RefReal.dense_real (specAdj x1 x2) (val_main_v4 (F := Ideal) x0 x3)
    (RefLayer.specAdj_real x1 x2 (RefFacts.norm_real x1 x2 h2)) (RefReal.h1_real x0 x3 h0 h3) j

/-- The first layer's output is max(Â · (X · W₁) + b₁, 0), the bias added along the rows. -/
theorem v51_eq : val_main_v51 (F := Ideal) x0 x1 x2 x3 x4 = Cert.Spec.first (specAdj x1 x2) x0 x3 x4 := by
  funext i
  rw [val_main_v51_apply, val_main_v50_apply, val_main_call1_v0_apply, val_main_call1_cst_apply,
    val_main_v49_apply, val_main_v48_apply, v47_eq x0 x1 x2 x3 h0 h2 h3 h1, v4_eq]
  have eb : idx_main_v48 (idx_main_v49 i) = ix1 (i 1) :=
    funext fun a => Fin.ext (by match a with | ⟨0, _⟩ => rfl)
  rw [eb]
  simp only [Ideal.maximumf_def, Ideal.addf_def, Ideal.ofBits_def, RefReal.zero_bits]
  rfl

/-- The second layer's product is (first layer's output) · W₂. -/
theorem v52_eq : val_main_v52 (F := Ideal) x0 x1 x2 x3 x4 x5 = Cert.Spec.hidden2 (specAdj x1 x2) x0 x3 x4 x5 := by
  funext i
  rw [val_main_v52_apply, v51_eq x0 x1 x2 x3 x4 h0 h2 h3 h1]
  show _ = ∑ k : Fin 256, Cert.Spec.first (specAdj x1 x2) x0 x3 x4 (ix2 (i 0) k) * x5 (ix2 k (i 1))
  refine Finset.sum_congr rfl fun k _ => ?_
  have el : lidx_main_v52 i k = ix2 (i 0) k :=
    funext fun a => Fin.ext (by match a with | ⟨0, _⟩ => rfl | ⟨1, _⟩ => rfl)
  have er : ridx_main_v52 i k = ix2 k (i 1) :=
    funext fun a => Fin.ext (by match a with | ⟨0, _⟩ => rfl | ⟨1, _⟩ => rfl)
  rw [el, er]
  rfl

include h4 h5

/-- The second aggregation is Â · (second layer's product). -/
theorem v95_eq : val_main_v95 (F := Ideal) x0 x1 x2 x3 x4 x5
    = Cert.Spec.agg16 (specAdj x1 x2) (val_main_v52 (F := Ideal) x0 x1 x2 x3 x4 x5) := by
  funext i
  unfold val_main_v95 val_main_v92 val_main_v90
  show _ = ∑ k : Fin 16384, specAdj x1 x2 (ix2 (i 0) k) * val_main_v52 (F := Ideal) x0 x1 x2 x3 x4 x5 (ix2 k (i 1))
  exact RefLayer.layer16 x1 x2 (RefFacts.src_range x1 h1) (RefFacts.dst_range x1 h1) (RefFacts.wrap_src x1 h1).1
    (RefFacts.norm_real x1 x2 h2) (val_main_v52 (F := Ideal) x0 x1 x2 x3 x4 x5)
    (RefReal.h2_real x0 x1 x2 x3 x4 x5
      (RefReal.r1_real x0 x1 x2 x3 x4 (v47_real x0 x1 x2 x3 h0 h2 h3 h1) h4) h5) i

/-- The reference's result is the two-layer network at the adjacency matrix Â. -/
theorem ref_eq : val_main_v98 (F := Ideal) x0 x1 x2 x3 x4 x5 x6
    = Cert.Spec.gcn (Cert.ReferenceIdeal.RefLayer.specAdj x1 x2) x0 x3 x4 x5 x6 := by
  funext i
  rw [val_main_v98_apply, val_main_v97_apply, val_main_v96_apply,
    v95_eq x0 x1 x2 x3 x4 x5 h0 h2 h3 h4 h5 h1, v52_eq x0 x1 x2 x3 x4 x5 h0 h2 h3 h1]
  have eb : idx_main_v96 (idx_main_v97 i) = ix1 (i 1) :=
    funext fun a => Fin.ext (by match a with | ⟨0, _⟩ => rfl)
  rw [eb]
  simp only [Ideal.addf_def]
  rfl

end

end Cert.ReferenceIdeal.RefValue

end
-- ==== Proof.lean ====
/-
  Two programs for a two-layer graph convolution over 16384 nodes: node features `x`, an edge list with
  edge weights, weights `w1`, `w2` and biases `b1`, `b2`. Both first norm the edges: self loops of weight
  one are appended, a node's degree is the sum of the weights of the edges into it, and an edge's norm is
  its weight times the inverse square roots of the degrees of its two ends. A layer then sends a feature
  matrix `H` to `A · (H · w) + b`, where `A i j` is the sum of the norms of the edges from `j` to `i`; the
  first layer is followed by `max · 0`.

  The kernel builds `A` densely, by scattering the norms into a zero matrix, and computes four matrix
  products on the matrix unit, a block of rows at a time. The reference never forms `A`: per layer it
  gathers the source row of `H · w` for every edge, scales it by the edge's norm and scatter-adds it to the
  destination row. The two agree when distributing a feature over the sum that defines `A i j` is sound,
  that is when the norms and the features are real numbers — so the finiteness of the float inputs is
  used — and when every word of the edge list is a node number, so that the gather, the two scatters and
  the rule for negative indices all address the same entries; the precondition states both.

  Frames: the two kernel programs' by their generated frame theorems, the reference's by its generated
  run. Nothing was rewritten when the kernel was idealized, so that conjunct is trivial. The value claim:
  the kernel's run ends with its result at the network's function of `A` and the arguments (one theorem
  per matrix product, composed), `A` is the adjacency matrix the edge data spell, and the reference's run
  ends at the same function of that matrix, layer by layer through the dense-against-sparse law.
-/
import proofs.«105110_j2327872274874_1_alg».proof.Defs
import proofs.«105110_j2327872274874_1_alg».proof.Proof.Gen.Kernel
import proofs.«105110_j2327872274874_1_alg».proof.Proof.Gen.Kernel.Skeleton
import proofs.«105110_j2327872274874_1_alg».proof.Proof.Gen.Kernel.Launch
import proofs.«105110_j2327872274874_1_alg».proof.Proof.Gen.Kernel.Points
import proofs.«105110_j2327872274874_1_alg».proof.Proof.Gen.Kernel.Frame
import proofs.«105110_j2327872274874_1_alg».proof.Proof.Gen.KernelIdeal
import proofs.«105110_j2327872274874_1_alg».proof.Proof.Gen.KernelIdeal.Skeleton
import proofs.«105110_j2327872274874_1_alg».proof.Proof.Gen.KernelIdeal.Launch
import proofs.«105110_j2327872274874_1_alg».proof.Proof.Gen.KernelIdeal.Points
import proofs.«105110_j2327872274874_1_alg».proof.Proof.Gen.KernelIdeal.Frame
import proofs.«105110_j2327872274874_1_alg».proof.Proof.Gen.ReferenceIdeal
import proofs.«105110_j2327872274874_1_alg».proof.Proof.Gen.ReferenceIdeal.Run
import proofs.«105110_j2327872274874_1_alg».proof.Proof.Gen.ReferenceIdeal.Read
import proofs.«105110_j2327872274874_1_alg».proof.Proof.Gen.Pre_finite_inputs
import proofs.«105110_j2327872274874_1_alg».proof.Proof.PreFacts
import proofs.«105110_j2327872274874_1_alg».proof.Proof.KernelRun
import proofs.«105110_j2327872274874_1_alg».proof.Proof.KernelValue
import proofs.«105110_j2327872274874_1_alg».proof.Proof.AdjSpec
import proofs.«105110_j2327872274874_1_alg».proof.Proof.RefValue
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with their result at the network's function of the adjacency matrix the edge data
    spell and of the arguments, which agree. -/
theorem algebraic : Cert.algebraic_KernelIdeal_ReferenceIdeal := by
  intro m ρ m' ρ' hpre hagree
  refine ⟨fun c => Cert.Spec.gcn
      (Cert.ReferenceIdeal.RefLayer.specAdj (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.RunValue.run_value (F := Ideal) m ρ)
    obtain ⟨h0, h2, h3, h4, h5, h6, h1⟩ := Cert.PreFacts.of_pre _ _ _ _ _ _ _ (hpre c)
    rw [Cert.KernelIdeal.KernelValue.result_eq m ρ c, Cert.AdjSpec.adj_eq_spec _ h1]
  · refine (θ_run Cert.ReferenceIdeal.defs _ _).mono (fun r h c => ⟨(h c).1.trans ?_, (h c).2⟩)
      (Cert.ReferenceIdeal.Value.run (F := Ideal) m' ρ')
    obtain ⟨h0, h2, h3, h4, h5, h6, h1⟩ := Cert.PreFacts.of_pre _ _ _ _ _ _ _ (hpre c)
    rw [Cert.ReferenceIdeal.Read.val_main_v98_eq, (hagree c).1, (hagree c).2.1, (hagree c).2.2.1, (hagree c).2.2.2.1,
      (hagree c).2.2.2.2.1, (hagree c).2.2.2.2.2.1, (hagree c).2.2.2.2.2.2]
    exact Cert.ReferenceIdeal.RefValue.ref_eq _ _ _ _ _ _ _ h0 h2 h3 h4 h5 h1

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
